-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_40000" .f32 0x37D1B717#32 ((1 / 40000 : ℝ) : EReal)
  ∧ IdealRules.named_const.Statement Cert.KernelIdeal.κ "inv_40000" .f32 0x37D1B717#32 ((1 / 40000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x256 : Shape := ⟨3, ![4, 10000, 256]⟩
abbrev S4x160000 : Shape := ⟨2, ![4, 160000]⟩
abbrev S768x256 : Shape := ⟨2, ![768, 256]⟩
abbrev S256 : Shape := ⟨1, ![256]⟩
abbrev S2x160000 : Shape := ⟨2, ![2, 160000]⟩
abbrev S_ : Shape := ⟨0, ![]⟩

class Facts : Prop where
  bcast_S_S4x10000x256 : S_.BroadcastsInDim S4x10000x256 (![] : Fin 0 → Fin S4x10000x256.rank)
  reducesTo_S4x10000x256_S_d0_1_2 : S4x10000x256.ReducesTo [0, 1, 2] S_
  h_S_ : 0 < S_.numel
  bcast_S_S4x160000 : S_.BroadcastsInDim S4x160000 (![] : Fin 0 → Fin S4x160000.rank)
  reducesTo_S4x160000_S_d0_1 : S4x160000.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4x10000x256 .f32) (main_arg1 : FVec F S4x160000 .f32) (main_arg2 : FVec F S768x256 .f32) (main_arg3 : FVec F S256 .f32) (main_arg4 : FVec F S256 .f32) (main_arg5 : FVec F S256 .f32) (main_arg6 : IVec S2x160000 32) : IVec S_ 1 :=
  let main_v0 : FVec F S4x10000x256 .f32 := Host.absf main_arg0
  let main_cst : FVec F S_ .f32 := constant S_ .f32 0x7F800000#32
  let main_v1 : FVec F S4x10000x256 .f32 := broadcastInDim S4x10000x256 ![] bcast_S_S4x10000x256 main_cst
  let main_v2 : IVec S4x10000x256 1 := cmpf .olt main_v0 main_v1
  let main_c : IVec S_ 1 := constantI S_ 1 1#1
  let main_v3 : IVec S_ 1 := (fun x v => Host.reduce IntOp.andi x v reducesTo_S4x10000x256_S_d0_1_2 h_S_) main_v2 main_c
  let main_v4 : FVec F S4x160000 .f32 := Host.absf main_arg1
  let main_cst_0 : FVec F S_ .f32 := constant S_ .f32 0x7F800000#32
  let main_v5 : FVec F S4x160000 .f32 := broadcastInDim S4x160000 ![] bcast_S_S4x160000 main_cst_0
  let main_v6 : IVec S4x160000 1 := cmpf .olt main_v4 main_v5
  let main_c_1 : IVec S_ 1 := constantI S_ 1 1#1
  let main_v7 : IVec S_ 1 := (fun x v => Host.reduce IntOp.andi x v reducesTo_S4x160000_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4x10000x256 : Shape := ⟨3, ![4, 10000, 256]⟩
abbrev S4x160000 : Shape := ⟨2, ![4, 160000]⟩
abbrev S768x256 : Shape := ⟨2, ![768, 256]⟩
abbrev S256 : Shape := ⟨1, ![256]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S4x160000x256 : Shape := ⟨3, ![4, 160000, 256]⟩
abbrev S4x160000x1 : Shape := ⟨3, ![4, 160000, 1]⟩
abbrev S10000x256 : Shape := ⟨2, ![10000, 256]⟩
abbrev S10000 : Shape := ⟨1, ![10000]⟩
abbrev S4x10000 : Shape := ⟨2, ![4, 10000]⟩
abbrev S4x10000x1 : Shape := ⟨3, ![4, 10000, 1]⟩
abbrev S1x10000x256 : Shape := ⟨3, ![1, 10000, 256]⟩
abbrev S3x10000x256 : Shape := ⟨3, ![3, 10000, 256]⟩
abbrev S40000x256 : Shape := ⟨2, ![40000, 256]⟩
abbrev S1x256 : Shape := ⟨2, ![1, 256]⟩
abbrev S4000x256 : Shape := ⟨2, ![4000, 256]⟩
abbrev S256x256 : Shape := ⟨2, ![256, 256]⟩

abbrev nBuf : Space → Nat
  | .hbm => 63
  | .vmem => 22
  | .smem => 0
  | _ => 0

abbrev bufTy : (tb : Table) → Fin (tcTables nBuf tb) → BufTy
  | .hbm, ⟨0, _⟩ => ⟨S4x10000x256, .f32⟩
  | .hbm, ⟨1, _⟩ => ⟨S4x160000, .f32⟩
  | .hbm, ⟨2, _⟩ => ⟨S768x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S2x160000, .i32⟩
  | .hbm, ⟨7, _⟩ => ⟨S1x160000, .i32⟩
  | .hbm, ⟨8, _⟩ => ⟨S160000, .i32⟩
  | .hbm, ⟨9, _⟩ => ⟨S1x160000, .i32⟩
  | .hbm, ⟨10, _⟩ => ⟨S160000, .i32⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S160000x1, .i32⟩
  | .hbm, ⟨19, _⟩ => ⟨S4x160000x256, .f32⟩
  | .hbm, ⟨20, _⟩ => ⟨S4x160000x1, .f32⟩
  | .hbm, ⟨21, _⟩ => ⟨S4x160000x256, .f32⟩
  | .hbm, ⟨22, _⟩ => ⟨S4x160000x256, .f32⟩
  | .hbm, ⟨23, _⟩ => ⟨S_, .f32⟩
  | .hbm, ⟨24, _⟩ => ⟨S10000x256, .f32⟩
  | .hbm, ⟨25, _⟩ => ⟨S160000x1, .i32⟩
  | .hbm, ⟨26, _⟩ => ⟨S4x10000x256, .f32⟩
  | .hbm, ⟨27, _⟩ => ⟨S4x10000x256, .f32⟩
  | .hbm, ⟨28, _⟩ => ⟨S_, .f32⟩
  | .hbm, ⟨29, _⟩ => ⟨S10000, .f32⟩
  | .hbm, ⟨30, _⟩ => ⟨S160000x1, .i32⟩
  | .hbm, ⟨31, _⟩ => ⟨S4x10000, .f32⟩
  | .hbm, ⟨32, _⟩ => ⟨S4x10000, .f32⟩
  | .hbm, ⟨33, _⟩ => ⟨S_, .f32⟩
  | .hbm, ⟨34, _⟩ => ⟨S4x10000, .f32⟩
  | .hbm, ⟨35, _⟩ => ⟨S4x10000, .i1⟩
  | .hbm, ⟨36, _⟩ => ⟨S_, .f32⟩
  | .hbm, ⟨37, _⟩ => ⟨S_, .f32⟩
  | .hbm, ⟨38, _⟩ => ⟨S10000, .f32⟩
  | .hbm, ⟨39, _⟩ => ⟨S4x10000, .f32⟩
  | .hbm, ⟨40, _⟩ => ⟨S4x10000, .f32⟩
  | .hbm, ⟨41, _⟩ => ⟨S4x10000x1, .f32⟩
  | .hbm, ⟨42, _⟩ => ⟨S4x10000x256, .f32⟩
  | .hbm, ⟨43, _⟩ => ⟨S4x10000x256, .f32⟩
  | .hbm, ⟨44, _⟩ => ⟨S_, .f32⟩
  | .hbm, ⟨45, _⟩ => ⟨S1x10000x256, .f32⟩
  | .hbm, ⟨46, _⟩ => ⟨S3x10000x256, .f32⟩
  | .hbm, ⟨47, _⟩ => ⟨S4x10000x256, .f32⟩
  | .hbm, ⟨48, _⟩ => ⟨S40000x256, .f32⟩
  | .hbm, ⟨49, _⟩ => ⟨S40000x256, .bf16⟩
  | .hbm, ⟨50, _⟩ => ⟨S40000x256, .f32⟩
  | .hbm, ⟨51, _⟩ => ⟨S40000x256, .bf16⟩
  | .hbm, ⟨52, _⟩ => ⟨S40000x256, .f32⟩
  | .hbm, ⟨53, _⟩ => ⟨S40000x256, .bf16⟩
  | .hbm, ⟨54, _⟩ => ⟨S768x256, .bf16⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S40000x256, .f32⟩
  | .hbm, ⟨59, _⟩ => ⟨S1x256, .f32⟩
  | .hbm, ⟨60, _⟩ => ⟨S1x256, .f32⟩
  | .hbm, ⟨61, _⟩ => ⟨S40000x256, .f32⟩
  | .hbm, ⟨62, _⟩ => ⟨S4x10000x256, .f32⟩
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S4000x256, .bf16⟩
  | .local _ .vmem, ⟨5, _⟩ => ⟨S4000x256, .bf16⟩
  | .local _ .vmem, ⟨6, _⟩ => ⟨S768x256, .bf16⟩
  | .local _ .vmem, ⟨7, _⟩ => ⟨S1x256, .f32⟩
  | .local _ .vmem, ⟨8, _⟩ => ⟨S4000x256, .f32⟩
  | .local _ .vmem, ⟨9, _⟩ => ⟨S4000x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S4000x256, .f32⟩
  | .local _ .vmem, ⟨15, _⟩ => ⟨S4000x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S4000x256, .f32⟩
  | .local _ .vmem, ⟨21, _⟩ => ⟨S4000x256, .f32⟩
  | _, _ => ⟨S4x10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v41_2 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_26 : BitVec 32 := 0#32
  let v42 : BitVec 1 := Scalar.cmpi .ne v41 c0_i32_26
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S4x160000_S4x160000x1_0_1 : S4x160000.BroadcastsInDim S4x160000x1 (![0, 1] : Fin 2 → Fin S4x160000x1.rank)
  bcast_S4x160000x1_S4x160000x256_0_1_2 : S4x160000x1.BroadcastsInDim S4x160000x256 (![0, 1, 2] : Fin 3 → Fin S4x160000x256.rank)
  bcast_S_S10000x256 : S_.BroadcastsInDim S10000x256 (![] : Fin 0 → Fin S10000x256.rank)
  bcast_S10000x256_S4x10000x256_1_2 : S10000x256.BroadcastsInDim S4x10000x256 (![1, 2] : Fin 2 → Fin S4x10000x256.rank)
  bcast_S_S10000 : S_.BroadcastsInDim S10000 (![] : Fin 0 → Fin S10000.rank)
  bcast_S10000_S4x10000_1 : S10000.BroadcastsInDim S4x10000 (![1] : Fin 1 → Fin S4x10000.rank)
  bcast_S_S4x10000 : S_.BroadcastsInDim S4x10000 (![] : Fin 0 → Fin S4x10000.rank)
  bcast_S4x10000_S4x10000x1_0_1 : S4x10000.BroadcastsInDim S4x10000x1 (![0, 1] : Fin 2 → Fin S4x10000x1.rank)
  bcast_S4x10000x1_S4x10000x256_0_1_2 : S4x10000x1.BroadcastsInDim S4x10000x256 (![0, 1, 2] : Fin 3 → Fin S4x10000x256.rank)
  bcast_S_S1x10000x256 : S_.BroadcastsInDim S1x10000x256 (![] : Fin 0 → Fin S1x10000x256.rank)
  slices_S4x10000x256_S3x10000x256_1_0_0 : S4x10000x256.Slices ![1, 0, 0] S3x10000x256
  concatenates_S1x10000x256_S3x10000x256_S4x10000x256_d0 : Shape.Concatenates [S1x10000x256, S3x10000x256] S4x10000x256 0
  shapeCasts_S4x10000x256_S40000x256 : S4x10000x256.ShapeCasts S40000x256
  bitsLt_bf16_f32 : FTy.bits .bf16 < FTy.bits .f32
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S768x256_S256x256_0_0 : ∀ a, (![0, 0] : Fin 2 → Nat) a + S256x256.size a ≤ S768x256.size a
  h_S256x256 : 0 < S256x256.numel
  shapeCasts_S256x256_S256x256 : S256x256.ShapeCasts S256x256
  inb_S768x256_S256x256_256_0 : ∀ a, (![256, 0] : Fin 2 → Nat) a + S256x256.size a ≤ S768x256.size a
  inb_S768x256_S256x256_512_0 : ∀ a, (![512, 0] : Fin 2 → Nat) a + S256x256.size a ≤ S768x256.size a
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S1x256_S4000x256 : S1x256.Broadcasts S4000x256
  reduces_S4000x256_S256 : S4000x256.Reduces [0] S256
  shapeCasts_S40000x256_S4x10000x256 : S40000x256.ShapeCasts S4x10000x256
  gather_S4x10000x256_S160000x1_S4x160000x256_02_1_n_n_1_1_41256_wf : GatherDims.WF S4x10000x256 S160000x1 S4x160000x256 [0, 2] [1] [] [1] [] 1 ![4, 1, 256]
  scatter_S4x10000x256_S160000x1_S4x160000x256_02_1_1_1_wf : ScatterDims.WF S4x10000x256 S160000x1 S4x160000x256 [0, 2] [1] [1] 1
  scatter_S4x10000_S160000x1_S4x160000_0_1_1_1_wf : ScatterDims.WF S4x10000 S160000x1 S4x160000 [0] [1] [1] 1
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S40000x256.size a
  hwx0_0 : ∀ i : grid0.Coords, EltTy.bits .bf16 = 32 ∨ (Rect.block (s := S40000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S40000x256.size a
  hwx0_1 : ∀ i : grid0.Coords, EltTy.bits .bf16 = 32 ∨ (Rect.block (s := S40000x256) S4000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S40000x256.size a
  hwx0_2 : ∀ i : grid0.Coords, EltTy.bits .bf16 = 32 ∨ (Rect.block (s := S40000x256) S4000x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .bf16 = 32 ∨ (Rect.block (s := S768x256) S768x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S40000x256.size a
  hwx0_5 : ∀ i : grid0.Coords, EltTy.bits .f32 = 32 ∨ (Rect.block (s := S40000x256) S4000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S40000x256.size a
  hwx1_0 : ∀ i : grid1.Coords, EltTy.bits .f32 = 32 ∨ (Rect.block (s := S40000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S40000x256.size a
  hwx1_5 : ∀ i : grid1.Coords, EltTy.bits .f32 = 32 ∨ (Rect.block (s := S40000x256) S4000x256.size (cc1_transform_5 i) (hinb1_5 i)).WholeWords (EltTy.packing .f32)

variable [Facts₀]

def gather_S4x10000x256_S160000x1_S4x160000x256_02_1_n_n_1_1_41256 : GatherDims S4x10000x256 S160000x1 S4x160000x256 where
  offsetDims := [0, 2]
  collapsedSliceDims := [1]
  operandBatchingDims := []
  startIndicesBatchingDims := []
  startIndexMap := [1]
  indexVectorDim := 1
  sliceSizes := ![4, 1, 256]
  wf := gather_S4x10000x256_S160000x1_S4x160000x256_02_1_n_n_1_1_41256_wf
def scatter_S4x10000x256_S160000x1_S4x160000x256_02_1_1_1 : ScatterDims S4x10000x256 S160000x1 S4x160000x256 where
  updateWindowDims := [0, 2]
  insertedWindowDims := [1]
  scatterDimsToOperandDims := [1]
  indexVectorDim := 1
  wf := scatter_S4x10000x256_S160000x1_S4x160000x256_02_1_1_1_wf
def scatter_S4x10000_S160000x1_S4x160000_0_1_1_1 : ScatterDims S4x10000 S160000x1 S4x160000 where
  updateWindowDims := [0]
  insertedWindowDims := [1]
  scatterDimsToOperandDims := [1]
  indexVectorDim := 1
  wf := scatter_S4x10000_S160000x1_S4x160000_0_1_1_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v32) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S4000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41_0) S4000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v41_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v41_0) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41_1) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41_2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x10000x256 : Shape := ⟨3, ![4, 10000, 256]⟩
abbrev S4x160000 : Shape := ⟨2, ![4, 160000]⟩
abbrev S768x256 : Shape := ⟨2, ![768, 256]⟩
abbrev S256 : Shape := ⟨1, ![256]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S4x160000x256 : Shape := ⟨3, ![4, 160000, 256]⟩
abbrev S4x160000x1 : Shape := ⟨3, ![4, 160000, 1]⟩
abbrev S10000x256 : Shape := ⟨2, ![10000, 256]⟩
abbrev S10000 : Shape := ⟨1, ![10000]⟩
abbrev S4x10000 : Shape := ⟨2, ![4, 10000]⟩
abbrev S4x10000x1 : Shape := ⟨3, ![4, 10000, 1]⟩
abbrev S1x10000x256 : Shape := ⟨3, ![1, 10000, 256]⟩
abbrev S3x10000x256 : Shape := ⟨3, ![3, 10000, 256]⟩
abbrev S4x10000x768 : Shape := ⟨3, ![4, 10000, 768]⟩
abbrev S40000x768 : Shape := ⟨2, ![40000, 768]⟩
abbrev S40000x256 : Shape := ⟨2, ![40000, 256]⟩
abbrev S1x256 : Shape := ⟨2, ![1, 256]⟩

abbrev nBuf : Space → Nat
  | .hbm => 101
  | .vmem => 0
  | .smem => 0
  | _ => 0

abbrev bufTy : (tb : Table) → Fin (tcTables nBuf tb) → BufTy
  | .hbm, ⟨0, _⟩ => ⟨S4x10000x256, .f32⟩
  | .hbm, ⟨1, _⟩ => ⟨S4x160000, .f32⟩
  | .hbm, ⟨2, _⟩ => ⟨S768x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S2x160000, .i32⟩
  | .hbm, ⟨7, _⟩ => ⟨S1x160000, .i32⟩
  | .hbm, ⟨8, _⟩ => ⟨S160000, .i32⟩
  | .hbm, ⟨9, _⟩ => ⟨S1x160000, .i32⟩
  | .hbm, ⟨10, _⟩ => ⟨S160000, .i32⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S160000x1, .i32⟩
  | .hbm, ⟨19, _⟩ => ⟨S4x160000x256, .f32⟩
  | .hbm, ⟨20, _⟩ => ⟨S4x160000x1, .f32⟩
  | .hbm, ⟨21, _⟩ => ⟨S4x160000x256, .f32⟩
  | .hbm, ⟨22, _⟩ => ⟨S4x160000x256, .f32⟩
  | .hbm, ⟨23, _⟩ => ⟨S_, .f32⟩
  | .hbm, ⟨24, _⟩ => ⟨S10000x256, .f32⟩
  | .hbm, ⟨25, _⟩ => ⟨S160000x1, .i32⟩
  | .hbm, ⟨26, _⟩ => ⟨S4x10000x256, .f32⟩
  | .hbm, ⟨27, _⟩ => ⟨S4x10000x256, .f32⟩
  | .hbm, ⟨28, _⟩ => ⟨S_, .f32⟩
  | .hbm, ⟨29, _⟩ => ⟨S10000, .f32⟩
  | .hbm, ⟨30, _⟩ => ⟨S160000x1, .i32⟩
  | .hbm, ⟨31, _⟩ => ⟨S4x10000, .f32⟩
  | .hbm, ⟨32, _⟩ => ⟨S4x10000, .f32⟩
  | .hbm, ⟨33, _⟩ => ⟨S_, .f32⟩
  | .hbm, ⟨34, _⟩ => ⟨S4x10000, .f32⟩
  | .hbm, ⟨35, _⟩ => ⟨S4x10000, .i1⟩
  | .hbm, ⟨36, _⟩ => ⟨S_, .f32⟩
  | .hbm, ⟨37, _⟩ => ⟨S_, .f32⟩
  | .hbm, ⟨38, _⟩ => ⟨S4x10000, .f32⟩
  | .hbm, ⟨39, _⟩ => ⟨S4x10000, .f32⟩
  | .hbm, ⟨40, _⟩ => ⟨S4x10000x1, .f32⟩
  | .hbm, ⟨41, _⟩ => ⟨S4x10000x256, .f32⟩
  | .hbm, ⟨42, _⟩ => ⟨S4x10000x256, .f32⟩
  | .hbm, ⟨43, _⟩ => ⟨S_, .f32⟩
  | .hbm, ⟨44, _⟩ => ⟨S1x10000x256, .f32⟩
  | .hbm, ⟨45, _⟩ => ⟨S3x10000x256, .f32⟩
  | .hbm, ⟨46, _⟩ => ⟨S4x10000x256, .f32⟩
  | .hbm, ⟨47, _⟩ => ⟨S4x10000x768, .f32⟩
  | .hbm, ⟨48, _⟩ => ⟨S40000x768, .f32⟩
  | .hbm, ⟨49, _⟩ => ⟨S40000x256, .f32⟩
  | .hbm, ⟨50, _⟩ => ⟨S1x256, .f32⟩
  | .hbm, ⟨51, _⟩ => ⟨S40000x256, .f32⟩
  | .hbm, ⟨52, _⟩ => ⟨S40000x256, .f32⟩
  | .hbm, ⟨53, _⟩ => ⟨S_, .f32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S_, .i32⟩
  | .hbm, ⟨59, _⟩ => ⟨S_, .f32⟩
  | .hbm, ⟨60, _⟩ => ⟨S256, .f32⟩
  | .hbm, ⟨61, _⟩ => ⟨S1x256, .f32⟩
  | .hbm, ⟨62, _⟩ => ⟨S_, .f32⟩
  | .hbm, ⟨63, _⟩ => ⟨S1x256, .f32⟩
  | .hbm, ⟨64, _⟩ => ⟨S1x256, .f32⟩
  | .hbm, ⟨65, _⟩ => ⟨S40000x256, .f32⟩
  | .hbm, ⟨66, _⟩ => ⟨S40000x256, .f32⟩
  | .hbm, ⟨67, _⟩ => ⟨S40000x256, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S256, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S256, .f32⟩
  | .hbm, ⟨80, _⟩ => ⟨S256, .f32⟩
  | .hbm, ⟨81, _⟩ => ⟨S1x256, .f32⟩
  | .hbm, ⟨82, _⟩ => ⟨S40000x256, .f32⟩
  | .hbm, ⟨83, _⟩ => ⟨S40000x256, .f32⟩
  | .hbm, ⟨84, _⟩ => ⟨S_, .f32⟩
  | .hbm, ⟨85, _⟩ => ⟨S256, .f32⟩
  | .hbm, ⟨86, _⟩ => ⟨S256, .f32⟩
  | .hbm, ⟨87, _⟩ => ⟨S256, .f32⟩
  | .hbm, ⟨88, _⟩ => ⟨S1x256, .f32⟩
  | .hbm, ⟨89, _⟩ => ⟨S40000x256, .f32⟩
  | .hbm, ⟨90, _⟩ => ⟨S40000x256, .f32⟩
  | .hbm, ⟨91, _⟩ => ⟨S1x256, .f32⟩
  | .hbm, ⟨92, _⟩ => ⟨S40000x256, .f32⟩
  | .hbm, ⟨93, _⟩ => ⟨S40000x256, .f32⟩
  | .hbm, ⟨94, _⟩ => ⟨S1x256, .f32⟩
  | .hbm, ⟨95, _⟩ => ⟨S40000x256, .f32⟩
  | .hbm, ⟨96, _⟩ => ⟨S40000x256, .f32⟩
  | .hbm, ⟨97, _⟩ => ⟨S_, .f32⟩
  | .hbm, ⟨98, _⟩ => ⟨S40000x256, .f32⟩
  | .hbm, ⟨99, _⟩ => ⟨S40000x256, .f32⟩
  | .hbm, ⟨100, _⟩ => ⟨S4x10000x256, .f32⟩
  | _, _ => ⟨S4x10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_cst_2 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_cst_3 : Ref sig .tc := ⟨.hbm, 75, rfl⟩
abbrev main_call1_v12 : Ref sig .tc := ⟨.hbm, 76, rfl⟩
abbrev main_call1_cst_4 : Ref sig .tc := ⟨.hbm, 77, rfl⟩
abbrev main_call1_call0_v0 : Ref sig .tc := ⟨.hbm, 78, rfl⟩
abbrev main_call1_call0_v1 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_8 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call2_cst : Ref sig .tc := ⟨.hbm, 97, rfl⟩
abbrev main_call2_v0 : Ref sig .tc := ⟨.hbm, 98, rfl⟩
abbrev main_v56 : Ref sig .tc := ⟨.hbm, 99, rfl⟩
abbrev main_v57 : Ref sig .tc := ⟨.hbm, 100, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S4x160000_S4x160000x1_0_1 : S4x160000.BroadcastsInDim S4x160000x1 (![0, 1] : Fin 2 → Fin S4x160000x1.rank)
  bcast_S4x160000x1_S4x160000x256_0_1_2 : S4x160000x1.BroadcastsInDim S4x160000x256 (![0, 1, 2] : Fin 3 → Fin S4x160000x256.rank)
  bcast_S_S10000x256 : S_.BroadcastsInDim S10000x256 (![] : Fin 0 → Fin S10000x256.rank)
  bcast_S10000x256_S4x10000x256_1_2 : S10000x256.BroadcastsInDim S4x10000x256 (![1, 2] : Fin 2 → Fin S4x10000x256.rank)
  bcast_S_S10000 : S_.BroadcastsInDim S10000 (![] : Fin 0 → Fin S10000.rank)
  bcast_S10000_S4x10000_1 : S10000.BroadcastsInDim S4x10000 (![1] : Fin 1 → Fin S4x10000.rank)
  bcast_S_S4x10000 : S_.BroadcastsInDim S4x10000 (![] : Fin 0 → Fin S4x10000.rank)
  bcast_S4x10000_S4x10000x1_0_1 : S4x10000.BroadcastsInDim S4x10000x1 (![0, 1] : Fin 2 → Fin S4x10000x1.rank)
  bcast_S4x10000x1_S4x10000x256_0_1_2 : S4x10000x1.BroadcastsInDim S4x10000x256 (![0, 1, 2] : Fin 3 → Fin S4x10000x256.rank)
  bcast_S_S1x10000x256 : S_.BroadcastsInDim S1x10000x256 (![] : Fin 0 → Fin S1x10000x256.rank)
  slices_S4x10000x256_S3x10000x256_1_0_0 : S4x10000x256.Slices ![1, 0, 0] S3x10000x256
  concatenates_S1x10000x256_S3x10000x256_S4x10000x256_d0 : Shape.Concatenates [S1x10000x256, S3x10000x256] S4x10000x256 0
  concatenates_S4x10000x256_S4x10000x256_S4x10000x256_S4x10000x768_d2 : Shape.Concatenates [S4x10000x256, S4x10000x256, S4x10000x256] S4x10000x768 2
  shapeCasts_S4x10000x768_S40000x768 : S4x10000x768.ShapeCasts S40000x768
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  reducesTo_S40000x256_S256_d0 : S40000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S40000x256 : S_.BroadcastsInDim S40000x256 (![] : Fin 0 → Fin S40000x256.rank)
  shapeCasts_S40000x256_S4x10000x256 : S40000x256.ShapeCasts S4x10000x256
  gather_S4x10000x256_S160000x1_S4x160000x256_02_1_n_n_1_1_41256_wf : GatherDims.WF S4x10000x256 S160000x1 S4x160000x256 [0, 2] [1] [] [1] [] 1 ![4, 1, 256]
  scatter_S4x10000x256_S160000x1_S4x160000x256_02_1_1_1_wf : ScatterDims.WF S4x10000x256 S160000x1 S4x160000x256 [0, 2] [1] [1] 1
  scatter_S4x10000_S160000x1_S4x160000_0_1_1_1_wf : ScatterDims.WF S4x10000 S160000x1 S4x160000 [0] [1] [1] 1
  dot_S40000x768_S768x256_S40000x256_1_0_0_1_n_n_wf : DotDims.WF S40000x768 S768x256 S40000x256 [1] [0] [0] [1] [] []

variable [Facts₀]

def gather_S4x10000x256_S160000x1_S4x160000x256_02_1_n_n_1_1_41256 : GatherDims S4x10000x256 S160000x1 S4x160000x256 where
  offsetDims := [0, 2]
  collapsedSliceDims := [1]
  operandBatchingDims := []
  startIndicesBatchingDims := []
  startIndexMap := [1]
  indexVectorDim := 1
  sliceSizes := ![4, 1, 256]
  wf := gather_S4x10000x256_S160000x1_S4x160000x256_02_1_n_n_1_1_41256_wf
def scatter_S4x10000x256_S160000x1_S4x160000x256_02_1_1_1 : ScatterDims S4x10000x256 S160000x1 S4x160000x256 where
  updateWindowDims := [0, 2]
  insertedWindowDims := [1]
  scatterDimsToOperandDims := [1]
  indexVectorDim := 1
  wf := scatter_S4x10000x256_S160000x1_S4x160000x256_02_1_1_1_wf
def scatter_S4x10000_S160000x1_S4x160000_0_1_1_1 : ScatterDims S4x10000 S160000x1 S4x160000 where
  updateWindowDims := [0]
  insertedWindowDims := [1]
  scatterDimsToOperandDims := [1]
  indexVectorDim := 1
  wf := scatter_S4x10000_S160000x1_S4x160000_0_1_1_1_wf
def dot_S40000x768_S768x256_S40000x256_1_0_0_1_n_n : DotDims S40000x768 S768x256 S40000x256 where
  lhsContracting := [1]
  rhsContracting := [0]
  lhsNonContracting := [0]
  rhsNonContracting := [1]
  lhsBatch := []
  rhsBatch := []
  wf := dot_S40000x768_S768x256_S40000x256_1_0_0_1_n_n_wf

class Facts : Prop extends Facts₀ where

variable [Facts]
-- ==== Proof.KB.Run0B.lean ====
/-
  The first pipelined region (the dense layer on a block of 4000 rows, and the running column sums of its output and of
  its squares) as a program on its staging buffers, in the three situations the grid meets: at the first point the two
  running sums are cleared first; at the last point the mean and the variance rows are written from them; at the
  points between neither happens. In each, what every buffer the body stores into ends with is found as a list of
  written pieces.
-/
import proofs.«107287_j91061896610587_1_alg».proof.Proof.Gen.Kernel.Launch
import proofs.«107287_j91061896610587_1_alg».proof.Proof.Gen.Kernel.Skeleton
import proofs.«107287_j91061896610587_1_alg».proof.Proof.Gen.Kernel.Points
import proofs.«107287_j91061896610587_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions over the grid -/

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- "This is the last grid point". -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

set_option maxHeartbeats 2000000 in
/-- A point that is neither first nor last: the running sums are read and written back increased; the mean and
    variance rows are handed back untouched. -/
noncomputable def kernelRun0_B (c : Dev nD) (i : grid0.Coords) (arg1 : Memref sig .tc .vmem S4000x256 .bf16) (harg1 : arg1.IsWhole) (arg2 : Memref sig .tc .vmem S4000x256 .bf16) (harg2 : arg2.IsWhole) (arg3 : Memref sig .tc .vmem S4000x256 .bf16) (harg3 : arg3.IsWhole) (arg4 : Memref sig .tc .vmem S768x256 .bf16) (harg4 : arg4.IsWhole) (arg5 : Memref sig .tc .vmem S1x256 .f32) (harg5 : arg5.IsWhole) (arg6 : Memref sig .tc .vmem S4000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 x1 x2 : Vec F S4000x256 .bf16) (x3 : Vec F S768x256 .bf16) (x4 : Vec F S1x256 .f32) (xs0 xs1 : Vec F S1x256 .f32) :
    Σ' (L5 : List (View.Piece (Elt F) S4000x256 .f32)) (LS0 : List (View.Piece (Elt F) S1x256 .f32)), { LS1 : List (View.Piece (Elt F) S1x256 .f32) //
      ∀ (xi6 xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KB.Run0A.lean ====
/-
  The first region's body at the first grid point: the two running sums are cleared, then increased by this block's
  column sums; the mean and variance rows are handed back untouched.
-/
import proofs.«107287_j91061896610587_1_alg».proof.Proof.Gen.Kernel.Launch
import proofs.«107287_j91061896610587_1_alg».proof.Proof.Gen.Kernel.Skeleton
import proofs.«107287_j91061896610587_1_alg».proof.Proof.Gen.Kernel.Points
import proofs.«107287_j91061896610587_1_alg».proof.Proof.Gen.Kernel.Regions
import proofs.«107287_j91061896610587_1_alg».proof.Proof.KB.Run0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def kernelRun0_A (c : Dev nD) (i : grid0.Coords) (arg1 : Memref sig .tc .vmem S4000x256 .bf16) (harg1 : arg1.IsWhole) (arg2 : Memref sig .tc .vmem S4000x256 .bf16) (harg2 : arg2.IsWhole) (arg3 : Memref sig .tc .vmem S4000x256 .bf16) (harg3 : arg3.IsWhole) (arg4 : Memref sig .tc .vmem S768x256 .bf16) (harg4 : arg4.IsWhole) (arg5 : Memref sig .tc .vmem S1x256 .f32) (harg5 : arg5.IsWhole) (arg6 : Memref sig .tc .vmem S4000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 x1 x2 : Vec F S4000x256 .bf16) (x3 : Vec F S768x256 .bf16) (x4 : Vec F S1x256 .f32) :
    Σ' (L5 : List (View.Piece (Elt F) S4000x256 .f32)) (LS0 : List (View.Piece (Elt F) S1x256 .f32)), { LS1 : List (View.Piece (Elt F) S1x256 .f32) //
      ∀ (xi6 xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KB.Run0C.lean ====
/-
  The first region's body at the last grid point: the two running sums are increased by this block's column sums,
  then the mean row and the variance row are written from them.
-/
import proofs.«107287_j91061896610587_1_alg».proof.Proof.Gen.Kernel.Launch
import proofs.«107287_j91061896610587_1_alg».proof.Proof.Gen.Kernel.Skeleton
import proofs.«107287_j91061896610587_1_alg».proof.Proof.Gen.Kernel.Points
import proofs.«107287_j91061896610587_1_alg».proof.Proof.Gen.Kernel.Regions
import proofs.«107287_j91061896610587_1_alg».proof.Proof.KB.Run0A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def kernelRun0_C (c : Dev nD) (i : grid0.Coords) (arg1 : Memref sig .tc .vmem S4000x256 .bf16) (harg1 : arg1.IsWhole) (arg2 : Memref sig .tc .vmem S4000x256 .bf16) (harg2 : arg2.IsWhole) (arg3 : Memref sig .tc .vmem S4000x256 .bf16) (harg3 : arg3.IsWhole) (arg4 : Memref sig .tc .vmem S768x256 .bf16) (harg4 : arg4.IsWhole) (arg5 : Memref sig .tc .vmem S1x256 .f32) (harg5 : arg5.IsWhole) (arg6 : Memref sig .tc .vmem S4000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 x1 x2 : Vec F S4000x256 .bf16) (x3 : Vec F S768x256 .bf16) (x4 : Vec F S1x256 .f32) (xs0 xs1 : Vec F S1x256 .f32) :
    Σ' (L5 : List (View.Piece (Elt F) S4000x256 .f32)) (L6 L7 LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.KB.Reg0a.lean ====
/-
  The first pipelined region seen by the pipeline, part one: the blocks its windows read, where its two small outputs
  are idle, the two running sums as buffers the body keeps between grid points, and what every buffer the body stores
  into holds after each grid point, by recursion on the point (the running sums after a point are those after the point
  before, increased by the block's column sums; cleared first at the first point).
-/
import proofs.«107287_j91061896610587_1_alg».proof.Proof.Gen.Kernel.Launch
import proofs.«107287_j91061896610587_1_alg».proof.Proof.Gen.Kernel.Skeleton
import proofs.«107287_j91061896610587_1_alg».proof.Proof.Gen.Kernel.Points
import proofs.«107287_j91061896610587_1_alg».proof.Proof.Gen.Kernel.Regions
import proofs.«107287_j91061896610587_1_alg».proof.Proof.KB.Run0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The staging and scratch buffers as the body is called with them -/

abbrev VO0_5 : View sig .tc .vmem S4000x256 .f32 := (Memref.whole cc0_stg5_0 : Memref sig .tc .vmem S4000x256 .f32).view
abbrev VO0_6 : View sig .tc .vmem S1x256 .f32 := (Memref.whole cc0_stg6_0 : Memref sig .tc .vmem S1x256 .f32).view
abbrev VO0_7 : View sig .tc .vmem S1x256 .f32 := (Memref.whole cc0_stg7_0 : Memref sig .tc .vmem S1x256 .f32).view
abbrev ms0_0 (t : Fin cfg0.N) : Memref sig .tc .vmem S4000x256 .bf16 := win0_0.stage (cfg0.slots t 0)
abbrev ms0_1 (t : Fin cfg0.N) : Memref sig .tc .vmem S4000x256 .bf16 := win0_1.stage (cfg0.slots t 1)
abbrev ms0_2 (t : Fin cfg0.N) : Memref sig .tc .vmem S4000x256 .bf16 := win0_2.stage (cfg0.slots t 2)
abbrev ms0_3 (t : Fin cfg0.N) : Memref sig .tc .vmem S768x256 .bf16 := win0_3.stage (cfg0.slots t 3)
abbrev ms0_4 (t : Fin cfg0.N) : Memref sig .tc .vmem S1x256 .f32 := win0_4.stage (cfg0.slots t 4)
abbrev ms0_5 (t : Fin cfg0.N) : Memref sig .tc .vmem S4000x256 .f32 := win0_5.stage (cfg0.slots t 5)
abbrev ms0_6 (t : Fin cfg0.N) : Memref sig .tc .vmem S1x256 .f32 := win0_6.stage (cfg0.slots t 6)
abbrev ms0_7 (t : Fin cfg0.N) : Memref sig .tc .vmem S1x256 .f32 := win0_7.stage (cfg0.slots t 7)
abbrev hs0_0 (t : Fin cfg0.N) : (ms0_0 t).IsWhole := hstage0_0 ((cfg0.slots t 0).cast nbuf0_0)
abbrev hs0_1 (t : Fin cfg0.N) : (ms0_1 t).IsWhole := hstage0_1 ((cfg0.slots t 1).cast nbuf0_1)
abbrev hs0_2 (t : Fin cfg0.N) : (ms0_2 t).IsWhole := hstage0_2 ((cfg0.slots t 2).cast nbuf0_2)
abbrev hs0_3 (t : Fin cfg0.N) : (ms0_3 t).IsWhole := hstage0_3 ((cfg0.slots t 3).cast nbuf0_3)
abbrev hs0_4 (t : Fin cfg0.N) : (ms0_4 t).IsWhole := hstage0_4 ((cfg0.slots t 4).cast nbuf0_4)
abbrev hs0_5 (t : Fin cfg0.N) : (ms0_5 t).IsWhole := hstage0_5 ((cfg0.slots t 5).cast nbuf0_5)
abbrev hs0_6 (t : Fin cfg0.N) : (ms0_6 t).IsWhole := hstage0_6 ((cfg0.slots t 6).cast nbuf0_6)
abbrev hs0_7 (t : Fin cfg0.N) : (ms0_7 t).IsWhole := hstage0_7 ((cfg0.slots t 7).cast nbuf0_7)
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view

/-- The scoped buffers of the core that this region neither stages nor uses: the second region's staging buffers. -/
def rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region may use and need not describe: the two running-sum buffers at some contents, the other scoped
    buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest8 (F := F) c) ∗ (∃ r, prngReg c r)) := by
  unfold Pipeline.ΦA rest8; rw [scopedRest0_eq]; simp only [scM0_0, scM0_1, owns_whole]; try rfl

/-! ## The body's runs at a grid point -/

abbrev runA (c : Dev nD) (t : Fin cfg0.N) (hc0 : cond0_0 (grid0.coords t)) (hc1 : ¬cond0_1 (grid0.coords t)) (x0 x1 x2 : Vec F S4000x256 .bf16) (x3 : Vec F S768x256 .bf16) (x4 : Vec F S1x256 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 x0 x1 x2 x3 x4
abbrev runB (c : Dev nD) (t : Fin cfg0.N) (hc0 : ¬cond0_0 (grid0.coords t)) (hc1 : ¬cond0_1 (grid0.coords t)) (x0 x1 x2 : Vec F S4000x256 .bf16) (x3 : Vec F S768x256 .bf16) (x4 : Vec F S1x256 .f32) (xs0 xs1 : Vec F S1x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 x0 x1 x2 x3 x4 xs0 xs1
abbrev runC (c : Dev nD) (t : Fin cfg0.N) (hc0 : ¬cond0_0 (grid0.coords t)) (hc1 : cond0_1 (grid0.coords t)) (x0 x1 x2 : Vec F S4000x256 .bf16) (x3 : Vec F S768x256 .bf16) (x4 : Vec F S1x256 .f32) (xs0 xs1 : Vec F S1x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 x0 x1 x2 x3 x4 xs0 xs1

/-! ## The written pieces cover their buffers -/

theorem coverA_5 (c t hc0 hc1) (x0 x1 x2 : Vec F S4000x256 .bf16) (x3 : Vec F S768x256 .bf16) (x4 : Vec F S1x256 .f32) (y : S4000x256.Idx) : ∃ pc ∈ (runA (F := F) c t hc0 hc1 x0 x1 x2 x3 x4).1, y ∈ pc.1.set :=
  View.cover_of_tiledL _ S4000x256.size (by sl_kernel_rfl) y
theorem coverA_s0 (c t hc0 hc1) (x0 x1 x2 : Vec F S4000x256 .bf16) (x3 : Vec F S768x256 .bf16) (x4 : Vec F S1x256 .f32) (y : S1x256.Idx) : ∃ pc ∈ (runA (F := F) c t hc0 hc1 x0 x1 x2 x3 x4).2.1, y ∈ pc.1.set :=
  View.cover_of_tiledL _ S1x256.size (by sl_kernel_rfl) y
theorem coverA_s1 (c t hc0 hc1) (x0 x1 x2 : Vec F S4000x256 .bf16) (x3 : Vec F S768x256 .bf16) (x4 : Vec F S1x256 .f32) (y : S1x256.Idx) : ∃ pc ∈ (runA (F := F) c t hc0 hc1 x0 x1 x2 x3 x4).2.2.1, y ∈ pc.1.set :=
  View.cover_of_tiledL _ S1x256.size (by sl_kernel_rfl) y
theorem coverB_5 (c t hc0 hc1) (x0 x1 x2 : Vec F S4000x256 .bf16) (x3 : Vec F S768x256 .bf16) (x4 : Vec F S1x256 .f32) (xs0 xs1 : Vec F S1x256 .f32) (y : S4000x256.Idx) : ∃ pc ∈ (runB (F := F) c t hc0 hc1 x0 x1 x2 x3 x4 xs0 xs1).1, y ∈ pc.1.set :=
  View.cover_of_tiledL _ S4000x256.size (by sl_kernel_rfl) y
theorem coverB_s0 (c t hc0 hc1) (x0 x1 x2 : Vec F S4000x256 .bf16) (x3 : Vec F S768x256 .bf16) (x4 : Vec F S1x256 .f32) (xs0 xs1 : Vec F S1x256 .f32) (y : S1x256.Idx) : ∃ pc ∈ (runB (F := F) c t hc0 hc1 x0 x1 x2 x3 x4 xs0 xs1).2.1, y ∈ pc.1.set :=
  View.cover_of_tiledL _ S1x256.size (by sl_kernel_rfl) y
theorem coverB_s1 (c t hc0 hc1) (x0 x1 x2 : Vec F S4000x256 .bf16) (x3 : Vec F S768x256 .bf16) (x4 : Vec F S1x256 .f32) (xs0 xs1 : Vec F S1x256 .f32) (y : S1x256.Idx) : ∃ pc ∈ (runB (F := F) c t hc0 hc1 x0 x1 x2 x3 x4 xs0 xs1).2.2.1, y ∈ pc.1.set :=
  View.cover_of_tiledL _ S1x256.size (by sl_kernel_rfl) y
theorem coverC_5 (c t hc0 hc1) (x0 x1 x2 : Vec F S4000x256 .bf16) (x3 : Vec F S768x256 .bf16) (x4 : Vec F S1x256 .f32) (xs0 xs1 : Vec F S1x256 .f32) (y : S4000x256.Idx) : ∃ pc ∈ (runC (F := F) c t hc0 hc1 x0 x1 x2 x3 x4 xs0 xs1).1, y ∈ pc.1.set :=
  View.cover_of_tiledL _ S4000x256.size (by sl_kernel_rfl) y
theorem coverC_6 (c t hc0 hc1) (x0 x1 x2 : Vec F S4000x256 .bf16) (x3 : Vec F S768x256 .bf16) (x4 : Vec F S1x256 .f32) (xs0 xs1 : Vec F S1x256 .f32) (y : S1x256.Idx) : ∃ pc ∈ (runC (F := F) c t hc0 hc1 x0 x1 x2 x3 x4 xs0 xs1).2.1, y ∈ pc.1.set :=
  View.cover_of_tiledL _ S1x256.size (by sl_kernel_rfl) y
theorem coverC_7 (c t hc0 hc1) (x0 x1 x2 : Vec F S4000x256 .bf16) (x3 : Vec F S768x256 .bf16) (x4 : Vec F S1x256 .f32) (xs0 xs1 : Vec F S1x256 .f32) (y : S1x256.Idx) : ∃ pc ∈ (runC (F := F) c t hc0 hc1 x0 x1 x2 x3 x4 xs0 xs1).2.2.1, y ∈ pc.1.set :=
  View.cover_of_tiledL _ S1x256.size (by sl_kernel_rfl) y
theorem coverC_s0 (c t hc0 hc1) (x0 x1 x2 : Vec F S4000x256 .bf16) (x3 : Vec F S768x256 .bf16) (x4 : Vec F S1x256 .f32) (xs0 xs1 : Vec F S1x256 .f32) (y : S1x256.Idx) : ∃ pc ∈ (runC (F := F) c t hc0 hc1 x0 x1 x2 x3 x4 xs0 xs1).2.2.2.1, y ∈ pc.1.set :=
  View.cover_of_tiledL _ S1x256.size (by sl_kernel_rfl) y
theorem coverC_s1 (c t hc0 hc1) (x0 x1 x2 : Vec F S4000x256 .bf16) (x3 : Vec F S768x256 .bf16) (x4 : Vec F S1x256 .f32) (xs0 xs1 : Vec F S1x256 .f32) (y : S1x256.Idx) : ∃ pc ∈ (runC (F := F) c t hc0 hc1 x0 x1 x2 x3 x4 xs0 xs1).2.2.2.2.1, y ∈ pc.1.set :=
  View.cover_of_tiledL _ S1x256.size (by sl_kernel_rfl) y

end Region0

end Cert.Kernel.Hand

end
-- ==== Proof.KB.Reg0b.lean ====
/-
  The first pipelined region seen by the pipeline, part two: what every buffer the body stores into holds after each
  grid point (by recursion on the point: the running sums after a point are computed from those after the point
  before), the invariant carried between points (the two running-sum buffers at those contents), the proof data and the
  body's obligation at every point.
-/
import proofs.«107287_j91061896610587_1_alg».proof.Proof.Gen.Kernel.Launch
import proofs.«107287_j91061896610587_1_alg».proof.Proof.Gen.Kernel.Skeleton
import proofs.«107287_j91061896610587_1_alg».proof.Proof.Gen.Kernel.Points
import proofs.«107287_j91061896610587_1_alg».proof.Proof.Gen.Kernel.Regions
import proofs.«107287_j91061896610587_1_alg».proof.Proof.KB.Reg0a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- After a grid point: the layer-output block, the mean row, the variance row, and the two running sums. -/
abbrev Out5 (F : FTy → Type) : Type :=
  Vec F S4000x256 .f32 × Vec F S1x256 .f32 × Vec F S1x256 .f32 × Vec F S1x256 .f32 × Vec F S1x256 .f32

/-- The first point: sums cleared then increased; the mean and variance rows are not written (placeholders). -/
def ptA (c : Dev nD) (t : Fin cfg0.N) (hc0 : cond0_0 (grid0.coords t)) (hc1 : ¬cond0_1 (grid0.coords t)) : Out5 F :=
  (VO0_5.read (Elt F) (VO0_5.writes (Elt F) VO0_5.junk (runA c t hc0 hc1 (iblk0 V c 0 t) (iblk0 V c 1 t) (iblk0 V c 2 t) (iblk0 V c 3 t) (iblk0 V c 4 t)).1),
   View.canon [], View.canon [],
   VS0_0.read (Elt F) (VS0_0.writes (Elt F) VS0_0.junk (runA c t hc0 hc1 (iblk0 V c 0 t) (iblk0 V c 1 t) (iblk0 V c 2 t) (iblk0 V c 3 t) (iblk0 V c 4 t)).2.1),
   VS0_1.read (Elt F) (VS0_1.writes (Elt F) VS0_1.junk (runA c t hc0 hc1 (iblk0 V c 0 t) (iblk0 V c 1 t) (iblk0 V c 2 t) (iblk0 V c 3 t) (iblk0 V c 4 t)).2.2.1))

/-- A point between: sums increased from what the point before left (`xs0`, `xs1`). -/
def ptB (c : Dev nD) (t : Fin cfg0.N) (hc0 : ¬cond0_0 (grid0.coords t)) (hc1 : ¬cond0_1 (grid0.coords t)) (xs0 xs1 : Vec F S1x256 .f32) : Out5 F :=
  (VO0_5.read (Elt F) (VO0_5.writes (Elt F) VO0_5.junk (runB c t hc0 hc1 (iblk0 V c 0 t) (iblk0 V c 1 t) (iblk0 V c 2 t) (iblk0 V c 3 t) (iblk0 V c 4 t) xs0 xs1).1),
   View.canon [], View.canon [],
   VS0_0.read (Elt F) (VS0_0.writes (Elt F) VS0_0.junk (runB c t hc0 hc1 (iblk0 V c 0 t) (iblk0 V c 1 t) (iblk0 V c 2 t) (iblk0 V c 3 t) (iblk0 V c 4 t) xs0 xs1).2.1),
   VS0_1.read (Elt F) (VS0_1.writes (Elt F) VS0_1.junk (runB c t hc0 hc1 (iblk0 V c 0 t) (iblk0 V c 1 t) (iblk0 V c 2 t) (iblk0 V c 3 t) (iblk0 V c 4 t) xs0 xs1).2.2.1))

/-- The last point: sums increased, then the mean and variance rows written from them. -/
def ptC (c : Dev nD) (t : Fin cfg0.N) (hc0 : ¬cond0_0 (grid0.coords t)) (hc1 : cond0_1 (grid0.coords t)) (xs0 xs1 : Vec F S1x256 .f32) : Out5 F :=
  (VO0_5.read (Elt F) (VO0_5.writes (Elt F) VO0_5.junk (runC c t hc0 hc1 (iblk0 V c 0 t) (iblk0 V c 1 t) (iblk0 V c 2 t) (iblk0 V c 3 t) (iblk0 V c 4 t) xs0 xs1).1),
   VO0_6.read (Elt F) (VO0_6.writes (Elt F) VO0_6.junk (runC c t hc0 hc1 (iblk0 V c 0 t) (iblk0 V c 1 t) (iblk0 V c 2 t) (iblk0 V c 3 t) (iblk0 V c 4 t) xs0 xs1).2.1),
   VO0_7.read (Elt F) (VO0_7.writes (Elt F) VO0_7.junk (runC c t hc0 hc1 (iblk0 V c 0 t) (iblk0 V c 1 t) (iblk0 V c 2 t) (iblk0 V c 3 t) (iblk0 V c 4 t) xs0 xs1).2.2.1),
   VS0_0.read (Elt F) (VS0_0.writes (Elt F) VS0_0.junk (runC c t hc0 hc1 (iblk0 V c 0 t) (iblk0 V c 1 t) (iblk0 V c 2 t) (iblk0 V c 3 t) (iblk0 V c 4 t) xs0 xs1).2.2.2.1),
   VS0_1.read (Elt F) (VS0_1.writes (Elt F) VS0_1.junk (runC c t hc0 hc1 (iblk0 V c 0 t) (iblk0 V c 1 t) (iblk0 V c 2 t) (iblk0 V c 3 t) (iblk0 V c 4 t) xs0 xs1).2.2.2.2.1))

theorem N0_eq : cfg0.N = 10 := N_0

theorem not_first (n : ℕ) (hn : n + 1 < cfg0.N) : ¬cond0_0 (grid0.coords (⟨n + 1, hn⟩ : Fin cfg0.N)) := fun h => by
  have h' := (hcond0_0 ⟨n + 1, hn⟩).mp h
  have hN : n + 1 < 10 := lt_of_lt_of_eq hn N0_eq
  (try dsimp only at h'); omega

/-- What the buffers hold after the body at position `n`, by recursion on `n`. -/
def outsAt0 (c : Dev nD) : (n : ℕ) → n < cfg0.N → Out5 F
  | 0, hn => ptA V c ⟨0, hn⟩ ((hcond0_0 ⟨0, hn⟩).mpr (Nat.zero_mod _)) (fun h => by have h' := (hcond0_1 ⟨0, hn⟩).mp h; (try dsimp only at h'); omega)
  | n + 1, hn =>
    if h1 : (n + 1) % 10 = 9 then
      ptC V c ⟨n + 1, hn⟩ (not_first n hn) ((hcond0_1 ⟨n + 1, hn⟩).mpr h1)
        (outsAt0 c n (Nat.lt_of_succ_lt hn)).2.2.2.1 (outsAt0 c n (Nat.lt_of_succ_lt hn)).2.2.2.2
    else
      ptB V c ⟨n + 1, hn⟩ (not_first n hn) (fun h => h1 ((hcond0_1 ⟨n + 1, hn⟩).mp h))
        (outsAt0 c n (Nat.lt_of_succ_lt hn)).2.2.2.1 (outsAt0 c n (Nat.lt_of_succ_lt hn)).2.2.2.2

theorem outsAt0_A (c : Dev nD) (t : Fin cfg0.N) (hz : t.val = 0) (hc0 : cond0_0 (grid0.coords t)) (hc1 : ¬cond0_1 (grid0.coords t)) :
    outsAt0 V c t.val t.isLt = ptA V c t hc0 hc1 := by
  obtain ⟨n, hn⟩ := t
  cases n with
  | zero => rfl
  | succ n => exact absurd hz (Nat.succ_ne_zero _)

theorem outsAt0_B (c : Dev nD) (t : Fin cfg0.N) (hz : t.val ≠ 0) (h1 : ¬t.val % 10 = 9) (hc0 : ¬cond0_0 (grid0.coords t)) (hc1 : ¬cond0_1 (grid0.coords t)) :
    outsAt0 V c t.val t.isLt = ptB V c t hc0 hc1
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd rfl hz
  | succ n => exact (dif_neg h1).trans rfl

theorem outsAt0_C (c : Dev nD) (t : Fin cfg0.N) (hz : t.val ≠ 0) (h1 : t.val % 10 = 9) (hc0 : ¬cond0_0 (grid0.coords t)) (hc1 : cond0_1 (grid0.coords t)) :
    outsAt0 V c t.val t.isLt = ptC V c t hc0 hc1
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd rfl hz
  | succ n => exact (dif_pos h1).trans rfl

/-- The invariant before position `n`: before the first point the two running-sum buffers hold anything; afterwards
    what the point before left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ rest8 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ rest8 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ rest8 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Region0

end Cert.Kernel.Hand

end
-- ==== Proof.KB.Reg0c.lean ====
/-
  The first pipelined region seen by the pipeline, part three: the body's obligation at every grid point, by the three
  situations of the point, and the invariant at the region's two ends.
-/
import proofs.«107287_j91061896610587_1_alg».proof.Proof.Gen.Kernel.Launch
import proofs.«107287_j91061896610587_1_alg».proof.Proof.Gen.Kernel.Skeleton
import proofs.«107287_j91061896610587_1_alg».proof.Proof.Gen.Kernel.Points
import proofs.«107287_j91061896610587_1_alg».proof.Proof.Gen.Kernel.Regions
import proofs.«107287_j91061896610587_1_alg».proof.Proof.KB.Reg0b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt N0_eq
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases hz : t.val = 0
  · have hc0 : cond0_0 (grid0.coords t) := (hcond0_0 t).mpr (by omega)
    have hc1 : ¬cond0_1 (grid0.coords t) := fun h => by have h' := (hcond0_1 t).mp h; omega
    rw [Dat.leavesExact_idle (dat0 V c) 6 t (idleAt0_6 t hc1) (noFlush0_6 t hc1), Dat.leavesExact_idle (dat0 V c) 7 t (idleAt0_7 t hc1) (noFlush0_7 t hc1)]
    rw [outsAt0_A V c t hz hc0 hc1]
    unfold ptA; (try dsimp only)
    rw [PhiS_castSucc V c t, PhiS_zero V c _ _ hz, PhiA0_eq]
    iintro ⟨⟨⟨HS0, HS1, HR8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c t hc0 hc1 (iblk0 V c 0 t) (iblk0 V c 1 t) (iblk0 V c 2 t) (iblk0 V c 3 t) (iblk0 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 HR8 Hg]
    · isplitl [HS0 HS1 HR8]
      · isplitl [HS0]
        · unfold owns; iexists _; isplitr
          swap; · iexact HS0
          ipureintro; exact View.read_writes_of_cover _ _ _ _ _ (coverA_s0 c t hc0 hc1 _ _ _ _ _)
        isplitl [HS1]
        · unfold owns; iexists _; isplitr
          swap; · iexact HS1
          ipureintro; exact View.read_writes_of_cover _ _ _ _ _ (coverA_s1 c t hc0 hc1 _ _ _ _ _)
        iexact HR8
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA_5 c t hc0 hc1 _ _ _ _ _)
    isplitl [H6]; · iexists _; iexact H6
    iexists _; iexact H7
  · have hc0 : ¬cond0_0 (grid0.coords t) := fun h => by have h' := (hcond0_0 t).mp h; omega
    by_cases h9 : t.val % 10 = 9
    · have hc1 : cond0_1 (grid0.coords t) := (hcond0_1 t).mpr h9
      rw [show (dat0 V c).leavesExact 6 t = owns (c : Thread nD τ) (ms0_6 t) fullShare ((dat0 V c).after 6 t) from by
        unfold Dat.leavesExact; rw [liveAt0_6 t hc1], after0_6]
      rw [show (dat0 V c).leavesExact 7 t = owns (c : Thread nD τ) (ms0_7 t) fullShare ((dat0 V c).after 7 t) from by
        unfold Dat.leavesExact; rw [liveAt0_7 t hc1], after0_7]
      rw [outsAt0_C V c t hz h9 hc0 hc1]
      unfold ptC; (try dsimp only)
      rw [PhiS_castSucc V c t, PhiS_pos V c _ _ hz]
      iintro ⟨⟨⟨HS0, HS1, HR8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c t hc0 hc1 (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR8 Hg]
      · isplitl [HS0 HS1 HR8]
        · isplitl [HS0]
          · unfold owns; iexists _; isplitr
            swap; · iexact HS0
            ipureintro; exact View.read_writes_of_cover _ _ _ _ _ (coverC_s0 c t hc0 hc1 _ _ _ _ _ _ _)
          isplitl [HS1]
          · unfold owns; iexists _; isplitr
            swap; · iexact HS1
            ipureintro; exact View.read_writes_of_cover _ _ _ _ _ (coverC_s1 c t hc0 hc1 _ _ _ _ _ _ _)
          iexact HR8
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC_5 c t hc0 hc1 _ _ _ _ _ _ _)
      isplitl [H6]
      · unfold owns; iexists _; isplitr
        swap; · iexact H6
        ipureintro; exact View.read_writes_of_cover _ _ _ _ _ (coverC_6 c t hc0 hc1 _ _ _ _ _ _ _)
      unfold owns; iexists _; isplitr
      swap; · iexact H7
      ipureintro; exact View.read_writes_of_cover _ _ _ _ _ (coverC_7 c t hc0 hc1 _ _ _ _ _ _ _)
    · have hc1 : ¬cond0_1 (grid0.coords t) := fun h => h9 ((hcond0_1 t).mp h)
      rw [Dat.leavesExact_idle (dat0 V c) 6 t (idleAt0_6 t hc1) (noFlush0_6 t hc1), Dat.leavesExact_idle (dat0 V c) 7 t (idleAt0_7 t hc1) (noFlush0_7 t hc1)]
      rw [outsAt0_B V c t hz h9 hc0 hc1]
      unfold ptB; (try dsimp only)
      rw [PhiS_castSucc V c t, PhiS_pos V c _ _ hz]
      iintro ⟨⟨⟨HS0, HS1, HR8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c t hc0 hc1 (iblk0 V c 0 t) (iblk0 V c 1 t) (iblk0 V c 2 t) (iblk0 V c 3 t) (iblk0 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR8 Hg]
      · isplitl [HS0 HS1 HR8]
        · isplitl [HS0]
          · unfold owns; iexists _; isplitr
            swap; · iexact HS0
            ipureintro; exact View.read_writes_of_cover _ _ _ _ _ (coverB_s0 c t hc0 hc1 _ _ _ _ _ _ _)
          isplitl [HS1]
          · unfold owns; iexists _; isplitr
            swap; · iexact HS1
            ipureintro; exact View.read_writes_of_cover _ _ _ _ _ (coverB_s1 c t hc0 hc1 _ _ _ _ _ _ _)
          iexact HR8
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverB_5 c t hc0 hc1 _ _ _ _ _ _ _)
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the buffers back, their contents forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR8⟩, Hg⟩
  isplitl [HS0 HS1 HR8]
  · isplitl [HS0]; · iexists _; iexact HS0
    isplitl [HS1]; · iexists _; iexact HS1
    iexact HR8
  iexact Hg

theorem hout0 (c : Dev nD) : (dat0 V c).Φ (Fin.last cfg0.N) ⊢ Pipeline.ΦA spec0 c :=
  Phi_out0 V c _ (by rw [Fin.val_last]; have : cfg0.N = 10 := N0_eq; omega)

end Region0

end Cert.Kernel.Hand

end
-- ==== Proof.KB.Reg1.lean ====
/-
  The second pipelined region (normalise, scale, shift, clamp at zero) seen by the pipeline: at every grid point the
  body reads a block of 4000 rows of the layer's output together with the four parameter rows (mean, variance, scale,
  shift), and writes the block of 4000 rows of the result. Nothing is kept between points.
-/
import proofs.«107287_j91061896610587_1_alg».proof.Proof.Gen.Kernel.Launch
import proofs.«107287_j91061896610587_1_alg».proof.Proof.Gen.Kernel.Skeleton
import proofs.«107287_j91061896610587_1_alg».proof.Proof.Gen.Kernel.Points
import proofs.«107287_j91061896610587_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 4000 x 256 block and the whole 1 x 256 row, as the body's accesses. -/
abbrev rBlk : Rect S4000x256 := Rect.unit (s := S4000x256) ![0, 0] S4000x256.size inb_S4000x256_S4000x256_0_0
abbrev rRow : Rect S1x256 := Rect.unit (s := S1x256) ![0, 0] S1x256.size inb_S1x256_S1x256_0_0

/-- What the body leaves in the output block: the one store's payload over the five loaded values. -/
def out1_5 (x0 : Vec F S4000x256 .f32) (x1 x2 x3 x4 : Vec F S1x256 .f32) : Vec F S4000x256 .f32 :=
  View.canon [⟨rBlk, k1_pay1 (View.ld x0 rBlk) (View.ld x1 rRow) (View.ld x2 rRow) (View.ld x3 rRow) (View.ld x4 rRow)⟩]

theorem cover1_5 (p0 : Vec F S4000x256 .f32) (y : S4000x256.Idx) :
    ∃ pc ∈ ([⟨rBlk, p0⟩] : List (View.Piece (Elt F) S4000x256 .f32)), y ∈ pc.1.set :=
  View.cover_of_tiled [⟨rBlk, p0⟩] S4000x256.size (by rfl) y

set_option maxHeartbeats 1000000 in
/-- The body on whole staging buffers: the five inputs are left as they were, the output block ends at `out1_5`. -/
theorem sound_kernel1 (c : Dev nD) (E : Set ℕ) (i : grid1.Coords)
    (arg1 : Memref sig .tc .vmem S4000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S4000x256 .f32) (harg6 : arg6.IsWhole)
    (x0 : Vec F S4000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## Each input's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- After the body at point `t`: each input's buffer at its block, the output's at `out1_5` of the input blocks;
    nothing of the body's own is kept between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KB.Run.lean ====
/-
  The whole kernel program from its launch to its return: three stretches of host operations, the two pipelined
  regions, and the closing reshape, composed in order; every buffer's contents at each boundary is named, so that the
  result buffer at the end is read as a function of the launch memory and every argument is found unchanged.
-/
import proofs.«107287_j91061896610587_1_alg».proof.Proof.Gen.Kernel.Launch
import proofs.«107287_j91061896610587_1_alg».proof.Proof.Gen.Kernel.Skeleton
import proofs.«107287_j91061896610587_1_alg».proof.Proof.Gen.Kernel.Points
import proofs.«107287_j91061896610587_1_alg».proof.Proof.Gen.Kernel.Regions
import proofs.«107287_j91061896610587_1_alg».proof.Proof.KB.Reg0c
import proofs.«107287_j91061896610587_1_alg».proof.Proof.KB.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Before the first region: the launch memory after the three host stretches. -/
abbrev W3 (c : Dev nD) : Valuation τ sig (Elt F) := Gen.V3 m c
abbrev V3 : (c : Dev nD) → (b : Ref sig .tc) → Buf (Elt F) ((c : Thread nD τ).loc b) := fun c b => W3 m c b

/-- After the first region: its arrays at what the pipeline leaves, every other buffer as before. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the second region. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- At the return: after the closing host stretch. -/
abbrev W6 (c : Dev nD) : Valuation τ sig (Elt F) := StableHlo.after hostOps2 (W5 m c)

/-! ## No segment writes an argument -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ Gen.hostOps2_writes (by decide)
    _ = W4 m c (Proc.devRef .tc main_arg0) := W5_of_ne m c main_arg0 (by decide)
    _ = W3 m c (Proc.devRef .tc main_arg0) := W4_of_ne m c main_arg0 (by decide)
    _ = m ((c : Thread nD τ).loc main_arg0) := (Gen.V3_of m c main_arg0 (by decide)).trans <| (Gen.V2_of m c main_arg0 (by decide)).trans <| (Gen.V1_of m c main_arg0 (by decide)).trans rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ Gen.hostOps2_writes (by decide)
    _ = W4 m c (Proc.devRef .tc main_arg1) := W5_of_ne m c main_arg1 (by decide)
    _ = W3 m c (Proc.devRef .tc main_arg1) := W4_of_ne m c main_arg1 (by decide)
    _ = m ((c : Thread nD τ).loc main_arg1) := (Gen.V3_of m c main_arg1 (by decide)).trans <| (Gen.V2_of m c main_arg1 (by decide)).trans <| (Gen.V1_of m c main_arg1 (by decide)).trans rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ Gen.hostOps2_writes (by decide)
    _ = W4 m c (Proc.devRef .tc main_arg2) := W5_of_ne m c main_arg2 (by decide)
    _ = W3 m c (Proc.devRef .tc main_arg2) := W4_of_ne m c main_arg2 (by decide)
    _ = m ((c : Thread nD τ).loc main_arg2) := (Gen.V3_of m c main_arg2 (by decide)).trans <| (Gen.V2_of m c main_arg2 (by decide)).trans <| (Gen.V1_of m c main_arg2 (by decide)).trans rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps2 _ Gen.hostOps2_writes (by decide)
    _ = W4 m c (Proc.devRef .tc main_arg3) := W5_of_ne m c main_arg3 (by decide)
    _ = W3 m c (Proc.devRef .tc main_arg3) := W4_of_ne m c main_arg3 (by decide)
    _ = m ((c : Thread nD τ).loc main_arg3) := (Gen.V3_of m c main_arg3 (by decide)).trans <| (Gen.V2_of m c main_arg3 (by decide)).trans <| (Gen.V1_of m c main_arg3 (by decide)).trans rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps2 _ Gen.hostOps2_writes (by decide)
    _ = W4 m c (Proc.devRef .tc main_arg4) := W5_of_ne m c main_arg4 (by decide)
    _ = W3 m c (Proc.devRef .tc main_arg4) := W4_of_ne m c main_arg4 (by decide)
    _ = m ((c : Thread nD τ).loc main_arg4) := (Gen.V3_of m c main_arg4 (by decide)).trans <| (Gen.V2_of m c main_arg4 (by decide)).trans <| (Gen.V1_of m c main_arg4 (by decide)).trans rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps2 _ Gen.hostOps2_writes (by decide)
    _ = W4 m c (Proc.devRef .tc main_arg5) := W5_of_ne m c main_arg5 (by decide)
    _ = W3 m c (Proc.devRef .tc main_arg5) := W4_of_ne m c main_arg5 (by decide)
    _ = m ((c : Thread nD τ).loc main_arg5) := (Gen.V3_of m c main_arg5 (by decide)).trans <| (Gen.V2_of m c main_arg5 (by decide)).trans <| (Gen.V1_of m c main_arg5 (by decide)).trans rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps2 _ Gen.hostOps2_writes (by decide)
    _ = W4 m c (Proc.devRef .tc main_arg6) := W5_of_ne m c main_arg6 (by decide)
    _ = W3 m c (Proc.devRef .tc main_arg6) := W4_of_ne m c main_arg6 (by decide)
    _ = m ((c : Thread nD τ).loc main_arg6) := (Gen.V3_of m c main_arg6 (by decide)).trans <| (Gen.V2_of m c main_arg6 (by decide)).trans <| (Gen.V1_of m c main_arg6 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .region (reg1 m),
    .host (hseg hostOps2 hostOps2_sub Gen.hostOps2_fresh (W5 m)) ]

theorem main_run (c : Dev nD) : main (F := F) c = Pipeline.Seg.run (segs m) := (main_chain c).trans (by chain_rfl)

set_option backward.isDefEq.respectTransparency.types false in
/-- Every weakly fair execution terminates, nothing faulting, and every final memory holds every unscoped buffer at the
    contents named above; in particular the result buffer and the seven arguments. -/
theorem run : θ_run defs (onTc (τ := τ) (main (F := F))) ⟨m, fun _ => 0, ρ⟩ (fun r => ∀ c : Dev nD,
      r.2.mem ((c.tc : Thread nD τ).loc main_v43) = W6 m c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps2 (W5 m c)) ∗ R c) ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v43 (by decide)),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c),
       (h c _ (mem_uc main_arg4 (by decide))).trans (W6_main_arg4 m c),
       (h c _ (mem_uc main_arg5 (by decide))).trans (W6_main_arg5 m c),
       (h c _ (mem_uc main_arg6 (by decide))).trans (W6_main_arg6 m c)⟩)

end Cert.Kernel.Hand

end
-- ==== Proof.KI.Run0B.lean ====
/-
  The first pipelined region (the dense layer on a block of 4000 rows, and the running column sums of its output and of
  its squares) as a program on its staging buffers, in the three situations the grid meets: at the first point the two
  running sums are cleared first; at the last point the mean and the variance rows are written from them; at the
  points between neither happens. In each, what every buffer the body stores into ends with is found as a list of
  written pieces.
-/
import proofs.«107287_j91061896610587_1_alg».proof.Proof.Gen.KernelIdeal.Launch
import proofs.«107287_j91061896610587_1_alg».proof.Proof.Gen.KernelIdeal.Skeleton
import proofs.«107287_j91061896610587_1_alg».proof.Proof.Gen.KernelIdeal.Points
import proofs.«107287_j91061896610587_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's two conditions over the grid -/

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- "This is the last grid point". -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

set_option maxHeartbeats 2000000 in
/-- A point that is neither first nor last: the running sums are read and written back increased; the mean and
    variance rows are handed back untouched. -/
noncomputable def kernelRun0_B (c : Dev nD) (i : grid0.Coords) (arg1 : Memref sig .tc .vmem S4000x256 .bf16) (harg1 : arg1.IsWhole) (arg2 : Memref sig .tc .vmem S4000x256 .bf16) (harg2 : arg2.IsWhole) (arg3 : Memref sig .tc .vmem S4000x256 .bf16) (harg3 : arg3.IsWhole) (arg4 : Memref sig .tc .vmem S768x256 .bf16) (harg4 : arg4.IsWhole) (arg5 : Memref sig .tc .vmem S1x256 .f32) (harg5 : arg5.IsWhole) (arg6 : Memref sig .tc .vmem S4000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 x1 x2 : Vec F S4000x256 .bf16) (x3 : Vec F S768x256 .bf16) (x4 : Vec F S1x256 .f32) (xs0 xs1 : Vec F S1x256 .f32) :
    Σ' (L5 : List (View.Piece (Elt F) S4000x256 .f32)) (LS0 : List (View.Piece (Elt F) S1x256 .f32)), { LS1 : List (View.Piece (Elt F) S1x256 .f32) //
      ∀ (xi6 xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.Run0A.lean ====
/-
  The first region's body at the first grid point: the two running sums are cleared, then increased by this block's
  column sums; the mean and variance rows are handed back untouched.
-/
import proofs.«107287_j91061896610587_1_alg».proof.Proof.Gen.KernelIdeal.Launch
import proofs.«107287_j91061896610587_1_alg».proof.Proof.Gen.KernelIdeal.Skeleton
import proofs.«107287_j91061896610587_1_alg».proof.Proof.Gen.KernelIdeal.Points
import proofs.«107287_j91061896610587_1_alg».proof.Proof.Gen.KernelIdeal.Regions
import proofs.«107287_j91061896610587_1_alg».proof.Proof.KI.Run0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
noncomputable def kernelRun0_A (c : Dev nD) (i : grid0.Coords) (arg1 : Memref sig .tc .vmem S4000x256 .bf16) (harg1 : arg1.IsWhole) (arg2 : Memref sig .tc .vmem S4000x256 .bf16) (harg2 : arg2.IsWhole) (arg3 : Memref sig .tc .vmem S4000x256 .bf16) (harg3 : arg3.IsWhole) (arg4 : Memref sig .tc .vmem S768x256 .bf16) (harg4 : arg4.IsWhole) (arg5 : Memref sig .tc .vmem S1x256 .f32) (harg5 : arg5.IsWhole) (arg6 : Memref sig .tc .vmem S4000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x0 x1 x2 : Vec F S4000x256 .bf16) (x3 : Vec F S768x256 .bf16) (x4 : Vec F S1x256 .f32) :
    Σ' (L5 : List (View.Piece (Elt F) S4000x256 .f32)) (LS0 : List (View.Piece (Elt F) S1x256 .f32)), { LS1 : List (View.Piece (Elt F) S1x256 .f32) //
      ∀ (xi6 xi7 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KI.Run0C.lean ====
/-
  The first region's body at the last grid point: the two running sums are increased by this block's column sums,
  then the mean row and the variance row are written from them.
-/
import proofs.«107287_j91061896610587_1_alg».proof.Proof.Gen.KernelIdeal.Launch
import proofs.«107287_j91061896610587_1_alg».proof.Proof.Gen.KernelIdeal.Skeleton
import proofs.«107287_j91061896610587_1_alg».proof.Proof.Gen.KernelIdeal.Points
import proofs.«107287_j91061896610587_1_alg».proof.Proof.Gen.KernelIdeal.Regions
import proofs.«107287_j91061896610587_1_alg».proof.Proof.KI.Run0A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
noncomputable def kernelRun0_C (c : Dev nD) (i : grid0.Coords) (arg1 : Memref sig .tc .vmem S4000x256 .bf16) (harg1 : arg1.IsWhole) (arg2 : Memref sig .tc .vmem S4000x256 .bf16) (harg2 : arg2.IsWhole) (arg3 : Memref sig .tc .vmem S4000x256 .bf16) (harg3 : arg3.IsWhole) (arg4 : Memref sig .tc .vmem S768x256 .bf16) (harg4 : arg4.IsWhole) (arg5 : Memref sig .tc .vmem S1x256 .f32) (harg5 : arg5.IsWhole) (arg6 : Memref sig .tc .vmem S4000x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 x1 x2 : Vec F S4000x256 .bf16) (x3 : Vec F S768x256 .bf16) (x4 : Vec F S1x256 .f32) (xs0 xs1 : Vec F S1x256 .f32) :
    Σ' (L5 : List (View.Piece (Elt F) S4000x256 .f32)) (L6 L7 LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KI.Reg0a.lean ====
/-
  The first pipelined region seen by the pipeline, part one: the blocks its windows read, where its two small outputs
  are idle, the two running sums as buffers the body keeps between grid points, and what every buffer the body stores
  into holds after each grid point, by recursion on the point (the running sums after a point are those after the point
  before, increased by the block's column sums; cleared first at the first point).
-/
import proofs.«107287_j91061896610587_1_alg».proof.Proof.Gen.KernelIdeal.Launch
import proofs.«107287_j91061896610587_1_alg».proof.Proof.Gen.KernelIdeal.Skeleton
import proofs.«107287_j91061896610587_1_alg».proof.Proof.Gen.KernelIdeal.Points
import proofs.«107287_j91061896610587_1_alg».proof.Proof.Gen.KernelIdeal.Regions
import proofs.«107287_j91061896610587_1_alg».proof.Proof.KI.Run0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The staging and scratch buffers as the body is called with them -/

abbrev VO0_5 : View sig .tc .vmem S4000x256 .f32 := (Memref.whole cc0_stg5_0 : Memref sig .tc .vmem S4000x256 .f32).view
abbrev VO0_6 : View sig .tc .vmem S1x256 .f32 := (Memref.whole cc0_stg6_0 : Memref sig .tc .vmem S1x256 .f32).view
abbrev VO0_7 : View sig .tc .vmem S1x256 .f32 := (Memref.whole cc0_stg7_0 : Memref sig .tc .vmem S1x256 .f32).view
abbrev ms0_0 (t : Fin cfg0.N) : Memref sig .tc .vmem S4000x256 .bf16 := win0_0.stage (cfg0.slots t 0)
abbrev ms0_1 (t : Fin cfg0.N) : Memref sig .tc .vmem S4000x256 .bf16 := win0_1.stage (cfg0.slots t 1)
abbrev ms0_2 (t : Fin cfg0.N) : Memref sig .tc .vmem S4000x256 .bf16 := win0_2.stage (cfg0.slots t 2)
abbrev ms0_3 (t : Fin cfg0.N) : Memref sig .tc .vmem S768x256 .bf16 := win0_3.stage (cfg0.slots t 3)
abbrev ms0_4 (t : Fin cfg0.N) : Memref sig .tc .vmem S1x256 .f32 := win0_4.stage (cfg0.slots t 4)
abbrev ms0_5 (t : Fin cfg0.N) : Memref sig .tc .vmem S4000x256 .f32 := win0_5.stage (cfg0.slots t 5)
abbrev ms0_6 (t : Fin cfg0.N) : Memref sig .tc .vmem S1x256 .f32 := win0_6.stage (cfg0.slots t 6)
abbrev ms0_7 (t : Fin cfg0.N) : Memref sig .tc .vmem S1x256 .f32 := win0_7.stage (cfg0.slots t 7)
abbrev hs0_0 (t : Fin cfg0.N) : (ms0_0 t).IsWhole := hstage0_0 ((cfg0.slots t 0).cast nbuf0_0)
abbrev hs0_1 (t : Fin cfg0.N) : (ms0_1 t).IsWhole := hstage0_1 ((cfg0.slots t 1).cast nbuf0_1)
abbrev hs0_2 (t : Fin cfg0.N) : (ms0_2 t).IsWhole := hstage0_2 ((cfg0.slots t 2).cast nbuf0_2)
abbrev hs0_3 (t : Fin cfg0.N) : (ms0_3 t).IsWhole := hstage0_3 ((cfg0.slots t 3).cast nbuf0_3)
abbrev hs0_4 (t : Fin cfg0.N) : (ms0_4 t).IsWhole := hstage0_4 ((cfg0.slots t 4).cast nbuf0_4)
abbrev hs0_5 (t : Fin cfg0.N) : (ms0_5 t).IsWhole := hstage0_5 ((cfg0.slots t 5).cast nbuf0_5)
abbrev hs0_6 (t : Fin cfg0.N) : (ms0_6 t).IsWhole := hstage0_6 ((cfg0.slots t 6).cast nbuf0_6)
abbrev hs0_7 (t : Fin cfg0.N) : (ms0_7 t).IsWhole := hstage0_7 ((cfg0.slots t 7).cast nbuf0_7)
abbrev scM0_0 : Memref sig .tc .vmem S1x256 .f32 := Memref.whole cc0_scratch0
abbrev scM0_1 : Memref sig .tc .vmem S1x256 .f32 := Memref.whole cc0_scratch1
abbrev VS0_0 : View sig .tc .vmem S1x256 .f32 := scM0_0.view
abbrev VS0_1 : View sig .tc .vmem S1x256 .f32 := scM0_1.view

/-- The scoped buffers of the core that this region neither stages nor uses: the second region's staging buffers. -/
def rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region may use and need not describe: the two running-sum buffers at some contents, the other scoped
    buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest8 (F := F) c) ∗ (∃ r, prngReg c r)) := by
  unfold Pipeline.ΦA rest8; rw [scopedRest0_eq]; simp only [scM0_0, scM0_1, owns_whole]; try rfl

/-! ## The body's runs at a grid point -/

abbrev runA (c : Dev nD) (t : Fin cfg0.N) (hc0 : cond0_0 (grid0.coords t)) (hc1 : ¬cond0_1 (grid0.coords t)) (x0 x1 x2 : Vec F S4000x256 .bf16) (x3 : Vec F S768x256 .bf16) (x4 : Vec F S1x256 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 x0 x1 x2 x3 x4
abbrev runB (c : Dev nD) (t : Fin cfg0.N) (hc0 : ¬cond0_0 (grid0.coords t)) (hc1 : ¬cond0_1 (grid0.coords t)) (x0 x1 x2 : Vec F S4000x256 .bf16) (x3 : Vec F S768x256 .bf16) (x4 : Vec F S1x256 .f32) (xs0 xs1 : Vec F S1x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 x0 x1 x2 x3 x4 xs0 xs1
abbrev runC (c : Dev nD) (t : Fin cfg0.N) (hc0 : ¬cond0_0 (grid0.coords t)) (hc1 : cond0_1 (grid0.coords t)) (x0 x1 x2 : Vec F S4000x256 .bf16) (x3 : Vec F S768x256 .bf16) (x4 : Vec F S1x256 .f32) (xs0 xs1 : Vec F S1x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 x0 x1 x2 x3 x4 xs0 xs1

/-! ## The written pieces cover their buffers -/

theorem coverA_5 (c t hc0 hc1) (x0 x1 x2 : Vec F S4000x256 .bf16) (x3 : Vec F S768x256 .bf16) (x4 : Vec F S1x256 .f32) (y : S4000x256.Idx) : ∃ pc ∈ (runA (F := F) c t hc0 hc1 x0 x1 x2 x3 x4).1, y ∈ pc.1.set :=
  View.cover_of_tiledL _ S4000x256.size (by sl_kernel_rfl) y
theorem coverA_s0 (c t hc0 hc1) (x0 x1 x2 : Vec F S4000x256 .bf16) (x3 : Vec F S768x256 .bf16) (x4 : Vec F S1x256 .f32) (y : S1x256.Idx) : ∃ pc ∈ (runA (F := F) c t hc0 hc1 x0 x1 x2 x3 x4).2.1, y ∈ pc.1.set :=
  View.cover_of_tiledL _ S1x256.size (by sl_kernel_rfl) y
theorem coverA_s1 (c t hc0 hc1) (x0 x1 x2 : Vec F S4000x256 .bf16) (x3 : Vec F S768x256 .bf16) (x4 : Vec F S1x256 .f32) (y : S1x256.Idx) : ∃ pc ∈ (runA (F := F) c t hc0 hc1 x0 x1 x2 x3 x4).2.2.1, y ∈ pc.1.set :=
  View.cover_of_tiledL _ S1x256.size (by sl_kernel_rfl) y
theorem coverB_5 (c t hc0 hc1) (x0 x1 x2 : Vec F S4000x256 .bf16) (x3 : Vec F S768x256 .bf16) (x4 : Vec F S1x256 .f32) (xs0 xs1 : Vec F S1x256 .f32) (y : S4000x256.Idx) : ∃ pc ∈ (runB (F := F) c t hc0 hc1 x0 x1 x2 x3 x4 xs0 xs1).1, y ∈ pc.1.set :=
  View.cover_of_tiledL _ S4000x256.size (by sl_kernel_rfl) y
theorem coverB_s0 (c t hc0 hc1) (x0 x1 x2 : Vec F S4000x256 .bf16) (x3 : Vec F S768x256 .bf16) (x4 : Vec F S1x256 .f32) (xs0 xs1 : Vec F S1x256 .f32) (y : S1x256.Idx) : ∃ pc ∈ (runB (F := F) c t hc0 hc1 x0 x1 x2 x3 x4 xs0 xs1).2.1, y ∈ pc.1.set :=
  View.cover_of_tiledL _ S1x256.size (by sl_kernel_rfl) y
theorem coverB_s1 (c t hc0 hc1) (x0 x1 x2 : Vec F S4000x256 .bf16) (x3 : Vec F S768x256 .bf16) (x4 : Vec F S1x256 .f32) (xs0 xs1 : Vec F S1x256 .f32) (y : S1x256.Idx) : ∃ pc ∈ (runB (F := F) c t hc0 hc1 x0 x1 x2 x3 x4 xs0 xs1).2.2.1, y ∈ pc.1.set :=
  View.cover_of_tiledL _ S1x256.size (by sl_kernel_rfl) y
theorem coverC_5 (c t hc0 hc1) (x0 x1 x2 : Vec F S4000x256 .bf16) (x3 : Vec F S768x256 .bf16) (x4 : Vec F S1x256 .f32) (xs0 xs1 : Vec F S1x256 .f32) (y : S4000x256.Idx) : ∃ pc ∈ (runC (F := F) c t hc0 hc1 x0 x1 x2 x3 x4 xs0 xs1).1, y ∈ pc.1.set :=
  View.cover_of_tiledL _ S4000x256.size (by sl_kernel_rfl) y
theorem coverC_6 (c t hc0 hc1) (x0 x1 x2 : Vec F S4000x256 .bf16) (x3 : Vec F S768x256 .bf16) (x4 : Vec F S1x256 .f32) (xs0 xs1 : Vec F S1x256 .f32) (y : S1x256.Idx) : ∃ pc ∈ (runC (F := F) c t hc0 hc1 x0 x1 x2 x3 x4 xs0 xs1).2.1, y ∈ pc.1.set :=
  View.cover_of_tiledL _ S1x256.size (by sl_kernel_rfl) y
theorem coverC_7 (c t hc0 hc1) (x0 x1 x2 : Vec F S4000x256 .bf16) (x3 : Vec F S768x256 .bf16) (x4 : Vec F S1x256 .f32) (xs0 xs1 : Vec F S1x256 .f32) (y : S1x256.Idx) : ∃ pc ∈ (runC (F := F) c t hc0 hc1 x0 x1 x2 x3 x4 xs0 xs1).2.2.1, y ∈ pc.1.set :=
  View.cover_of_tiledL _ S1x256.size (by sl_kernel_rfl) y
theorem coverC_s0 (c t hc0 hc1) (x0 x1 x2 : Vec F S4000x256 .bf16) (x3 : Vec F S768x256 .bf16) (x4 : Vec F S1x256 .f32) (xs0 xs1 : Vec F S1x256 .f32) (y : S1x256.Idx) : ∃ pc ∈ (runC (F := F) c t hc0 hc1 x0 x1 x2 x3 x4 xs0 xs1).2.2.2.1, y ∈ pc.1.set :=
  View.cover_of_tiledL _ S1x256.size (by sl_kernel_rfl) y
theorem coverC_s1 (c t hc0 hc1) (x0 x1 x2 : Vec F S4000x256 .bf16) (x3 : Vec F S768x256 .bf16) (x4 : Vec F S1x256 .f32) (xs0 xs1 : Vec F S1x256 .f32) (y : S1x256.Idx) : ∃ pc ∈ (runC (F := F) c t hc0 hc1 x0 x1 x2 x3 x4 xs0 xs1).2.2.2.2.1, y ∈ pc.1.set :=
  View.cover_of_tiledL _ S1x256.size (by sl_kernel_rfl) y

end Region0

end Cert.KernelIdeal.Hand

end
-- ==== Proof.KI.Reg0b.lean ====
/-
  The first pipelined region seen by the pipeline, part two: what every buffer the body stores into holds after each
  grid point (by recursion on the point: the running sums after a point are computed from those after the point
  before), the invariant carried between points (the two running-sum buffers at those contents), the proof data and the
  body's obligation at every point.
-/
import proofs.«107287_j91061896610587_1_alg».proof.Proof.Gen.KernelIdeal.Launch
import proofs.«107287_j91061896610587_1_alg».proof.Proof.Gen.KernelIdeal.Skeleton
import proofs.«107287_j91061896610587_1_alg».proof.Proof.Gen.KernelIdeal.Points
import proofs.«107287_j91061896610587_1_alg».proof.Proof.Gen.KernelIdeal.Regions
import proofs.«107287_j91061896610587_1_alg».proof.Proof.KI.Reg0a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-- After a grid point: the layer-output block, the mean row, the variance row, and the two running sums. -/
abbrev Out5 (F : FTy → Type) : Type :=
  Vec F S4000x256 .f32 × Vec F S1x256 .f32 × Vec F S1x256 .f32 × Vec F S1x256 .f32 × Vec F S1x256 .f32

/-- The first point: sums cleared then increased; the mean and variance rows are not written (placeholders). -/
def ptA (c : Dev nD) (t : Fin cfg0.N) (hc0 : cond0_0 (grid0.coords t)) (hc1 : ¬cond0_1 (grid0.coords t)) : Out5 F :=
  (VO0_5.read (Elt F) (VO0_5.writes (Elt F) VO0_5.junk (runA c t hc0 hc1 (iblk0 V c 0 t) (iblk0 V c 1 t) (iblk0 V c 2 t) (iblk0 V c 3 t) (iblk0 V c 4 t)).1),
   View.canon [], View.canon [],
   VS0_0.read (Elt F) (VS0_0.writes (Elt F) VS0_0.junk (runA c t hc0 hc1 (iblk0 V c 0 t) (iblk0 V c 1 t) (iblk0 V c 2 t) (iblk0 V c 3 t) (iblk0 V c 4 t)).2.1),
   VS0_1.read (Elt F) (VS0_1.writes (Elt F) VS0_1.junk (runA c t hc0 hc1 (iblk0 V c 0 t) (iblk0 V c 1 t) (iblk0 V c 2 t) (iblk0 V c 3 t) (iblk0 V c 4 t)).2.2.1))

/-- A point between: sums increased from what the point before left (`xs0`, `xs1`). -/
def ptB (c : Dev nD) (t : Fin cfg0.N) (hc0 : ¬cond0_0 (grid0.coords t)) (hc1 : ¬cond0_1 (grid0.coords t)) (xs0 xs1 : Vec F S1x256 .f32) : Out5 F :=
  (VO0_5.read (Elt F) (VO0_5.writes (Elt F) VO0_5.junk (runB c t hc0 hc1 (iblk0 V c 0 t) (iblk0 V c 1 t) (iblk0 V c 2 t) (iblk0 V c 3 t) (iblk0 V c 4 t) xs0 xs1).1),
   View.canon [], View.canon [],
   VS0_0.read (Elt F) (VS0_0.writes (Elt F) VS0_0.junk (runB c t hc0 hc1 (iblk0 V c 0 t) (iblk0 V c 1 t) (iblk0 V c 2 t) (iblk0 V c 3 t) (iblk0 V c 4 t) xs0 xs1).2.1),
   VS0_1.read (Elt F) (VS0_1.writes (Elt F) VS0_1.junk (runB c t hc0 hc1 (iblk0 V c 0 t) (iblk0 V c 1 t) (iblk0 V c 2 t) (iblk0 V c 3 t) (iblk0 V c 4 t) xs0 xs1).2.2.1))

/-- The last point: sums increased, then the mean and variance rows written from them. -/
def ptC (c : Dev nD) (t : Fin cfg0.N) (hc0 : ¬cond0_0 (grid0.coords t)) (hc1 : cond0_1 (grid0.coords t)) (xs0 xs1 : Vec F S1x256 .f32) : Out5 F :=
  (VO0_5.read (Elt F) (VO0_5.writes (Elt F) VO0_5.junk (runC c t hc0 hc1 (iblk0 V c 0 t) (iblk0 V c 1 t) (iblk0 V c 2 t) (iblk0 V c 3 t) (iblk0 V c 4 t) xs0 xs1).1),
   VO0_6.read (Elt F) (VO0_6.writes (Elt F) VO0_6.junk (runC c t hc0 hc1 (iblk0 V c 0 t) (iblk0 V c 1 t) (iblk0 V c 2 t) (iblk0 V c 3 t) (iblk0 V c 4 t) xs0 xs1).2.1),
   VO0_7.read (Elt F) (VO0_7.writes (Elt F) VO0_7.junk (runC c t hc0 hc1 (iblk0 V c 0 t) (iblk0 V c 1 t) (iblk0 V c 2 t) (iblk0 V c 3 t) (iblk0 V c 4 t) xs0 xs1).2.2.1),
   VS0_0.read (Elt F) (VS0_0.writes (Elt F) VS0_0.junk (runC c t hc0 hc1 (iblk0 V c 0 t) (iblk0 V c 1 t) (iblk0 V c 2 t) (iblk0 V c 3 t) (iblk0 V c 4 t) xs0 xs1).2.2.2.1),
   VS0_1.read (Elt F) (VS0_1.writes (Elt F) VS0_1.junk (runC c t hc0 hc1 (iblk0 V c 0 t) (iblk0 V c 1 t) (iblk0 V c 2 t) (iblk0 V c 3 t) (iblk0 V c 4 t) xs0 xs1).2.2.2.2.1))

theorem N0_eq : cfg0.N = 10 := N_0

theorem not_first (n : ℕ) (hn : n + 1 < cfg0.N) : ¬cond0_0 (grid0.coords (⟨n + 1, hn⟩ : Fin cfg0.N)) := fun h => by
  have h' := (hcond0_0 ⟨n + 1, hn⟩).mp h
  have hN : n + 1 < 10 := lt_of_lt_of_eq hn N0_eq
  (try dsimp only at h'); omega

/-- What the buffers hold after the body at position `n`, by recursion on `n`. -/
def outsAt0 (c : Dev nD) : (n : ℕ) → n < cfg0.N → Out5 F
  | 0, hn => ptA V c ⟨0, hn⟩ ((hcond0_0 ⟨0, hn⟩).mpr (Nat.zero_mod _)) (fun h => by have h' := (hcond0_1 ⟨0, hn⟩).mp h; (try dsimp only at h'); omega)
  | n + 1, hn =>
    if h1 : (n + 1) % 10 = 9 then
      ptC V c ⟨n + 1, hn⟩ (not_first n hn) ((hcond0_1 ⟨n + 1, hn⟩).mpr h1)
        (outsAt0 c n (Nat.lt_of_succ_lt hn)).2.2.2.1 (outsAt0 c n (Nat.lt_of_succ_lt hn)).2.2.2.2
    else
      ptB V c ⟨n + 1, hn⟩ (not_first n hn) (fun h => h1 ((hcond0_1 ⟨n + 1, hn⟩).mp h))
        (outsAt0 c n (Nat.lt_of_succ_lt hn)).2.2.2.1 (outsAt0 c n (Nat.lt_of_succ_lt hn)).2.2.2.2

theorem outsAt0_A (c : Dev nD) (t : Fin cfg0.N) (hz : t.val = 0) (hc0 : cond0_0 (grid0.coords t)) (hc1 : ¬cond0_1 (grid0.coords t)) :
    outsAt0 V c t.val t.isLt = ptA V c t hc0 hc1 := by
  obtain ⟨n, hn⟩ := t
  cases n with
  | zero => rfl
  | succ n => exact absurd hz (Nat.succ_ne_zero _)

theorem outsAt0_B (c : Dev nD) (t : Fin cfg0.N) (hz : t.val ≠ 0) (h1 : ¬t.val % 10 = 9) (hc0 : ¬cond0_0 (grid0.coords t)) (hc1 : ¬cond0_1 (grid0.coords t)) :
    outsAt0 V c t.val t.isLt = ptB V c t hc0 hc1
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd rfl hz
  | succ n => exact (dif_neg h1).trans rfl

theorem outsAt0_C (c : Dev nD) (t : Fin cfg0.N) (hz : t.val ≠ 0) (h1 : t.val % 10 = 9) (hc0 : ¬cond0_0 (grid0.coords t)) (hc1 : cond0_1 (grid0.coords t)) :
    outsAt0 V c t.val t.isLt = ptC V c t hc0 hc1
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd rfl hz
  | succ n => exact (dif_pos h1).trans rfl

/-- The invariant before position `n`: before the first point the two running-sum buffers hold anything; afterwards
    what the point before left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ rest8 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ rest8 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ rest8 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Region0

end Cert.KernelIdeal.Hand

end
-- ==== Proof.KI.Reg0c.lean ====
/-
  The first pipelined region seen by the pipeline, part three: the body's obligation at every grid point, by the three
  situations of the point, and the invariant at the region's two ends.
-/
import proofs.«107287_j91061896610587_1_alg».proof.Proof.Gen.KernelIdeal.Launch
import proofs.«107287_j91061896610587_1_alg».proof.Proof.Gen.KernelIdeal.Skeleton
import proofs.«107287_j91061896610587_1_alg».proof.Proof.Gen.KernelIdeal.Points
import proofs.«107287_j91061896610587_1_alg».proof.Proof.Gen.KernelIdeal.Regions
import proofs.«107287_j91061896610587_1_alg».proof.Proof.KI.Reg0b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt N0_eq
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases hz : t.val = 0
  · have hc0 : cond0_0 (grid0.coords t) := (hcond0_0 t).mpr (by omega)
    have hc1 : ¬cond0_1 (grid0.coords t) := fun h => by have h' := (hcond0_1 t).mp h; omega
    rw [Dat.leavesExact_idle (dat0 V c) 6 t (idleAt0_6 t hc1) (noFlush0_6 t hc1), Dat.leavesExact_idle (dat0 V c) 7 t (idleAt0_7 t hc1) (noFlush0_7 t hc1)]
    rw [outsAt0_A V c t hz hc0 hc1]
    unfold ptA; (try dsimp only)
    rw [PhiS_castSucc V c t, PhiS_zero V c _ _ hz, PhiA0_eq]
    iintro ⟨⟨⟨HS0, HS1, HR8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c t hc0 hc1 (iblk0 V c 0 t) (iblk0 V c 1 t) (iblk0 V c 2 t) (iblk0 V c 3 t) (iblk0 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HS0 HS1 HR8 Hg]
    · isplitl [HS0 HS1 HR8]
      · isplitl [HS0]
        · unfold owns; iexists _; isplitr
          swap; · iexact HS0
          ipureintro; exact View.read_writes_of_cover _ _ _ _ _ (coverA_s0 c t hc0 hc1 _ _ _ _ _)
        isplitl [HS1]
        · unfold owns; iexists _; isplitr
          swap; · iexact HS1
          ipureintro; exact View.read_writes_of_cover _ _ _ _ _ (coverA_s1 c t hc0 hc1 _ _ _ _ _)
        iexact HR8
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverA_5 c t hc0 hc1 _ _ _ _ _)
    isplitl [H6]; · iexists _; iexact H6
    iexists _; iexact H7
  · have hc0 : ¬cond0_0 (grid0.coords t) := fun h => by have h' := (hcond0_0 t).mp h; omega
    by_cases h9 : t.val % 10 = 9
    · have hc1 : cond0_1 (grid0.coords t) := (hcond0_1 t).mpr h9
      rw [show (dat0 V c).leavesExact 6 t = owns (c : Thread nD τ) (ms0_6 t) fullShare ((dat0 V c).after 6 t) from by
        unfold Dat.leavesExact; rw [liveAt0_6 t hc1], after0_6]
      rw [show (dat0 V c).leavesExact 7 t = owns (c : Thread nD τ) (ms0_7 t) fullShare ((dat0 V c).after 7 t) from by
        unfold Dat.leavesExact; rw [liveAt0_7 t hc1], after0_7]
      rw [outsAt0_C V c t hz h9 hc0 hc1]
      unfold ptC; (try dsimp only)
      rw [PhiS_castSucc V c t, PhiS_pos V c _ _ hz]
      iintro ⟨⟨⟨HS0, HS1, HR8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c t hc0 hc1 (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR8 Hg]
      · isplitl [HS0 HS1 HR8]
        · isplitl [HS0]
          · unfold owns; iexists _; isplitr
            swap; · iexact HS0
            ipureintro; exact View.read_writes_of_cover _ _ _ _ _ (coverC_s0 c t hc0 hc1 _ _ _ _ _ _ _)
          isplitl [HS1]
          · unfold owns; iexists _; isplitr
            swap; · iexact HS1
            ipureintro; exact View.read_writes_of_cover _ _ _ _ _ (coverC_s1 c t hc0 hc1 _ _ _ _ _ _ _)
          iexact HR8
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC_5 c t hc0 hc1 _ _ _ _ _ _ _)
      isplitl [H6]
      · unfold owns; iexists _; isplitr
        swap; · iexact H6
        ipureintro; exact View.read_writes_of_cover _ _ _ _ _ (coverC_6 c t hc0 hc1 _ _ _ _ _ _ _)
      unfold owns; iexists _; isplitr
      swap; · iexact H7
      ipureintro; exact View.read_writes_of_cover _ _ _ _ _ (coverC_7 c t hc0 hc1 _ _ _ _ _ _ _)
    · have hc1 : ¬cond0_1 (grid0.coords t) := fun h => h9 ((hcond0_1 t).mp h)
      rw [Dat.leavesExact_idle (dat0 V c) 6 t (idleAt0_6 t hc1) (noFlush0_6 t hc1), Dat.leavesExact_idle (dat0 V c) 7 t (idleAt0_7 t hc1) (noFlush0_7 t hc1)]
      rw [outsAt0_B V c t hz h9 hc0 hc1]
      unfold ptB; (try dsimp only)
      rw [PhiS_castSucc V c t, PhiS_pos V c _ _ hz]
      iintro ⟨⟨⟨HS0, HS1, HR8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c t hc0 hc1 (iblk0 V c 0 t) (iblk0 V c 1 t) (iblk0 V c 2 t) (iblk0 V c 3 t) (iblk0 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR8 Hg]
      · isplitl [HS0 HS1 HR8]
        · isplitl [HS0]
          · unfold owns; iexists _; isplitr
            swap; · iexact HS0
            ipureintro; exact View.read_writes_of_cover _ _ _ _ _ (coverB_s0 c t hc0 hc1 _ _ _ _ _ _ _)
          isplitl [HS1]
          · unfold owns; iexists _; isplitr
            swap; · iexact HS1
            ipureintro; exact View.read_writes_of_cover _ _ _ _ _ (coverB_s1 c t hc0 hc1 _ _ _ _ _ _ _)
          iexact HR8
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverB_5 c t hc0 hc1 _ _ _ _ _ _ _)
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the buffers back, their contents forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR8⟩, Hg⟩
  isplitl [HS0 HS1 HR8]
  · isplitl [HS0]; · iexists _; iexact HS0
    isplitl [HS1]; · iexists _; iexact HS1
    iexact HR8
  iexact Hg

theorem hout0 (c : Dev nD) : (dat0 V c).Φ (Fin.last cfg0.N) ⊢ Pipeline.ΦA spec0 c :=
  Phi_out0 V c _ (by rw [Fin.val_last]; have : cfg0.N = 10 := N0_eq; omega)

end Region0

end Cert.KernelIdeal.Hand

end
-- ==== Proof.KI.Reg1.lean ====
/-
  The second pipelined region (normalise, scale, shift, clamp at zero) seen by the pipeline: at every grid point the
  body reads a block of 4000 rows of the layer's output together with the four parameter rows (mean, variance, scale,
  shift), and writes the block of 4000 rows of the result. Nothing is kept between points.
-/
import proofs.«107287_j91061896610587_1_alg».proof.Proof.Gen.KernelIdeal.Launch
import proofs.«107287_j91061896610587_1_alg».proof.Proof.Gen.KernelIdeal.Skeleton
import proofs.«107287_j91061896610587_1_alg».proof.Proof.Gen.KernelIdeal.Points
import proofs.«107287_j91061896610587_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 4000 x 256 block and the whole 1 x 256 row, as the body's accesses. -/
abbrev rBlk : Rect S4000x256 := Rect.unit (s := S4000x256) ![0, 0] S4000x256.size inb_S4000x256_S4000x256_0_0
abbrev rRow : Rect S1x256 := Rect.unit (s := S1x256) ![0, 0] S1x256.size inb_S1x256_S1x256_0_0

/-- What the body leaves in the output block: the one store's payload over the five loaded values. -/
def out1_5 (x0 : Vec F S4000x256 .f32) (x1 x2 x3 x4 : Vec F S1x256 .f32) : Vec F S4000x256 .f32 :=
  View.canon [⟨rBlk, k1_pay1 (View.ld x0 rBlk) (View.ld x1 rRow) (View.ld x2 rRow) (View.ld x3 rRow) (View.ld x4 rRow)⟩]

theorem cover1_5 (p0 : Vec F S4000x256 .f32) (y : S4000x256.Idx) :
    ∃ pc ∈ ([⟨rBlk, p0⟩] : List (View.Piece (Elt F) S4000x256 .f32)), y ∈ pc.1.set :=
  View.cover_of_tiled [⟨rBlk, p0⟩] S4000x256.size (by rfl) y

set_option maxHeartbeats 1000000 in
/-- The body on whole staging buffers: the five inputs are left as they were, the output block ends at `out1_5`. -/
theorem sound_kernel1 (c : Dev nD) (E : Set ℕ) (i : grid1.Coords)
    (arg1 : Memref sig .tc .vmem S4000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S4000x256 .f32) (harg6 : arg6.IsWhole)
    (x0 : Vec F S4000x256 .f32) (x1 x2 x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## Each input's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- After the body at point `t`: each input's buffer at its block, the output's at `out1_5` of the input blocks;
    nothing of the body's own is kept between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The whole kernel program from its launch to its return: three stretches of host operations, the two pipelined
  regions, and the closing reshape, composed in order; every buffer's contents at each boundary is named, so that the
  result buffer at the end is read as a function of the launch memory and every argument is found unchanged.
-/
import proofs.«107287_j91061896610587_1_alg».proof.Proof.Gen.KernelIdeal.Launch
import proofs.«107287_j91061896610587_1_alg».proof.Proof.Gen.KernelIdeal.Skeleton
import proofs.«107287_j91061896610587_1_alg».proof.Proof.Gen.KernelIdeal.Points
import proofs.«107287_j91061896610587_1_alg».proof.Proof.Gen.KernelIdeal.Regions
import proofs.«107287_j91061896610587_1_alg».proof.Proof.KI.Reg0c
import proofs.«107287_j91061896610587_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Before the first region: the launch memory after the three host stretches. -/
abbrev W3 (c : Dev nD) : Valuation τ sig (Elt F) := Gen.V3 m c
abbrev V3 : (c : Dev nD) → (b : Ref sig .tc) → Buf (Elt F) ((c : Thread nD τ).loc b) := fun c b => W3 m c b

/-- After the first region: its arrays at what the pipeline leaves, every other buffer as before. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the second region. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- At the return: after the closing host stretch. -/
abbrev W6 (c : Dev nD) : Valuation τ sig (Elt F) := StableHlo.after hostOps2 (W5 m c)

/-! ## No segment writes an argument -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ Gen.hostOps2_writes (by decide)
    _ = W4 m c (Proc.devRef .tc main_arg0) := W5_of_ne m c main_arg0 (by decide)
    _ = W3 m c (Proc.devRef .tc main_arg0) := W4_of_ne m c main_arg0 (by decide)
    _ = m ((c : Thread nD τ).loc main_arg0) := (Gen.V3_of m c main_arg0 (by decide)).trans <| (Gen.V2_of m c main_arg0 (by decide)).trans <| (Gen.V1_of m c main_arg0 (by decide)).trans rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ Gen.hostOps2_writes (by decide)
    _ = W4 m c (Proc.devRef .tc main_arg1) := W5_of_ne m c main_arg1 (by decide)
    _ = W3 m c (Proc.devRef .tc main_arg1) := W4_of_ne m c main_arg1 (by decide)
    _ = m ((c : Thread nD τ).loc main_arg1) := (Gen.V3_of m c main_arg1 (by decide)).trans <| (Gen.V2_of m c main_arg1 (by decide)).trans <| (Gen.V1_of m c main_arg1 (by decide)).trans rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ Gen.hostOps2_writes (by decide)
    _ = W4 m c (Proc.devRef .tc main_arg2) := W5_of_ne m c main_arg2 (by decide)
    _ = W3 m c (Proc.devRef .tc main_arg2) := W4_of_ne m c main_arg2 (by decide)
    _ = m ((c : Thread nD τ).loc main_arg2) := (Gen.V3_of m c main_arg2 (by decide)).trans <| (Gen.V2_of m c main_arg2 (by decide)).trans <| (Gen.V1_of m c main_arg2 (by decide)).trans rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps2 _ Gen.hostOps2_writes (by decide)
    _ = W4 m c (Proc.devRef .tc main_arg3) := W5_of_ne m c main_arg3 (by decide)
    _ = W3 m c (Proc.devRef .tc main_arg3) := W4_of_ne m c main_arg3 (by decide)
    _ = m ((c : Thread nD τ).loc main_arg3) := (Gen.V3_of m c main_arg3 (by decide)).trans <| (Gen.V2_of m c main_arg3 (by decide)).trans <| (Gen.V1_of m c main_arg3 (by decide)).trans rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps2 _ Gen.hostOps2_writes (by decide)
    _ = W4 m c (Proc.devRef .tc main_arg4) := W5_of_ne m c main_arg4 (by decide)
    _ = W3 m c (Proc.devRef .tc main_arg4) := W4_of_ne m c main_arg4 (by decide)
    _ = m ((c : Thread nD τ).loc main_arg4) := (Gen.V3_of m c main_arg4 (by decide)).trans <| (Gen.V2_of m c main_arg4 (by decide)).trans <| (Gen.V1_of m c main_arg4 (by decide)).trans rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps2 _ Gen.hostOps2_writes (by decide)
    _ = W4 m c (Proc.devRef .tc main_arg5) := W5_of_ne m c main_arg5 (by decide)
    _ = W3 m c (Proc.devRef .tc main_arg5) := W4_of_ne m c main_arg5 (by decide)
    _ = m ((c : Thread nD τ).loc main_arg5) := (Gen.V3_of m c main_arg5 (by decide)).trans <| (Gen.V2_of m c main_arg5 (by decide)).trans <| (Gen.V1_of m c main_arg5 (by decide)).trans rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps2 _ Gen.hostOps2_writes (by decide)
    _ = W4 m c (Proc.devRef .tc main_arg6) := W5_of_ne m c main_arg6 (by decide)
    _ = W3 m c (Proc.devRef .tc main_arg6) := W4_of_ne m c main_arg6 (by decide)
    _ = m ((c : Thread nD τ).loc main_arg6) := (Gen.V3_of m c main_arg6 (by decide)).trans <| (Gen.V2_of m c main_arg6 (by decide)).trans <| (Gen.V1_of m c main_arg6 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .region (reg1 m),
    .host (hseg hostOps2 hostOps2_sub Gen.hostOps2_fresh (W5 m)) ]

theorem main_run (c : Dev nD) : main (F := F) c = Pipeline.Seg.run (segs m) := (main_chain c).trans (by chain_rfl)

set_option backward.isDefEq.respectTransparency.types false in
/-- Every weakly fair execution terminates, nothing faulting, and every final memory holds every unscoped buffer at the
    contents named above; in particular the result buffer and the seven arguments. -/
theorem run : θ_run defs (onTc (τ := τ) (main (F := F))) ⟨m, fun _ => 0, ρ⟩ (fun r => ∀ c : Dev nD,
      r.2.mem ((c.tc : Thread nD τ).loc main_v43) = W6 m c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps2 (W5 m c)) ∗ R c) ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v43 (by decide)),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c),
       (h c _ (mem_uc main_arg4 (by decide))).trans (W6_main_arg4 m c),
       (h c _ (mem_uc main_arg5 (by decide))).trans (W6_main_arg5 m c),
       (h c _ (mem_uc main_arg6 (by decide))).trans (W6_main_arg6 m c)⟩)

end Cert.KernelIdeal.Hand

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.KI.Payloads.lean ====
/-
  The kernel's pure values, read at an index.

  Each value the two kernel functions store or carry is a definition over the values loaded before it (the generated
  payload definitions). Here each is read at an index given by coordinates, as a formula on the extended reals:
  * the dense layer of a block of 4000 rows: three products of 256 columns each, summed, plus the bias row;
  * the running column sums of h and of h·h over the blocks (a sum over the 4000 rows of the block added to the carry),
    and their initial values, zero;
  * the mean and the variance of a column from the two totals, with the reciprocal of the row count a NAMED constant,
    the real 1/40000;
  * the normalisation, affine map and maximum with zero of the second kernel function.
  A layout operation between equal shapes is the identity; a row [1, 256] spread over [4000, 256] reads the row's
  entry of the same column; a vector [256] given a unit leading axis reads the vector's entry.
-/
import proofs.«107287_j91061896610587_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«107287_j91061896610587_1_alg».proof.Proof.LibDot

noncomputable section

open scoped BigOperators

namespace Cert.KernelIdeal.Pay

open Idealize.ShloMosaic Idealize.ShloMosaic.ValueIdx

/-! ## The operations that are not pointwise -/

/-- The named reciprocal of the row count is the real 1/40000. -/
theorem inv_rows :
    Named.named (F := Ideal) Cert.KernelIdeal.κ "inv_40000" (φ := .f32) 0x37D1B717#32 = ((1 / 40000 : ℝ) : EReal) :=
  IdealRules.named_const.ideal_named_scalar _ _ _ _ rfl

/-- A reciprocal square root at an index is that of the element. -/
theorem rsqrt_apply {s : Shape} {φ : FTy} (a : FVec Ideal s φ) (i : s.Idx) : rsqrt a i = Ideal.rsqrt (a i) := rfl

/-- A [4000, 256] by [256, 256] product into a zero accumulator, read at (p, q): the sum over k of l (p, k) · r (k, q). -/
theorem matmul_at (l : FVec Ideal S4000x256 .bf16) (r : FVec Ideal S256x256 .bf16) (p : Fin 4000) (q : Fin 256) :
    matmul dot_S4000x256_S256x256_S4000x256_1_0_0_1_n_n none l r (constant S4000x256 .f32 0x00000000#32) (ix2 p q)
      = ∑ k : Fin 256, l (ix2 p k) * r (ix2 k q) :=
  (Ideal.matmul_constant_zero_apply _ none l r (ix2 p q)).trans
    (PlainDot.sum_eq dot_S4000x256_S256x256_S4000x256_1_0_0_1_n_n rfl rfl rfl rfl rfl rfl l r p q)

/-- A sum over the rows (axis 0) of a [4000, 256] array from the zero word, read at column q: the sum over p of the
    entries (p, q). -/
theorem colsum_at (src : FVec Ideal S4000x256 .f32) (hacc : (0x00000000#32 : BitVec 32) = 0x00000000#32) (q : Fin 256) :
    multiReduction .add [0] S256 src 0x00000000#32 Gen.reduces_S4000x256_S256 (.inl rfl) hacc (ix1 q)
      = ∑ p : Fin 4000, src (ix2 p q) := by
  refine (Ideal.multiReduction_add_single src 0x00000000#32 Gen.reduces_S4000x256_S256 (.inl rfl) hacc (ix1 q)).trans ?_
  refine Finset.sum_congr rfl fun p _ => ?_
  congr 1
  funext a
  match a with
  | ⟨0, _⟩ => rfl
  | ⟨1, _⟩ => rfl

/-! ## The first kernel function: the dense layer and the column statistics -/

/-- The dense layer of a block at (p, q): the three products of 256 columns, summed left to right, plus the bias. -/
theorem dense_at (v3 v5 v7 : Vec Ideal S256x256 .bf16) (v9 v12 v16 : Vec Ideal S4000x256 .bf16) (v20 : Vec Ideal S1x256 .f32)
    (p : Fin 4000) (q : Fin 256) :
    Gen.k0_pay7 v3 v5 v7 v9 v12 v16 v20 (ix2 p q)
      = (((∑ k : Fin 256, v9 (ix2 p k) * v3 (ix2 k q)) + (∑ k : Fin 256, v12 (ix2 p k) * v5 (ix2 k q)))
          + (∑ k : Fin 256, v16 (ix2 p k) * v7 (ix2 k q))) + v20 (ix2 0 q) := by
  unfold Gen.k0_pay7
  simp only [shapeCast_self, addf_apply, ValueIdx.broadcastTo_1b_ab_apply, matmul_at]

/-- The running column sum of h after a block, at column q: the carry plus the sum over the block's 4000 rows. -/
theorem sumAcc_at (v3 v5 v7 : Vec Ideal S256x256 .bf16) (v9 v12 v16 : Vec Ideal S4000x256 .bf16) (v20 v25 : Vec Ideal S1x256 .f32)
    (q : Fin 256) :
    Gen.k0_pay8 v3 v5 v7 v9 v12 v16 v20 v25 (ix2 0 q)
      = v25 (ix2 0 q) + ∑ p : Fin 4000, Gen.k0_pay7 v3 v5 v7 v9 v12 v16 v20 (ix2 p q) := by
  unfold Gen.k0_pay8
  simp only [addf_apply, ValueIdx.shapeCast_a_1a_apply]
  exact congrArg (v25 (ix2 0 q) + ·) (colsum_at _ rfl q)

/-- The running column sum of h·h after a block, at column q: the stored value plus the sum of the squares over the
    block's 4000 rows. -/
theorem sqAcc_at (v23 : FVec Ideal S4000x256 .f32) (v32 : Vec Ideal S1x256 .f32) (q : Fin 256) :
    Gen.k0_pay2 v23 v32 (ix2 0 q) = v32 (ix2 0 q) + ∑ p : Fin 4000, v23 (ix2 p q) * v23 (ix2 p q) := by
  unfold Gen.k0_pay2
  simp only [shapeCast_self, addf_apply, ValueIdx.shapeCast_a_1a_apply]
  exact congrArg (v32 (ix2 0 q) + ·) (colsum_at (mulf v23 v23) rfl q)

/-- The stored running sum of h is the carried one. -/
theorem carry_eq (v28 : FVec Ideal S1x256 .f32) : Gen.k0_pay1 v28 = v28 := by
  unfold Gen.k0_pay1
  exact shapeCast_self _ _

/-- The running sum of h starts at zero. -/
theorem sumInit_eq : Gen.k0_pay5 (F := Ideal) = fun _ => 0 := by
  unfold Gen.k0_pay5
  funext i
  simp only [shapeCast_self, broadcast_apply]
  exact Ideal.ofBits_zero_f32

/-- The running sum of h·h starts at zero. -/
theorem sqInit_eq : Gen.k0_pay6 (F := Ideal) = fun _ => 0 := by
  unfold Gen.k0_pay6
  funext i
  simp only [shapeCast_self, broadcast_apply]
  exact Ideal.ofBits_zero_f32

/-- The mean of column q: the total of h times 1/40000. -/
theorem mean_at (v43 : Vec Ideal S1x256 .f32) (q : Fin 256) :
    Gen.k0_pay3 v43 (ix2 0 q) = v43 (ix2 0 q) * ((1 / 40000 : ℝ) : EReal) := by
  unfold Gen.k0_pay3
  simp only [mulf_apply, broadcast_apply, inv_rows]

/-- The variance of column q: the total of h·h times 1/40000, minus the square of the mean. -/
theorem var_at (v43 v46 : Vec Ideal S1x256 .f32) (q : Fin 256) :
    Gen.k0_pay4 v43 v46 (ix2 0 q) = v46 (ix2 0 q) * ((1 / 40000 : ℝ) : EReal)
      - (v43 (ix2 0 q) * ((1 / 40000 : ℝ) : EReal)) * (v43 (ix2 0 q) * ((1 / 40000 : ℝ) : EReal)) := by
  unfold Gen.k0_pay4
  simp only [subf_apply, mulf_apply, broadcast_apply, inv_rows, mean_at]

/-! ## The second kernel function: normalise, scale, shift, clamp at zero -/

/-- The result at (p, q): (h − mean) · rsqrt (var + ε) · γ + β, then the maximum with zero; the four rows are read at
    column q. -/
theorem bnRelu_at (v0 : Vec Ideal S4000x256 .f32) (v2 v6 v13 v17 : Vec Ideal S1x256 .f32) (p : Fin 4000) (q : Fin 256) :
    Gen.k1_pay1 v0 v2 v6 v13 v17 (ix2 p q)
      = max ((((v0 (ix2 p q) - v2 (ix2 0 q)) * Ideal.rsqrt (v6 (ix2 0 q) + Ideal.ofBits .f32 0x3727C5AC#32)) * v13 (ix2 0 q))
          + v17 (ix2 0 q)) 0 := by
  unfold Gen.k1_pay1
  simp only [shapeCast_self, maximumf_apply, addf_apply, mulf_apply, subf_apply, broadcast_apply,
    ValueIdx.broadcastTo_1b_ab_apply, rsqrt_apply, Ideal.ofBits_def, Ideal.ofBits_zero_f32]

end Cert.KernelIdeal.Pay

end
-- ==== Proof.KI.Val1.lean ====
/-
  The result array after the second pipelined region, as a function of the arrays the region finds.

  The region has ten grid points. At point t the body reads block t of the layer's output, rows 4000 t .. 4000 t + 3999
  (the window's index map is (t, 0) and its block is 4000 x 256), and the four parameter rows whole (their index maps
  are (0, 0)); it writes block t of the result. So entry (p, q) of what point t writes back is the normalised value
  at row 4000 t + p, column q; the ten blocks tile the 40000 rows (row r lies in block r / 4000), and the array ends
  holding  max (((h − mean) · rsqrt (var + ε)) · γ + β, 0)  index by index.
-/
import proofs.«107287_j91061896610587_1_alg».proof.Proof.KI.Reg1
import proofs.«107287_j91061896610587_1_alg».proof.Proof.KI.Payloads
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

section Val1

variable (V : (c : Dev nD) → (b : Ref sig .tc) → Buf (Elt Ideal) ((c : Thread nD τ).loc b))

/-- The zero offsets of a whole-buffer access. -/
theorem hz1 : (![0, 0] : Fin 2 → Nat) = fun _ => 0 := funext fun a => by fin_cases a <;> rfl

/-- The printed index maps over the grid: windows 0 and 5 are at block (t, 0), the four parameter rows at (0, 0). -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The region has ten grid points. -/
theorem lt_N1 (t : Fin cfg1.N) : t.val < 10 := lt_of_lt_of_eq t.isLt N_1

/-- Row p of block t is row 4000 t + p of the array. -/
def row1 (t : Fin cfg1.N) (p : Fin 4000) : Fin 40000 := ⟨4000 * t.val + p.val, by have := lt_N1 t; have := p.isLt; omega⟩

/-- The normalised, scaled, shifted and clamped array. -/
def bn1 (h : S40000x256.Idx → EReal) (mu var ga be : S1x256.Idx → EReal) : S40000x256.Idx → EReal := fun i =>
  max ((((h i - mu (ix2 0 (i 1 : Fin 256))) * Ideal.rsqrt (var (ix2 0 (i 1 : Fin 256)) + Ideal.ofBits .f32 0x3727C5AC#32))
    * ga (ix2 0 (i 1 : Fin 256))) + be (ix2 0 (i 1 : Fin 256))) 0

/-- Entry (p, q) of the layer-output block at point t is the array's entry at row 4000 t + p, column q. -/
theorem iblk1_0_at (c : Dev nD) (t : Fin cfg1.N) (p : Fin 4000) (q : Fin 256) :
    (iblk1 V c 0 t : S4000x256.Idx → EReal) (ix2 p q) = (V c main_v41_0 : S40000x256.Idx → EReal) (ix2 (row1 t p) q) := by
  obtain ⟨e0, e1, -⟩ := idx_facts1 t
  unfold iblk1
  rw [View.read_apply]
  show (V c main_v41_0 : S40000x256.Idx → EReal) _ = (V c main_v41_0 : S40000x256.Idx → EReal) _
  congr 1
  funext a
  apply Fin.ext
  match a with
  | ⟨0, _⟩ => show win1_0.index t (0 : Fin 2) * 4000 + 1 * p.val = 4000 * t.val + p.val; rw [e0]; omega
  | ⟨1, _⟩ => show win1_0.index t (1 : Fin 2) * 256 + 1 * q.val = q.val; rw [e1]; omega

/-- The mean row's block at every point is the row itself. -/
theorem iblk1_1_at (c : Dev nD) (t : Fin cfg1.N) (q : Fin 256) :
    (iblk1 V c 1 t : S1x256.Idx → EReal) (ix2 0 q) = (V c main_v41_1 : S1x256.Idx → EReal) (ix2 0 q) := by
  obtain ⟨-, -, -, -, e0, e1, -⟩ := idx_facts1 t
  unfold iblk1
  rw [View.read_apply]
  show (V c main_v41_1 : S1x256.Idx → EReal) _ = (V c main_v41_1 : S1x256.Idx → EReal) _
  congr 1
  funext a
  apply Fin.ext
  match a with
  | ⟨0, _⟩ => show win1_1.index t (0 : Fin 2) * 1 + 1 * 0 = 0; rw [e0]
  | ⟨1, _⟩ => show win1_1.index t (1 : Fin 2) * 256 + 1 * q.val = q.val; rw [e1]; omega

/-- The variance row's block at every point is the row itself. -/
theorem iblk1_2_at (c : Dev nD) (t : Fin cfg1.N) (q : Fin 256) :
    (iblk1 V c 2 t : S1x256.Idx → EReal) (ix2 0 q) = (V c main_v41_2 : S1x256.Idx → EReal) (ix2 0 q) := by
  obtain ⟨-, -, -, -, -, -, e0, e1, -⟩ := idx_facts1 t
  unfold iblk1
  rw [View.read_apply]
  show (V c main_v41_2 : S1x256.Idx → EReal) _ = (V c main_v41_2 : S1x256.Idx → EReal) _
  congr 1
  funext a
  apply Fin.ext
  match a with
  | ⟨0, _⟩ => show win1_2.index t (0 : Fin 2) * 1 + 1 * 0 = 0; rw [e0]
  | ⟨1, _⟩ => show win1_2.index t (1 : Fin 2) * 256 + 1 * q.val = q.val; rw [e1]; omega

/-- The scale row's block at every point is the row itself. -/
theorem iblk1_3_at (c : Dev nD) (t : Fin cfg1.N) (q : Fin 256) :
    (iblk1 V c 3 t : S1x256.Idx → EReal) (ix2 0 q) = (V c main_v39 : S1x256.Idx → EReal) (ix2 0 q) := by
  obtain ⟨-, -, -, -, -, -, -, -, e0, e1, -⟩ := idx_facts1 t
  unfold iblk1
  rw [View.read_apply]
  show (V c main_v39 : S1x256.Idx → EReal) _ = (V c main_v39 : S1x256.Idx → EReal) _
  congr 1
  funext a
  apply Fin.ext
  match a with
  | ⟨0, _⟩ => show win1_3.index t (0 : Fin 2) * 1 + 1 * 0 = 0; rw [e0]
  | ⟨1, _⟩ => show win1_3.index t (1 : Fin 2) * 256 + 1 * q.val = q.val; rw [e1]; omega

/-- The shift row's block at every point is the row itself. -/
theorem iblk1_4_at (c : Dev nD) (t : Fin cfg1.N) (q : Fin 256) :
    (iblk1 V c 4 t : S1x256.Idx → EReal) (ix2 0 q) = (V c main_v40 : S1x256.Idx → EReal) (ix2 0 q) := by
  obtain ⟨-, -, -, -, -, -, -, -, -, -, e0, e1⟩ := idx_facts1 t
  unfold iblk1
  rw [View.read_apply]
  show (V c main_v40 : S1x256.Idx → EReal) _ = (V c main_v40 : S1x256.Idx → EReal) _
  congr 1
  funext a
  apply Fin.ext
  match a with
  | ⟨0, _⟩ => show win1_4.index t (0 : Fin 2) * 1 + 1 * 0 = 0; rw [e0]
  | ⟨1, _⟩ => show win1_4.index t (1 : Fin 2) * 256 + 1 * q.val = q.val; rw [e1]; omega

/-- Entry (p, q) of block t of the result array sits at row 4000 t + p, column q. -/
theorem emb1_5 (t : Fin cfg1.N) (p : Fin 4000) (q : Fin 256) :
    (((cfg1.win 5).blk t).view.emb (ix2 p q) : S40000x256.Idx) = ix2 (row1 t p) q := by
  obtain ⟨-, -, e0, e1, -⟩ := idx_facts1 t
  funext a
  apply Fin.ext
  match a with
  | ⟨0, _⟩ => show win1_5.index t (0 : Fin 2) * 4000 + 1 * p.val = 4000 * t.val + p.val; rw [e0]; omega
  | ⟨1, _⟩ => show win1_5.index t (1 : Fin 2) * 256 + 1 * q.val = q.val; rw [e1]; omega

/-- What point t writes back is block t of the normalised array. -/
theorem flushed1_eq (c : Dev nD) (t : Fin cfg1.N) :
    (dat1 V c).flushed 5 t = ((cfg1.win 5).blk t).view.read (Elt Ideal)
      (bn1 (V c main_v41_0) (V c main_v41_1) (V c main_v41_2) (V c main_v39) (V c main_v40)) := by
  show (cfg1.win 5).cut (grid1.coords t) ((dat1 V c).after 5 t) = _
  rw [after1_5]
  unfold out1_5
  rw [View.canon_unit_zero hz1]
  simp only [View.ld_unit_zero (S := S4000x256) hz1, View.ld_unit_zero (S := S1x256) hz1]
  refine funext fun (j : S4000x256.Idx) => ?_
  obtain ⟨p, q, rfl⟩ : ∃ (p : Fin 4000) (q : Fin 256), j = ix2 p q := ⟨j 0, j 1, eq_ix2 j⟩
  show k1_pay1 (iblk1 V c 0 t) (iblk1 V c 1 t) (iblk1 V c 2 t) (iblk1 V c 3 t) (iblk1 V c 4 t) (ix2 p q)
    = bn1 (V c main_v41_0) (V c main_v41_1) (V c main_v41_2) (V c main_v39) (V c main_v40) (((cfg1.win 5).blk t).view.emb (ix2 p q))
  rw [Pay.bnRelu_at, emb1_5 t p q, iblk1_0_at, iblk1_1_at, iblk1_2_at, iblk1_3_at, iblk1_4_at]
  rfl

/-- Every index of the result array is in the block of the point its row falls in. -/
theorem cover1 (i : S40000x256.Idx) :
    ∃ t : Fin cfg1.N, (cfg1.win 5).flush t = true ∧ i ∈ ((cfg1.win 5).blk t).view.set := by
  have hi0 : (i 0).val < 40000 := (i 0).isLt
  have hi1 : (i 1).val < 256 := (i 1).isLt
  have hN : cfg1.N = 10 := N_1
  let t : Fin cfg1.N := ⟨(i 0).val / 4000, by rw [hN]; omega⟩
  have ht : t.val = (i 0).val / 4000 := rfl
  obtain ⟨-, -, e0, e1, -⟩ := idx_facts1 t
  refine ⟨t, flush1_5 t, ?_⟩
  show i ∈ ((View.whole main_v42).slice (win1_5.rect t)).set
  rw [View.set_slice_whole, Rect.mem_set_unit]
  intro a
  match a with
  | ⟨0, _⟩ =>
    show win1_5.index t (0 : Fin 2) * 4000 ≤ (i 0).val ∧ (i 0).val < win1_5.index t (0 : Fin 2) * 4000 + 4000
    rw [e0, ht]; omega
  | ⟨1, _⟩ =>
    show win1_5.index t (1 : Fin 2) * 256 ≤ (i 1).val ∧ (i 1).val < win1_5.index t (1 : Fin 2) * 256 + 256
    rw [e1]; omega

/-- The result array after the second region: the normalised, scaled, shifted and clamped layer output. -/
theorem final1 (c : Dev nD) :
    (dat1 V c).arrAt 5 cfg1.N = bn1 (V c main_v41_0) (V c main_v41_1) (V c main_v41_2) (V c main_v39) (V c main_v40) :=
  (dat1 V c).arrAt_eq_of_cover 5 _ (fun t _ => flushed1_eq V c t) (cover1)

/-- The five arrays the second region reads, as functions on their index sets. -/
abbrev hIn (c : Dev nD) : S40000x256.Idx → EReal := V c main_v41_0
abbrev meanIn (c : Dev nD) : S1x256.Idx → EReal := V c main_v41_1
abbrev varIn (c : Dev nD) : S1x256.Idx → EReal := V c main_v41_2
abbrev gammaIn (c : Dev nD) : S1x256.Idx → EReal := V c main_v39
abbrev betaIn (c : Dev nD) : S1x256.Idx → EReal := V c main_v40

/-- The normalised array at row r and column q. -/
theorem bn1_at (h : S40000x256.Idx → EReal) (mu var ga be : S1x256.Idx → EReal) (r : Fin 40000) (q : Fin 256) :
    bn1 h mu var ga be (ix2 r q)
      = max ((((h (ix2 r q) - mu (ix2 0 q)) * Ideal.rsqrt (var (ix2 0 q) + Ideal.ofBits .f32 0x3727C5AC#32)) * ga (ix2 0 q))
          + be (ix2 0 q)) 0 := rfl

/-- The result array after the second region, at row r and column q. -/
theorem final1_at (c : Dev nD) (r : Fin 40000) (q : Fin 256) :
    (dat1 V c).arrAt 5 cfg1.N (ix2 r q)
      = max ((((hIn V c (ix2 r q) - meanIn V c (ix2 0 q)) * Ideal.rsqrt (varIn V c (ix2 0 q) + Ideal.ofBits .f32 0x3727C5AC#32))
          * gammaIn V c (ix2 0 q)) + betaIn V c (ix2 0 q)) 0 := by
  rw [final1]
  rfl

end Val1
end Cert.KernelIdeal.Hand
end
-- ==== Proof.Spec.lean ====
/-
  The mathematics both programs compute, as one function of the argument arrays read over the extended reals,
  index by index.

  Rows: the 40000 = 4 * 10000 rows of the dense layer are the pairs (t, n) flattened row-major, r = 10000 * t + n.
  Row r of the layer's input has three pieces of 256 entries each: the node's data at (t, n); the "previous state",
  which is zero at t = 0 and the node's data at (t, n) again for t ≥ 1; and the averaged neighbour aggregate at (t, n)
  (an array `avg` of the same shape, kept abstract here). The layer is  h r c = Σ_k x r k · W k c + b c  over the 768 columns
  of the three pieces side by side; then batch normalisation over the 40000 rows of each column c with the biased
  variance, an affine map and a maximum with zero.

  Two spellings are stated, one per program, and the statement that joins them (proved elsewhere, for real-valued
  data) is  outSplit = outWhole :
  * `Split`: h as three sums of 256 products, ((A + B) + C) + b; mean = (Σ_r h) · (1/40000);
    variance = (Σ_r h·h) · (1/40000) − mean · mean.
  * `Whole`: h as one sum of 768 products plus b; mean = (Σ_r h) / 40000; variance = (Σ_r (h − mean)·(h − mean)) / 40000.
-/
import Idealize.ShloMosaic.PureOps.Ideal
import Idealize.ShloMosaic.Lib.ValueIdx

noncomputable section

open scoped BigOperators

namespace Cert.Spec

open Idealize.ShloMosaic Idealize.ShloMosaic.ValueIdx

/-- An array of extended reals over the index set of the shape [4, 10000, 256]. -/
abbrev Arr3 : Type := (⟨3, ![4, 10000, 256]⟩ : Shape).Idx → EReal
/-- The weight matrix [768, 256]. -/
abbrev Mat : Type := (⟨2, ![768, 256]⟩ : Shape).Idx → EReal
/-- A vector [256]. -/
abbrev Vec1 : Type := (⟨1, ![256]⟩ : Shape).Idx → EReal

/-- The leading coordinate of flattened row `r = 10000 * t + n`. -/
def tOf (r : Fin 40000) : Fin 4 := ⟨r.val / 10000, by omega⟩
/-- The second coordinate of flattened row `r = 10000 * t + n`. -/
def nOf (r : Fin 40000) : Fin 10000 := ⟨r.val % 10000, Nat.mod_lt _ (by norm_num)⟩
/-- The flattened row of the pair `(t, n)`. -/
def rowOf (t : Fin 4) (n : Fin 10000) : Fin 40000 := ⟨10000 * t.val + n.val, by omega⟩

theorem tOf_rowOf (t : Fin 4) (n : Fin 10000) : tOf (rowOf t n) = t := by
  apply Fin.ext; show (10000 * t.val + n.val) / 10000 = t.val; omega
theorem nOf_rowOf (t : Fin 4) (n : Fin 10000) : nOf (rowOf t n) = n := by
  apply Fin.ext; show (10000 * t.val + n.val) % 10000 = n.val; omega
theorem rowOf_tOf_nOf (r : Fin 40000) : rowOf (tOf r) (nOf r) = r := by
  apply Fin.ext; show 10000 * (r.val / 10000) + r.val % 10000 = r.val; omega

/-- First piece of row `r`: the node's data. -/
def nd (a0 : Arr3) (r : Fin 40000) (k : Fin 256) : EReal := a0 (ix3 (tOf r) (nOf r) k)
/-- Second piece of row `r`: zero in the first slab, the node's data again in the later ones. -/
def ps (a0 : Arr3) (r : Fin 40000) (k : Fin 256) : EReal := if (tOf r).val = 0 then 0 else a0 (ix3 (tOf r) (nOf r) k)
/-- Third piece of row `r`: the neighbour average. -/
def an (avg : Arr3) (r : Fin 40000) (k : Fin 256) : EReal := avg (ix3 (tOf r) (nOf r) k)

/-- Column `256 * j + k` of the weight matrix's rows, for the piece `j ∈ {0, 1, 2}`. -/
def wrow (j : Fin 3) (k : Fin 256) : Fin 768 := ⟨256 * j.val + k.val, by omega⟩

/-- Row `r` of the layer's input, the three pieces side by side. -/
def x (a0 avg : Arr3) (r : Fin 40000) (k : Fin 768) : EReal :=
  if h1 : k.val < 256 then nd a0 r ⟨k.val, h1⟩
  else if h2 : k.val < 512 then ps a0 r ⟨k.val - 256, by omega⟩
  else an avg r ⟨k.val - 512, by omega⟩

/-! ## The spelling with three products -/

def hSplit (a0 avg : Arr3) (w : Mat) (b : Vec1) (r : Fin 40000) (c : Fin 256) : EReal :=
  (((∑ k : Fin 256, nd a0 r k * w (ix2 (wrow 0 k) c)) + (∑ k : Fin 256, ps a0 r k * w (ix2 (wrow 1 k) c)))
    + (∑ k : Fin 256, an avg r k * w (ix2 (wrow 2 k) c))) + b (ix1 c)

def meanSplit (a0 avg : Arr3) (w : Mat) (b : Vec1) (c : Fin 256) : EReal :=
  (∑ r : Fin 40000, hSplit a0 avg w b r c) * ((1 / 40000 : ℝ) : EReal)

def varSplit (a0 avg : Arr3) (w : Mat) (b : Vec1) (c : Fin 256) : EReal :=
  (∑ r : Fin 40000, hSplit a0 avg w b r c * hSplit a0 avg w b r c) * ((1 / 40000 : ℝ) : EReal)
    - meanSplit a0 avg w b c * meanSplit a0 avg w b c

def outSplit (a0 avg : Arr3) (w : Mat) (b γ β : Vec1) : Arr3 := fun i =>
  max ((((hSplit a0 avg w b (rowOf (i 0) (i 1)) (i 2) - meanSplit a0 avg w b (i 2))
      * Ideal.rsqrt (varSplit a0 avg w b (i 2) + Ideal.ofBits .f32 0x3727C5AC#32)) * γ (ix1 (i 2))) + β (ix1 (i 2))) 0

/-! ## The spelling with one product -/

def hWhole (a0 avg : Arr3) (w : Mat) (b : Vec1) (r : Fin 40000) (c : Fin 256) : EReal :=
  (∑ k : Fin 768, x a0 avg r k * w (ix2 k c)) + b (ix1 c)

def meanWhole (a0 avg : Arr3) (w : Mat) (b : Vec1) (c : Fin 256) : EReal :=
  Ideal.div (∑ r : Fin 40000, hWhole a0 avg w b r c) ((40000 : ℝ) : EReal)

def varWhole (a0 avg : Arr3) (w : Mat) (b : Vec1) (c : Fin 256) : EReal :=
  Ideal.div (∑ r : Fin 40000, (hWhole a0 avg w b r c - meanWhole a0 avg w b c) * (hWhole a0 avg w b r c - meanWhole a0 avg w b c))
    ((40000 : ℝ) : EReal)

def outWhole (a0 avg : Arr3) (w : Mat) (b γ β : Vec1) : Arr3 := fun i =>
  max ((((hWhole a0 avg w b (rowOf (i 0) (i 1)) (i 2) - meanWhole a0 avg w b (i 2))
      * Ideal.rsqrt (varWhole a0 avg w b (i 2) + Ideal.ofBits .f32 0x3727C5AC#32)) * γ (ix1 (i 2))) + β (ix1 (i 2))) 0

end Cert.Spec

end
-- ==== Proof.KI.HrowDef.lean ====
/-
  The dense layer's row r, column q, read off the arrays the first region finds: the three input arrays' rows against
  the three 256-row blocks of the weight array, summed in the kernel's order, plus the bias row.
-/
import proofs.«107287_j91061896610587_1_alg».proof.Proof.Gen.KernelIdeal.Regions
import proofs.«107287_j91061896610587_1_alg».proof.Proof.Spec
import Idealize.ShloMosaic.Lib.ValueIdx

noncomputable section

open scoped BigOperators

namespace Cert.KernelIdeal.Hand

open Idealize.ShloMosaic Idealize.ShloMosaic.TcCoe Idealize.SL.Sem Idealize.ShloMosaic.ValueIdx
open Cert.KernelIdeal

variable (V : (c : Dev nD) → (b : Ref sig .tc) → Buf (Elt Ideal) ((c : Thread nD τ).loc b)) (c : Dev nD)

/-- The five arrays the first region reads, at their index types. -/
abbrev ndIn : S40000x256.Idx → EReal := V c main_v32
abbrev psIn : S40000x256.Idx → EReal := V c main_v34
abbrev anIn : S40000x256.Idx → EReal := V c main_v36
abbrev wIn : S768x256.Idx → EReal := V c main_v37
abbrev bIn : S1x256.Idx → EReal := V c main_v38

/-- Row `r`, column `q` of the layer's output. -/
def Hrow (r : Fin 40000) (q : Fin 256) : EReal :=
  (((∑ k : Fin 256, ndIn V c (ix2 r k) * wIn V c (ix2 (Cert.Spec.wrow 0 k) q))
      + (∑ k : Fin 256, psIn V c (ix2 r k) * wIn V c (ix2 (Cert.Spec.wrow 1 k) q)))
    + (∑ k : Fin 256, anIn V c (ix2 r k) * wIn V c (ix2 (Cert.Spec.wrow 2 k) q))) + bIn V c (ix2 (0 : Fin 1) q)

/-- The column mean and the column variance the first region writes. -/
def meanRow (q : Fin 256) : EReal := (∑ r : Fin 40000, Hrow V c r q) * ((1 / 40000 : ℝ) : EReal)
def varRow (q : Fin 256) : EReal :=
  (∑ r : Fin 40000, Hrow V c r q * Hrow V c r q) * ((1 / 40000 : ℝ) : EReal) - meanRow V c q * meanRow V c q

end Cert.KernelIdeal.Hand

end
-- ==== Proof.RefAvg.lean ====
/-
  The neighbour average of the reference, as one function of the node data, the edge weights and the edge table.

  Each of the 160000 edges has a source node (first row of the edge table) and a destination node (second row).
  A negative source index is shifted up by 10000 (the usual wrap-around of an index counted from the end).
  For every slab t, every edge e and every column k, the source node's entry is gathered and multiplied by the
  edge's weight; these products are summed into the destination node's row (a sum over all edges with that
  destination), and the weights alone are summed the same way. A destination whose weight sum is zero has it
  replaced by one; the average is the quotient of the two sums.

  The gather and the two sums over edges are kept as the single operations they are: nothing below, and nothing
  that uses this function, looks inside them.
-/
import proofs.«107287_j91061896610587_1_alg».proof.Proof.Gen.ReferenceIdeal
import Idealize.ShloMosaic.PureOps.Ideal

noncomputable section

namespace Cert.ReferenceIdeal.RefAvg

open Cert.ReferenceIdeal Cert.ReferenceIdeal.Gen Idealize.ShloMosaic

/-- The source node of every edge, as written in the first row of the edge table. -/
def srcRaw (a6 : IVec S2x160000 32) : IVec S160000 32 :=
  shapeCast S160000 (extractStridedSlice S1x160000 ![0, 0] a6 slices_S2x160000_S1x160000_0_0) shapeCasts_S1x160000_S160000

/-- The destination node of every edge: the second row of the edge table. -/
def dst (a6 : IVec S2x160000 32) : IVec S160000 32 :=
  shapeCast S160000 (extractStridedSlice S1x160000 ![1, 0] a6 slices_S2x160000_S1x160000_1_0) shapeCasts_S1x160000_S160000

/-- The source node with a negative index shifted up by the number of nodes. -/
def src (a6 : IVec S2x160000 32) : IVec S160000 32 :=
  select (cmpi .slt (srcRaw a6) (broadcastInDim S160000 ![] bcast_S_S160000 (constantI S_ 32 0#32)))
    (addi (srcRaw a6) (broadcastInDim S160000 ![] bcast_S_S160000 (constantI S_ 32 10000#32)))
    (srcRaw a6)

/-- Per slab, edge and column: the source node's entry times the edge's weight. -/
def msg (a0 : FVec Ideal S4x10000x256 .f32) (a1 : FVec Ideal S4x160000 .f32) (a6 : IVec S2x160000 32) :
    FVec Ideal S4x160000x256 .f32 :=
  mulf (Host.gather gather_S4x10000x256_S160000x1_S4x160000x256_02_1_n_n_1_1_41256 a0
      (broadcastInDim S160000x1 ![0] bcast_S160000_S160000x1_0 (src a6)))
    (broadcastInDim S4x160000x256 ![0, 1, 2] bcast_S4x160000x1_S4x160000x256_0_1_2
      (broadcastInDim S4x160000x1 ![0, 1] bcast_S4x160000_S4x160000x1_0_1 a1))

/-- Per slab, node and column: the sum of the weighted entries over the edges arriving at the node. -/
def num (a0 : FVec Ideal S4x10000x256 .f32) (a1 : FVec Ideal S4x160000 .f32) (a6 : IVec S2x160000 32) :
    FVec Ideal S4x10000x256 .f32 :=
  Host.scatterAdd scatter_S4x10000x256_S160000x1_S4x160000x256_02_1_1_1
    (broadcastInDim S4x10000x256 ![1, 2] bcast_S10000x256_S4x10000x256_1_2
      (broadcastInDim S10000x256 ![] bcast_S_S10000x256 (constant S_ .f32 0x00000000#32)))
    (broadcastInDim S160000x1 ![0] bcast_S160000_S160000x1_0 (dst a6))
    (msg a0 a1 a6)

/-- Per slab and node: the sum of the weights of the edges arriving at the node. -/
def wsum (a1 : FVec Ideal S4x160000 .f32) (a6 : IVec S2x160000 32) : FVec Ideal S4x10000 .f32 :=
  Host.scatterAdd scatter_S4x10000_S160000x1_S4x160000_0_1_1_1
    (broadcastInDim S4x10000 ![1] bcast_S10000_S4x10000_1
      (broadcastInDim S10000 ![] bcast_S_S10000 (constant S_ .f32 0x00000000#32)))
    (broadcastInDim S160000x1 ![0] bcast_S160000_S160000x1_0 (dst a6))
    a1

/-- The weight sum with every zero replaced by one. -/
def den (a1 : FVec Ideal S4x160000 .f32) (a6 : IVec S2x160000 32) : FVec Ideal S4x10000 .f32 :=
  select (cmpf .oeq (wsum a1 a6) (broadcastInDim S4x10000 ![] bcast_S_S4x10000 (constant S_ .f32 0x00000000#32)))
    (broadcastInDim S4x10000 ![] bcast_S_S4x10000 (constant S_ .f32 0x3F800000#32))
    (wsum a1 a6)

/-- The neighbour average: the summed weighted entries divided by the (zero-guarded) weight sum of the node. -/
def avg (a0 : FVec Ideal S4x10000x256 .f32) (a1 : FVec Ideal S4x160000 .f32) (a6 : IVec S2x160000 32) :
    FVec Ideal S4x10000x256 .f32 :=
  Host.divf (num a0 a1 a6)
    (broadcastInDim S4x10000x256 ![0, 1, 2] bcast_S4x10000x1_S4x10000x256_0_1_2
      (broadcastInDim S4x10000x1 ![0, 1] bcast_S4x10000_S4x10000x1_0_1 (den a1 a6)))

end Cert.ReferenceIdeal.RefAvg

end
-- ==== Proof.KI.HostVals.lean ====
/-
  The kernel program's host operations, read as values over the extended reals.

  Before its first kernel region the program prepares, on the host, the operands of the dense layer from the seven
  argument arrays; after its last region it reshapes the result. Each prepared array is read here at an index:
  * the node data [4, 10000, 256] viewed as 40000 rows: row r = 10000 t + n of the view is the pair (t, n);
  * the "previous state": a zero slab in front of the slabs 1..3 of the node data, viewed the same way;
  * the neighbour average, viewed the same way;
  * the weight matrix and the three vectors, unchanged (a change of float format is the identity on extended reals;
    a vector [256] viewed as one row [1, 256] keeps its entries);
  * the closing view of the 40000 rows as [4, 10000, 256].
  Rows are flattened row-major, so the view's index identity is r * 256 + k = ((t * 10000) + n) * 256 + k with
  t = r / 10000 and n = r % 10000.
-/
import proofs.«107287_j91061896610587_1_alg».proof.Proof.Gen.KernelIdeal.Regions
import proofs.«107287_j91061896610587_1_alg».proof.Proof.Spec
import proofs.«107287_j91061896610587_1_alg».proof.Proof.RefAvg
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostVals

open Cert.KernelIdeal Cert.KernelIdeal.Gen Idealize.ShloMosaic Idealize.ShloMosaic.ValueIdx Idealize.SL.Sem Idealize.ShloMosaic.TcCoe

variable (m : (ℓ : Loc nD τ sig) → Buf (Elt Ideal) ℓ) (c : Dev nD)

/-! ## The argument arrays reach the operations as launched -/

theorem V2_arg0 : V2 m c main_arg0 = m ((c : Thread nD τ).loc main_arg0) :=
  (V2_of m c main_arg0 (by decide)).trans ((V1_of m c main_arg0 (by decide)).trans rfl)
theorem V2_arg2 : V2 m c main_arg2 = m ((c : Thread nD τ).loc main_arg2) :=
  (V2_of m c main_arg2 (by decide)).trans ((V1_of m c main_arg2 (by decide)).trans rfl)
theorem V2_arg3 : V2 m c main_arg3 = m ((c : Thread nD τ).loc main_arg3) :=
  (V2_of m c main_arg3 (by decide)).trans ((V1_of m c main_arg3 (by decide)).trans rfl)
theorem V2_arg4 : V2 m c main_arg4 = m ((c : Thread nD τ).loc main_arg4) :=
  (V2_of m c main_arg4 (by decide)).trans ((V1_of m c main_arg4 (by decide)).trans rfl)
theorem V2_arg5 : V2 m c main_arg5 = m ((c : Thread nD τ).loc main_arg5) :=
  (V2_of m c main_arg5 (by decide)).trans ((V1_of m c main_arg5 (by decide)).trans rfl)

/-! ## The closing view: 40000 rows as [4, 10000, 256] -/

/-- The result array is the row view of the last region's output. -/
theorem v43_eq (W : Valuation τ sig (Elt Ideal)) :
    (StableHlo.after (hostOps2 (F := Ideal)) W (Proc.devRef .tc main_v43) : S4x10000x256.Idx → EReal)
      = shapeCast S4x10000x256 (W (Proc.devRef .tc main_v42) : S40000x256.Idx → EReal) shapeCasts_S40000x256_S4x10000x256 := by
  after_results; rfl

/-- Entry (t, n, q) of the result is entry (10000 t + n, q) of the last region's output. -/
theorem H6 (W : Valuation τ sig (Elt Ideal)) (t : Fin 4) (n : Fin 10000) (q : Fin 256) :
    (StableHlo.after (hostOps2 (F := Ideal)) W (Proc.devRef .tc main_v43) : S4x10000x256.Idx → EReal) (ix3 t n q)
      = (W (Proc.devRef .tc main_v42) : S40000x256.Idx → EReal) (ix2 (Cert.Spec.rowOf t n) q) := by
  rw [v43_eq]
  refine shapeCast_apply (s := S40000x256) (t := S4x10000x256) _ _ _ _ ?_
  rw [Shape.rowMajor_val_two, Shape.rowMajor_val_three]
  show (10000 * t.val + n.val) * 256 + q.val = (t.val * 10000 + n.val) * 256 + q.val
  omega

/-! ## The node data as 40000 rows -/

/-- The first operand of the layer is the row view of the node data (the format change is the identity). -/
theorem v32_eq : (V3 m c main_v32 : S40000x256.Idx → EReal)
    = (truncf (F := Ideal) .bf16 (shapeCast S40000x256 (V2 m c main_arg0 : S4x10000x256.Idx → EReal) shapeCasts_S4x10000x256_S40000x256 : FVec Ideal S40000x256 .f32) bitsLt_bf16_f32 : S40000x256.Idx → EReal) := by
  dsimp only [V3, hostOps0_2]; after_results_simp; rfl

/-- Row r, column k of the first operand is the node data at (r / 10000, r % 10000, k). -/
theorem H1 (r : Fin 40000) (k : Fin 256) :
    (V3 m c main_v32 : S40000x256.Idx → EReal) (ix2 r k)
      = (m ((c : Thread nD τ).loc main_arg0) : S4x10000x256.Idx → EReal) (ix3 (Cert.Spec.tOf r) (Cert.Spec.nOf r) k) := by
  rw [v32_eq, V2_arg0, truncf_apply]
  refine shapeCast_apply (s := S4x10000x256) (t := S40000x256) _ _ _ _ ?_
  rw [Shape.rowMajor_val_two, Shape.rowMajor_val_three]
  show ((r.val / 10000) * 10000 + r.val % 10000) * 256 + k.val = r.val * 256 + k.val
  omega

/-! ## The weight matrix and the three vectors -/

/-- The weight matrix reaches the region unchanged. -/
theorem H4 : (V3 m c main_v37 : S768x256.Idx → EReal) = (m ((c : Thread nD τ).loc main_arg2) : S768x256.Idx → EReal) := by
  have e : (V3 m c main_v37 : S768x256.Idx → EReal)
      = (truncf (F := Ideal) .bf16 (V2 m c main_arg2 : FVec Ideal S768x256 .f32) bitsLt_bf16_f32 : S768x256.Idx → EReal) := by
    dsimp only [V3, hostOps0_2]; after_results_simp
  rw [e, V2_arg2]; rfl

/-- A vector [256] viewed as one row [1, 256] keeps its entries. -/
theorem row_view_apply (x : S256.Idx → EReal) (q : Fin 256) :
    shapeCast S1x256 x shapeCasts_S256_S1x256 (ix2 (0 : Fin 1) q) = x (ix1 q) := by
  refine shapeCast_apply (s := S256) (t := S1x256) _ _ _ _ ?_
  rw [Shape.rowMajor_val_two, Shape.rowMajor_val_one]
  show q.val = 0 * 256 + q.val
  omega

/-- The bias as one row. -/
theorem H5_v38 (q : Fin 256) : (V3 m c main_v38 : S1x256.Idx → EReal) (ix2 (0 : Fin 1) q)
    = (m ((c : Thread nD τ).loc main_arg3) : S256.Idx → EReal) (ix1 q) := by
  have e : (V3 m c main_v38 : S1x256.Idx → EReal)
      = shapeCast S1x256 (V2 m c main_arg3 : S256.Idx → EReal) shapeCasts_S256_S1x256 := by
    dsimp only [V3, hostOps0_2]; after_results_simp; rfl
  rw [e, V2_arg3, row_view_apply]

/-- The scale as one row. -/
theorem H5_v39 (q : Fin 256) : (V3 m c main_v39 : S1x256.Idx → EReal) (ix2 (0 : Fin 1) q)
    = (m ((c : Thread nD τ).loc main_arg4) : S256.Idx → EReal) (ix1 q) := by
  have e : (V3 m c main_v39 : S1x256.Idx → EReal)
      = shapeCast S1x256 (V2 m c main_arg4 : S256.Idx → EReal) shapeCasts_S256_S1x256 := by
    dsimp only [V3, hostOps0_2]; after_results_simp; rfl
  rw [e, V2_arg4, row_view_apply]

/-- The shift as one row. -/
theorem H5_v40 (q : Fin 256) : (V3 m c main_v40 : S1x256.Idx → EReal) (ix2 (0 : Fin 1) q)
    = (m ((c : Thread nD τ).loc main_arg5) : S256.Idx → EReal) (ix1 q) := by
  have e : (V3 m c main_v40 : S1x256.Idx → EReal)
      = shapeCast S1x256 (V2 m c main_arg5 : S256.Idx → EReal) shapeCasts_S256_S1x256 := by
    dsimp only [V3, hostOps0_2]; after_results_simp; rfl
  rw [e, V2_arg5, row_view_apply]

end Cert.KernelIdeal.HostVals

end
-- ==== Proof.KI.HostVals2.lean ====
/-
  The kernel program's "previous state" operand, read as values over the extended reals.

  The operand is a zero slab [1, 10000, 256] placed in front of the slabs 1, 2, 3 of the node data (so slab t ≥ 1 of
  the result is slab t of the node data itself, the slice having dropped slab 0 and the zero slab having taken its
  place), viewed as 40000 rows. Row r = 10000 t + n, column k is therefore zero when t = 0 and the node data's entry
  at (t, n, k) otherwise.
-/
import proofs.«107287_j91061896610587_1_alg».proof.Proof.KI.HostVals
import Idealize.ShloMosaic.Lib.IdealHost

noncomputable section

namespace Cert.KernelIdeal.HostVals

open Cert.KernelIdeal Cert.KernelIdeal.Gen Idealize.ShloMosaic Idealize.ShloMosaic.ValueIdx Idealize.SL.Sem Idealize.ShloMosaic.TcCoe

variable (m : (ℓ : Loc nD τ sig) → Buf (Elt Ideal) ℓ) (c : Dev nD)
/-- A zero slab in front of the slabs 1, 2, 3 of an array of four slabs, read at (t, n, k): zero in slab 0, the
    array's own entry in the later slabs. -/
theorem prev_apply (x : S4x10000x256.Idx → EReal) (t : Fin 4) (n : Fin 10000) (k : Fin 256) :
    concatenate S4x10000x256 0
        [⟨S1x10000x256, broadcastInDim S1x10000x256 ![] bcast_S_S1x10000x256 (constant (F := Ideal) S_ .f32 0x00000000#32)⟩,
         ⟨S3x10000x256, extractStridedSlice S3x10000x256 ![1, 0, 0] x slices_S4x10000x256_S3x10000x256_1_0_0⟩]
        concatenates_S1x10000x256_S3x10000x256_S4x10000x256_d0 (ix3 t n k)
      = if t.val = 0 then 0 else x (ix3 t n k) := by
  by_cases ht : t.val = 0
  · rw [if_pos ht]
    rw [concatenate_pair_apply_left (t := S4x10000x256) (s₁ := S1x10000x256) (s₂ := S3x10000x256) (0 : Fin 3) _ _ _ (ix3 t n k) rfl (ix3 (0 : Fin 1) n k)
      (by intro b; fin_cases b
          · show (0 : ℕ) = t.val
            omega
          · rfl
          · rfl)]
    rw [broadcastInDim_scalar_apply, constant_apply, Ideal.ofBits_zero_f32]
  · rw [if_neg ht]
    rw [concatenate_pair_apply_right (t := S4x10000x256) (s₁ := S1x10000x256) (s₂ := S3x10000x256) (0 : Fin 3) _ _ _ (ix3 t n k) rfl rfl (ix3 (⟨t.val - 1, by omega⟩ : Fin 3) n k)
      (by intro b hb; fin_cases b
          · exact absurd rfl hb
          · rfl
          · rfl)
      (by show (t.val - 1) + 1 = t.val
          omega)]
    refine extractStridedSlice_apply _ _ _ _ _ ?_
    intro a; fin_cases a
    · show t.val = 1 + (t.val - 1)
      omega
    · show n.val = 0 + n.val
      omega
    · show k.val = 0 + k.val
      omega

theorem v34_eq : (V3 m c main_v34 : S40000x256.Idx → EReal)
    = (truncf (F := Ideal) .bf16 (shapeCast S40000x256
        (concatenate S4x10000x256 0
          [⟨S1x10000x256, broadcastInDim S1x10000x256 ![] bcast_S_S1x10000x256 (constant (F := Ideal) S_ .f32 0x00000000#32)⟩,
           ⟨S3x10000x256, extractStridedSlice S3x10000x256 ![1, 0, 0] (V2 m c main_arg0 : S4x10000x256.Idx → EReal) slices_S4x10000x256_S3x10000x256_1_0_0⟩]
          concatenates_S1x10000x256_S3x10000x256_S4x10000x256_d0)
        shapeCasts_S4x10000x256_S40000x256 : FVec Ideal S40000x256 .f32) bitsLt_bf16_f32 : S40000x256.Idx → EReal) := by
  dsimp only [V3, hostOps0_2]; after_results_simp; rfl

/-- Row r, column k of the second operand: zero for the rows of slab 0, the node data's entry for the later slabs. -/
theorem H2 (r : Fin 40000) (k : Fin 256) :
    (V3 m c main_v34 : S40000x256.Idx → EReal) (ix2 r k)
      = Cert.Spec.ps (m ((c : Thread nD τ).loc main_arg0) : S4x10000x256.Idx → EReal) r k := by
  rw [v34_eq, V2_arg0, truncf_apply]
  rw [shapeCast_apply (s := S4x10000x256) (t := S40000x256) _ _ _ (ix3 (Cert.Spec.tOf r) (Cert.Spec.nOf r) k)
    (by rw [Shape.rowMajor_val_two, Shape.rowMajor_val_three]
        show ((r.val / 10000) * 10000 + r.val % 10000) * 256 + k.val = r.val * 256 + k.val
        omega)]
  rw [prev_apply]; rfl

end Cert.KernelIdeal.HostVals

end
-- ==== Proof.KI.HostVals3.lean ====
/-
  The kernel program's neighbour-average operand, read as values over the extended reals.

  The kernel program computes the neighbour average on the host with the same operations as the reference: the
  source and destination node of every edge from the edge table (a negative source index shifted up by the number of
  nodes), the gathered node entries times the edge weights, their sum per destination node, the weight sum per
  destination node with zero replaced by one, and the quotient. The whole chain is kept as ONE function `avgK` of the
  node data, the edge weights and the edge table; the gather and the two sums over edges are never looked into.
  `avgK` is the reference's average: the operations are the same, except that the guard's constant one is spread over
  the nodes and then over the slabs instead of over both at once, which gives the same constant array. The third operand of the
  dense layer is this average viewed as 40000 rows: row r = 10000 t + n is the pair (t, n).
-/
import proofs.«107287_j91061896610587_1_alg».proof.Proof.Gen.KernelIdeal.Regions
import proofs.«107287_j91061896610587_1_alg».proof.Proof.Spec
import proofs.«107287_j91061896610587_1_alg».proof.Proof.RefAvg
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost

noncomputable section

namespace Cert.KernelIdeal.HostVals

open Cert.KernelIdeal Cert.KernelIdeal.Gen Idealize.ShloMosaic Idealize.ShloMosaic.ValueIdx Idealize.SL.Sem Idealize.ShloMosaic.TcCoe

variable (m : (ℓ : Loc nD τ sig) → Buf (Elt Ideal) ℓ) (c : Dev nD)

/-! ## The neighbour average as the kernel program computes it -/

/-- The source node of every edge: the first row of the edge table. -/
def srcRaw (a6 : IVec S2x160000 32) : IVec S160000 32 :=
  shapeCast S160000 (extractStridedSlice S1x160000 ![0, 0] a6 slices_S2x160000_S1x160000_0_0) shapeCasts_S1x160000_S160000

/-- The destination node of every edge: the second row of the edge table. -/
def dst (a6 : IVec S2x160000 32) : IVec S160000 32 :=
  shapeCast S160000 (extractStridedSlice S1x160000 ![1, 0] a6 slices_S2x160000_S1x160000_1_0) shapeCasts_S1x160000_S160000

/-- The source node with a negative index shifted up by the number of nodes. -/
def src (a6 : IVec S2x160000 32) : IVec S160000 32 :=
  select (cmpi .slt (srcRaw a6) (broadcastInDim S160000 ![] bcast_S_S160000 (constantI S_ 32 0#32)))
    (addi (srcRaw a6) (broadcastInDim S160000 ![] bcast_S_S160000 (constantI S_ 32 10000#32)))
    (srcRaw a6)

/-- Per slab, edge and column: the source node's entry times the edge's weight. -/
def msg (a0 : FVec Ideal S4x10000x256 .f32) (a1 : FVec Ideal S4x160000 .f32) (a6 : IVec S2x160000 32) :
    FVec Ideal S4x160000x256 .f32 :=
  mulf (Host.gather gather_S4x10000x256_S160000x1_S4x160000x256_02_1_n_n_1_1_41256 a0
      (broadcastInDim S160000x1 ![0] bcast_S160000_S160000x1_0 (src a6)))
    (broadcastInDim S4x160000x256 ![0, 1, 2] bcast_S4x160000x1_S4x160000x256_0_1_2
      (broadcastInDim S4x160000x1 ![0, 1] bcast_S4x160000_S4x160000x1_0_1 a1))

/-- Per slab, node and column: the sum of the weighted entries over the edges arriving at the node. -/
def num (a0 : FVec Ideal S4x10000x256 .f32) (a1 : FVec Ideal S4x160000 .f32) (a6 : IVec S2x160000 32) :
    FVec Ideal S4x10000x256 .f32 :=
  Host.scatterAdd scatter_S4x10000x256_S160000x1_S4x160000x256_02_1_1_1
    (broadcastInDim S4x10000x256 ![1, 2] bcast_S10000x256_S4x10000x256_1_2
      (broadcastInDim S10000x256 ![] bcast_S_S10000x256 (constant S_ .f32 0x00000000#32)))
    (broadcastInDim S160000x1 ![0] bcast_S160000_S160000x1_0 (dst a6))
    (msg a0 a1 a6)

/-- Per slab and node: the sum of the weights of the edges arriving at the node. -/
def wsum (a1 : FVec Ideal S4x160000 .f32) (a6 : IVec S2x160000 32) : FVec Ideal S4x10000 .f32 :=
  Host.scatterAdd scatter_S4x10000_S160000x1_S4x160000_0_1_1_1
    (broadcastInDim S4x10000 ![1] bcast_S10000_S4x10000_1
      (broadcastInDim S10000 ![] bcast_S_S10000 (constant S_ .f32 0x00000000#32)))
    (broadcastInDim S160000x1 ![0] bcast_S160000_S160000x1_0 (dst a6))
    a1

/-- The constant one spread over the nodes and then over the slabs. -/
def ones : FVec Ideal S4x10000 .f32 :=
  broadcastInDim S4x10000 ![1] bcast_S10000_S4x10000_1
    (broadcastInDim S10000 ![] bcast_S_S10000 (id (constant (F := Ideal) S_ .f32 0x3F800000#32)))

/-- The weight sum with every zero replaced by one. -/
def den (a1 : FVec Ideal S4x160000 .f32) (a6 : IVec S2x160000 32) : FVec Ideal S4x10000 .f32 :=
  select (cmpf .oeq (wsum a1 a6) (broadcastInDim S4x10000 ![] bcast_S_S4x10000 (constant S_ .f32 0x00000000#32)))
    ones (wsum a1 a6)

/-- The neighbour average: the summed weighted entries divided by the (zero-guarded) weight sum of the node. -/
def avgK (a0 : FVec Ideal S4x10000x256 .f32) (a1 : FVec Ideal S4x160000 .f32) (a6 : IVec S2x160000 32) :
    FVec Ideal S4x10000x256 .f32 :=
  Host.divf (num a0 a1 a6)
    (broadcastInDim S4x10000x256 ![0, 1, 2] bcast_S4x10000x1_S4x10000x256_0_1_2
      (broadcastInDim S4x10000x1 ![0, 1] bcast_S4x10000_S4x10000x1_0_1 (den a1 a6)))

/-- The one spread in two steps is the one spread in one step. -/
theorem ones_eq : ones = broadcastInDim S4x10000 ![] bcast_S_S4x10000 (constant (F := Ideal) S_ .f32 0x3F800000#32) := by
  funext j
  rw [broadcastInDim_scalar_apply]
  unfold ones
  rw [broadcastInDim_apply (s := S10000) (t := S4x10000) ![1] bcast_S10000_S4x10000_1 _ j (ix1 (j 1))
    (by intro a; fin_cases a; rfl)]
  rw [broadcastInDim_scalar_apply]
  rfl

/-- The kernel program's neighbour average is the reference's: the same operations on the same arrays, the guard's
    one spread in two steps instead of one. -/
theorem avgK_eq_ref (a0 : FVec Ideal S4x10000x256 .f32) (a1 : FVec Ideal S4x160000 .f32) (a6 : IVec S2x160000 32) :
    avgK a0 a1 a6 = Cert.ReferenceIdeal.RefAvg.avg a0 a1 a6 := by
  unfold avgK den
  rw [ones_eq]
  rfl

/-! ## The third operand of the layer -/

/-- The node data at launch. -/
abbrev arg0 : FVec Ideal S4x10000x256 .f32 := m ((c : Thread nD τ).loc main_arg0)
/-- The edge weights at launch. -/
abbrev arg1 : FVec Ideal S4x160000 .f32 := m ((c : Thread nD τ).loc main_arg1)
/-- The edge table at launch. -/
abbrev arg6 : IVec S2x160000 32 := m ((c : Thread nD τ).loc main_arg6)

/-- After the first stretch of host operations: the summed weighted entries. -/
theorem V1_v17 : (V1 m c main_v17 : S4x10000x256.Idx → EReal) = num (arg0 m c) (arg1 m c) (arg6 m c) := by
  dsimp only [V1, hostOps0]; after_results_simp; rfl

/-- After the first stretch of host operations: the summed weights. -/
theorem V1_v21 : (V1 m c main_v21 : S4x10000.Idx → EReal) = wsum (arg1 m c) (arg6 m c) := by
  dsimp only [V1, hostOps0]; after_results_simp; rfl

/-- After the first stretch of host operations: where the summed weights are zero. -/
theorem V1_v23 : (V1 m c main_v23 : IVec S4x10000 1)
    = cmpf .oeq (wsum (arg1 m c) (arg6 m c)) (broadcastInDim S4x10000 ![] bcast_S_S4x10000 (constant (F := Ideal) S_ .f32 0x00000000#32)) := by
  dsimp only [V1, hostOps0]; after_results_simp; rfl

/-- After the first stretch of host operations: the constant one. -/
theorem V1_cst_3 : (V1 m c main_cst_3 : S_.Idx → EReal) = constant (F := Ideal) S_ .f32 0x3F800000#32 := by
  dsimp only [V1, hostOps0]; after_results_simp

/-- The guard, over any contents of the buffers it reads: one where the flag is set, else the third operand. -/
theorem guard_eq (W : Valuation τ sig (Elt Ideal)) :
    (StableHlo.after (hostOps0_1 (F := Ideal)) W (Proc.devRef .tc main_v24) : S4x10000.Idx → EReal)
      = select (W (Proc.devRef .tc main_v23) : IVec S4x10000 1)
          (broadcastInDim S4x10000 ![1] bcast_S10000_S4x10000_1
            (broadcastInDim S10000 ![] bcast_S_S10000 (id (W (Proc.devRef .tc main_cst_3) : S_.Idx → EReal))))
          (W (Proc.devRef .tc main_v21) : S4x10000.Idx → EReal) := by
  after_results_simp
  simp only [StableHlo.TRef.toBuf, StableHlo.TRef.ofBuf, cast_eq]

/-- After the guard: the summed weights with zero replaced by one. -/
theorem V2_v24 : (V2 m c main_v24 : S4x10000.Idx → EReal) = den (arg1 m c) (arg6 m c) := by
  refine (guard_eq (V1 m c)).trans ?_
  rw [V1_v23, V1_cst_3, V1_v21]; rfl

/-- The guard does not touch the summed weighted entries. -/
theorem V2_v17 : (V2 m c main_v17 : S4x10000x256.Idx → EReal) = num (arg0 m c) (arg1 m c) (arg6 m c) :=
  (V2_of m c main_v17 (by decide)).trans (V1_v17 m c)

/-- The last stretch, over any contents of the buffers it reads: the row view of the quotient of the summed weighted
    entries by the guarded weight sum spread over the columns. -/
theorem quot_eq (W : Valuation τ sig (Elt Ideal)) :
    (StableHlo.after (hostOps0_2 (F := Ideal)) W (Proc.devRef .tc main_v36) : S40000x256.Idx → EReal)
      = (truncf (F := Ideal) .bf16 (shapeCast S40000x256
          (Host.divf (W (Proc.devRef .tc main_v17) : FVec Ideal S4x10000x256 .f32)
            (broadcastInDim S4x10000x256 ![0, 1, 2] bcast_S4x10000x1_S4x10000x256_0_1_2
              (broadcastInDim S4x10000x1 ![0, 1] bcast_S4x10000_S4x10000x1_0_1 (W (Proc.devRef .tc main_v24) : FVec Ideal S4x10000 .f32))))
          shapeCasts_S4x10000x256_S40000x256 : FVec Ideal S40000x256 .f32) bitsLt_bf16_f32 : S40000x256.Idx → EReal) := by
  after_results_simp; rfl

/-- The third operand of the layer is the row view of the neighbour average (the format change is the identity). -/
theorem v36_eq : (V3 m c main_v36 : S40000x256.Idx → EReal)
    = (truncf (F := Ideal) .bf16 (shapeCast S40000x256 (avgK (arg0 m c) (arg1 m c) (arg6 m c)) shapeCasts_S4x10000x256_S40000x256 : FVec Ideal S40000x256 .f32) bitsLt_bf16_f32 : S40000x256.Idx → EReal) := by
  refine (quot_eq (V2 m c)).trans ?_
  rw [V2_v17, V2_v24]; rfl

/-- Row r, column k of the third operand is the neighbour average at (r / 10000, r % 10000, k). -/
theorem H3 (r : Fin 40000) (k : Fin 256) :
    (V3 m c main_v36 : S40000x256.Idx → EReal) (ix2 r k)
      = avgK (arg0 m c) (arg1 m c) (arg6 m c) (ix3 (Cert.Spec.tOf r) (Cert.Spec.nOf r) k) := by
  rw [v36_eq, truncf_apply]
  refine shapeCast_apply (s := S4x10000x256) (t := S40000x256) _ _ _ _ ?_
  rw [Shape.rowMajor_val_two, Shape.rowMajor_val_three]
  show ((r.val / 10000) * 10000 + r.val % 10000) * 256 + k.val = r.val * 256 + k.val
  omega

/-- The same against the reference's average. -/
theorem H3_ref (r : Fin 40000) (k : Fin 256) :
    (V3 m c main_v36 : S40000x256.Idx → EReal) (ix2 r k)
      = Cert.ReferenceIdeal.RefAvg.avg (arg0 m c) (arg1 m c) (arg6 m c) (ix3 (Cert.Spec.tOf r) (Cert.Spec.nOf r) k) := by
  rw [H3, avgK_eq_ref]

end Cert.KernelIdeal.HostVals

end
-- ==== Proof.KI.Value.lean ====
/-
  The kernel program's result as a function of its seven argument arrays.

  The program's host operations hand the first region the node data, the "previous state" and the neighbour average
  as 40000 rows each, the weight matrix and the bias row; the region leaves the dense layer's output, its column
  means and its column variances; the second region normalises, scales, shifts and clamps; the closing host operation
  views the 40000 rows as [4, 10000, 256]. Reading each stage at an index and substituting gives, entry by entry, the
  three-product spelling of the layer followed by the batch normalisation with the variance E[h²] − E[h]².
-/
import proofs.«107287_j91061896610587_1_alg».proof.Proof.KI.Run
import proofs.«107287_j91061896610587_1_alg».proof.Proof.KI.Val1
import proofs.«107287_j91061896610587_1_alg».proof.Proof.KI.HrowDef
import proofs.«107287_j91061896610587_1_alg».proof.Proof.KI.HostVals
import proofs.«107287_j91061896610587_1_alg».proof.Proof.KI.HostVals2
import proofs.«107287_j91061896610587_1_alg».proof.Proof.KI.HostVals3

noncomputable section

open scoped BigOperators

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.KernelIdeal.HostVals (arg0 arg1 arg6 avgK)

variable (m : (ℓ : Loc nD τ sig) → Buf (Elt Ideal) ℓ) (c : Dev nD)

/-- The weight matrix at launch. -/
abbrev arg2 : S768x256.Idx → EReal := m ((c : Thread nD τ).loc main_arg2)
/-- The bias at launch. -/
abbrev arg3 : S256.Idx → EReal := m ((c : Thread nD τ).loc main_arg3)
/-- The scale at launch. -/
abbrev arg4 : S256.Idx → EReal := m ((c : Thread nD τ).loc main_arg4)
/-- The shift at launch. -/
abbrev arg5 : S256.Idx → EReal := m ((c : Thread nD τ).loc main_arg5)

/-- The neighbour average of the launch arrays, as the kernel program computes it. -/
abbrev avgOf : S4x10000x256.Idx → EReal := avgK (arg0 m c) (arg1 m c) (arg6 m c)

/-! ## The layer's rows, means and variances over the launch arrays -/

/-- Row r, column q of the layer over the arrays the first region finds is the three-product spelling over the
    launch arrays. -/
theorem Hrow_eq (r : Fin 40000) (q : Fin 256) :
    Hrow (V3 m) c r q = Cert.Spec.hSplit (arg0 m c) (avgOf m c) (arg2 m c) (arg3 m c) r q := by
  have e1 : ∀ k : Fin 256, ndIn (V3 m) c (ix2 r k) = Cert.Spec.nd (arg0 m c) r k := fun k => HostVals.H1 m c r k
  have e2 : ∀ k : Fin 256, psIn (V3 m) c (ix2 r k) = Cert.Spec.ps (arg0 m c) r k := fun k => HostVals.H2 m c r k
  have e3 : ∀ k : Fin 256, anIn (V3 m) c (ix2 r k) = Cert.Spec.an (avgOf m c) r k := fun k => HostVals.H3 m c r k
  have e4 : wIn (V3 m) c = arg2 m c := HostVals.H4 m c
  have e5 : bIn (V3 m) c (ix2 (0 : Fin 1) q) = arg3 m c (ix1 q) := HostVals.H5_v38 m c q
  unfold Hrow Cert.Spec.hSplit
  simp only [e1, e2, e3, e4, e5]

/-- The column mean over the arrays the first region finds is the mean of the three-product spelling. -/
theorem meanRow_eq (q : Fin 256) :
    meanRow (V3 m) c q = Cert.Spec.meanSplit (arg0 m c) (avgOf m c) (arg2 m c) (arg3 m c) q := by
  unfold meanRow Cert.Spec.meanSplit
  simp only [Hrow_eq]

/-- The column variance over the arrays the first region finds is the variance of the three-product spelling. -/
theorem varRow_eq (q : Fin 256) :
    varRow (V3 m) c q = Cert.Spec.varSplit (arg0 m c) (avgOf m c) (arg2 m c) (arg3 m c) q := by
  unfold varRow Cert.Spec.varSplit
  simp only [Hrow_eq, meanRow_eq]

/-! ## The result -/

/-- The result buffer at the return, given what the first region leaves in its three output arrays: the three-product
    spelling of the layer, normalised with the variance E[h²] − E[h]², scaled, shifted and clamped. -/
theorem value_of
    (hZ5 : ∀ r q, ((dat0 (V3 m) c).arrAt 5 cfg0.N : S40000x256.Idx → EReal) (ix2 r q) = Hrow (V3 m) c r q)
    (hZ6 : ∀ q, ((dat0 (V3 m) c).arrAt 6 cfg0.N : S1x256.Idx → EReal) (ix2 (0 : Fin 1) q) = meanRow (V3 m) c q)
    (hZ7 : ∀ q, ((dat0 (V3 m) c).arrAt 7 cfg0.N : S1x256.Idx → EReal) (ix2 (0 : Fin 1) q) = varRow (V3 m) c q) :
    (W6 m c (Proc.devRef .tc main_v43) : S4x10000x256.Idx → EReal)
      = Cert.Spec.outSplit (arg0 m c) (avgOf m c) (arg2 m c) (arg3 m c) (arg4 m c) (arg5 m c) := by
  funext i
  obtain ⟨t, n, q, rfl⟩ : ∃ (t : Fin 4) (n : Fin 10000) (q : Fin 256), i = ix3 t n q := ⟨i 0, i 1, i 2, eq_ix3 i⟩
  refine (HostVals.H6 (W5 m c) t n q).trans ?_
  have e42 : (W5 m c (Proc.devRef .tc main_v42) : S40000x256.Idx → EReal) = (dat1 (V4 m) c).arrAt 5 cfg1.N :=
    W5_arr m c 5
  rw [e42, final1 (V4 m) c, bn1_at]
  have h0 : (V4 m c main_v41_0 : S40000x256.Idx → EReal) (ix2 (Cert.Spec.rowOf t n) q)
      = Cert.Spec.hSplit (arg0 m c) (avgOf m c) (arg2 m c) (arg3 m c) (Cert.Spec.rowOf t n) q := by
    rw [show (V4 m c main_v41_0 : S40000x256.Idx → EReal) = (dat0 (V3 m) c).arrAt 5 cfg0.N from W4_arr m c 5,
      hZ5, Hrow_eq]
  have h1 : (V4 m c main_v41_1 : S1x256.Idx → EReal) (ix2 (0 : Fin 1) q)
      = Cert.Spec.meanSplit (arg0 m c) (avgOf m c) (arg2 m c) (arg3 m c) q := by
    rw [show (V4 m c main_v41_1 : S1x256.Idx → EReal) = (dat0 (V3 m) c).arrAt 6 cfg0.N from W4_arr m c 6,
      hZ6, meanRow_eq]
  have h2 : (V4 m c main_v41_2 : S1x256.Idx → EReal) (ix2 (0 : Fin 1) q)
      = Cert.Spec.varSplit (arg0 m c) (avgOf m c) (arg2 m c) (arg3 m c) q := by
    rw [show (V4 m c main_v41_2 : S1x256.Idx → EReal) = (dat0 (V3 m) c).arrAt 7 cfg0.N from W4_arr m c 7,
      hZ7, varRow_eq]
  have h3 : (V4 m c main_v39 : S1x256.Idx → EReal) (ix2 (0 : Fin 1) q) = arg4 m c (ix1 q) := by
    rw [show (V4 m c main_v39 : S1x256.Idx → EReal) = Gen.V3 m c main_v39 from W4_of_ne m c main_v39 (by decide)]
    exact HostVals.H5_v39 m c q
  have h4 : (V4 m c main_v40 : S1x256.Idx → EReal) (ix2 (0 : Fin 1) q) = arg5 m c (ix1 q) := by
    rw [show (V4 m c main_v40 : S1x256.Idx → EReal) = Gen.V3 m c main_v40 from W4_of_ne m c main_v40 (by decide)]
    exact HostVals.H5_v40 m c q
  rw [h0, h1, h2, h3, h4]
  rfl

end Cert.KernelIdeal.Hand

end
-- ==== Proof.LibBatchNorm.lean ====
/-
  Batch-normalisation statistics of a finite family, over the reals and over the extended reals.

  For a family h indexed by a finite type with M elements, with sum S = Σ h:
  * the mean can be spelled S / M or S · (1/M);
  * the biased variance can be spelled  (Σ h²) · (1/M) − mean²  ("mean of squares minus square of the mean")
    or  (Σ (h − mean)²) / M  ("mean of squared deviations").
  Over the reals the two spellings of the variance agree by expanding the square:
    Σ (h − μ)² = Σ h² − 2 μ S + M μ²,  and with μ = S / M this is  Σ h² − S² / M.
  Over the extended reals the same holds when every h i is a real number: the coercion from the reals
  commutes with finite sums, products and differences, and division by a nonzero real is multiplication
  by its reciprocal. (With an infinite entry the identity fails: distributivity is lost at infinities.)
-/
import Mathlib
import Idealize.ShloMosaic.PureOps.Ideal

open scoped BigOperators

namespace Cert.LibBatchNorm

open Idealize.ShloMosaic

/-- The coercion from the reals to the extended reals commutes with finite sums:
    the extended real of Σ_{i ∈ s} f i is Σ_{i ∈ s} of the extended reals of the f i. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals each of which is a real number is a real number, namely the real sum. -/
theorem sum_eq_coe {ι : Type*} (s : Finset ι) (h : ι → EReal) (g : ι → ℝ) (hg : ∀ i, h i = (g i : EReal)) :
    ∑ i ∈ s, h i = ((∑ i ∈ s, g i : ℝ) : EReal) := by
  rw [coe_finset_sum]; exact Finset.sum_congr rfl fun i _ => hg i

/-- Over the reals, for a family indexed by a finite type with M elements (M ≠ 0): the mean of the squares
    minus the square of the mean equals the mean of the squared deviations from the mean,
      (Σ h²)·(1/M) − (S·(1/M))² = (Σ (h − S·(1/M))²)·(1/M),   S = Σ h.
    Expand (h − μ)² = h² − 2μh + μ², sum termwise (the constant μ² sums to M·μ²), and put μ = S/M. -/
theorem var_identity {ι : Type*} [Fintype ι] (h : ι → ℝ) (M : ℝ) (hM : M ≠ 0)
    (hcard : (Fintype.card ι : ℝ) = M) :
    (∑ i, h i * h i) * (1 / M) - ((∑ i, h i) * (1 / M)) * ((∑ i, h i) * (1 / M))
      = (∑ i, (h i - (∑ j, h j) * (1 / M)) * (h i - (∑ j, h j) * (1 / M))) * (1 / M) := by
  have expand : ∀ μ : ℝ, ∑ i, (h i - μ) * (h i - μ)
      = (∑ i, h i * h i) - 2 * μ * (∑ i, h i) + M * (μ * μ) := by
    intro μ
    have e : ∀ i, (h i - μ) * (h i - μ) = h i * h i - 2 * μ * h i + μ * μ := fun i => by ring
    rw [Finset.sum_congr rfl fun i _ => e i, Finset.sum_add_distrib, Finset.sum_sub_distrib,
      ← Finset.mul_sum, Finset.sum_const, Finset.card_univ, nsmul_eq_mul, hcard]
  rw [expand]
  field_simp
  ring

/-- The mean over the extended reals: dividing a sum by a nonzero real M is multiplying it by the real 1/M.
    No finiteness of the summands is needed. -/
theorem mean_mul_eq_div {ι : Type*} [Fintype ι] (h : ι → EReal) (M : ℝ) (hM : M ≠ 0) :
    (∑ i, h i) * ((1 / M : ℝ) : EReal) = Ideal.div (∑ i, h i) (M : EReal) :=
  (Ideal.div_coe hM _).symm

/-- The biased variance over the extended reals, for a family of real numbers indexed by a finite type with
    M elements (M ≠ 0): the mean of the squares minus the square of the mean, with the mean and the averages
    taken by multiplying by 1/M, equals the mean of the squared deviations from the mean, with the mean and
    the average taken by dividing by M. Both sides are the extended real of the same real number, by the
    identity over the reals. -/
theorem var_mul_eq_div {ι : Type*} [Fintype ι] (h : ι → EReal) (g : ι → ℝ)
    (hg : ∀ i, h i = (g i : EReal)) (M : ℝ) (hM : M ≠ 0) (hcard : (Fintype.card ι : ℝ) = M) :
    (∑ i, h i * h i) * ((1 / M : ℝ) : EReal)
        - ((∑ i, h i) * ((1 / M : ℝ) : EReal)) * ((∑ i, h i) * ((1 / M : ℝ) : EReal))
      = Ideal.div (∑ i, (h i - Ideal.div (∑ j, h j) (M : EReal)) * (h i - Ideal.div (∑ j, h j) (M : EReal)))
          (M : EReal) := by
  obtain rfl : h = fun i => (g i : EReal) := funext hg
  rw [Ideal.div_coe hM, Ideal.div_coe hM]
  simp only [← EReal.coe_mul, ← coe_finset_sum, ← EReal.coe_sub]
  rw [var_identity g M hM hcard]

end Cert.LibBatchNorm
-- ==== Proof.Bridge.lean ====
/-
  The two spellings of the layer agree for real-valued data:  outSplit = outWhole.

  * The dense product: the 768 columns of a row are three consecutive blocks of 256 (column 256 j + k is entry k of
    piece j), so the one sum over 768 products is the sum of the three sums over 256 products. Only associativity and
    commutativity of addition are used: no finiteness.
  * With real inputs every entry of h is a real number (finite sums and products of reals).
  * The mean: dividing by 40000 is multiplying by 1/40000.
  * The variance: for real h over the 40000 rows, mean of squares minus square of the mean equals the mean of the
    squared deviations.
-/
import proofs.«107287_j91061896610587_1_alg».proof.Proof.Spec
import proofs.«107287_j91061896610587_1_alg».proof.Proof.LibBatchNorm

open scoped BigOperators

namespace Cert.Bridge

open Idealize.ShloMosaic Idealize.ShloMosaic.ValueIdx Cert.Spec Cert.LibBatchNorm

/-! ## The 768 columns as three blocks of 256 -/

/-- Column 256 j + k of the 768 corresponds to the pair (j, k): quotient and remainder by 256. -/
def blocks : Fin 3 × Fin 256 ≃ Fin 768 where
  toFun p := wrow p.1 p.2
  invFun k := (⟨k.val / 256, by omega⟩, ⟨k.val % 256, Nat.mod_lt _ (by norm_num)⟩)
  left_inv := by
    rintro ⟨j, k⟩
    refine Prod.ext (Fin.ext ?_) (Fin.ext ?_)
    · show (256 * j.val + k.val) / 256 = j.val; omega
    · show (256 * j.val + k.val) % 256 = k.val; omega
  right_inv := by
    intro k
    apply Fin.ext
    show 256 * (k.val / 256) + k.val % 256 = k.val; omega

/-- A sum over the 768 columns is the sum of the sums over the three blocks. -/
theorem sum_blocks (f : Fin 768 → EReal) :
    ∑ k : Fin 768, f k
      = ((∑ k : Fin 256, f (wrow 0 k)) + ∑ k : Fin 256, f (wrow 1 k)) + ∑ k : Fin 256, f (wrow 2 k) := by
  rw [← Equiv.sum_comp blocks f, Fintype.sum_prod_type, Fin.sum_univ_three]
  rfl

theorem wrow0_val (k : Fin 256) : (wrow 0 k).val = k.val := by
  show 256 * 0 + k.val = k.val; omega
theorem wrow1_val (k : Fin 256) : (wrow 1 k).val = 256 + k.val := by
  show 256 * 1 + k.val = 256 + k.val; omega
theorem wrow2_val (k : Fin 256) : (wrow 2 k).val = 512 + k.val := by
  show 256 * 2 + k.val = 512 + k.val; omega

/-- The first block of a row is the node's data. -/
theorem x_wrow0 (a0 avg : Arr3) (r : Fin 40000) (k : Fin 256) : x a0 avg r (wrow 0 k) = nd a0 r k := by
  have hv := wrow0_val k
  have h1 : (wrow 0 k).val < 256 := by omega
  unfold x
  rw [dif_pos h1]
  congr 1
  exact Fin.ext hv

/-- The second block of a row is the previous state. -/
theorem x_wrow1 (a0 avg : Arr3) (r : Fin 40000) (k : Fin 256) : x a0 avg r (wrow 1 k) = ps a0 r k := by
  have hv := wrow1_val k
  have h1 : ¬ (wrow 1 k).val < 256 := by omega
  have h2 : (wrow 1 k).val < 512 := by omega
  unfold x
  rw [dif_neg h1, dif_pos h2]
  congr 1
  apply Fin.ext
  show (wrow 1 k).val - 256 = k.val
  omega

/-- The third block of a row is the neighbour average. -/
theorem x_wrow2 (a0 avg : Arr3) (r : Fin 40000) (k : Fin 256) : x a0 avg r (wrow 2 k) = an avg r k := by
  have hv := wrow2_val k
  have h1 : ¬ (wrow 2 k).val < 256 := by omega
  have h2 : ¬ (wrow 2 k).val < 512 := by omega
  unfold x
  rw [dif_neg h1, dif_neg h2]
  congr 1
  apply Fin.ext
  show (wrow 2 k).val - 512 = k.val
  omega

/-- The dense product spelled as three products equals the one spelled as one product (no finiteness). -/
theorem hSplit_eq_hWhole (a0 avg : Arr3) (w : Mat) (b : Vec1) (r : Fin 40000) (c : Fin 256) :
    hSplit a0 avg w b r c = hWhole a0 avg w b r c := by
  unfold hSplit hWhole
  rw [sum_blocks (fun k => x a0 avg r k * w (ix2 k c))]
  simp only [x_wrow0, x_wrow1, x_wrow2]

/-! ## Real inputs give real entries -/

/-- Every entry of a row of the layer's input is a real number when the node data and the average are. -/
theorem x_real (a0 avg : Arr3) (h0 : ∀ i, ∃ y : ℝ, a0 i = (y : EReal)) (havg : ∀ i, ∃ y : ℝ, avg i = (y : EReal))
    (r : Fin 40000) (k : Fin 768) : ∃ y : ℝ, x a0 avg r k = (y : EReal) := by
  unfold x nd ps an
  split_ifs
  · exact h0 _
  · exact ⟨0, EReal.coe_zero.symm⟩
  · exact h0 _
  · exact havg _

/-- Every entry of the dense product is a real number when all inputs are. -/
theorem hWhole_real (a0 avg : Arr3) (w : Mat) (b : Vec1)
    (h0 : ∀ i, ∃ y : ℝ, a0 i = (y : EReal)) (havg : ∀ i, ∃ y : ℝ, avg i = (y : EReal))
    (hw : ∀ i, ∃ y : ℝ, w i = (y : EReal)) (hb : ∀ i, ∃ y : ℝ, b i = (y : EReal)) :
    ∃ g : Fin 40000 → Fin 256 → ℝ, ∀ r c, hWhole a0 avg w b r c = (g r c : EReal) := by
  have hx := fun r k => x_real a0 avg h0 havg r k
  choose X hX using hx
  choose W hW using hw
  choose B hB using hb
  refine ⟨fun r c => (∑ k : Fin 768, X r k * W (ix2 k c)) + B (ix1 c), fun r c => ?_⟩
  unfold hWhole
  rw [EReal.coe_add, coe_finset_sum, hB]
  congr 1
  exact Finset.sum_congr rfl fun k _ => by rw [hX, hW, EReal.coe_mul]

/-! ## The statistics and the result -/

theorem hSplit_eq (a0 avg : Arr3) (w : Mat) (b : Vec1) : hSplit a0 avg w b = hWhole a0 avg w b :=
  funext fun r => funext fun c => hSplit_eq_hWhole a0 avg w b r c

theorem meanSplit_eq (a0 avg : Arr3) (w : Mat) (b : Vec1) : meanSplit a0 avg w b = meanWhole a0 avg w b := by
  funext c
  unfold meanSplit meanWhole
  rw [hSplit_eq]
  exact mean_mul_eq_div (fun r => hWhole a0 avg w b r c) 40000 (by norm_num)

theorem varSplit_eq (a0 avg : Arr3) (w : Mat) (b : Vec1)
    (h0 : ∀ i, ∃ y : ℝ, a0 i = (y : EReal)) (havg : ∀ i, ∃ y : ℝ, avg i = (y : EReal))
    (hw : ∀ i, ∃ y : ℝ, w i = (y : EReal)) (hb : ∀ i, ∃ y : ℝ, b i = (y : EReal)) :
    varSplit a0 avg w b = varWhole a0 avg w b := by
  obtain ⟨g, hg⟩ := hWhole_real a0 avg w b h0 havg hw hb
  funext c
  unfold varSplit varWhole meanSplit meanWhole
  rw [hSplit_eq]
  exact var_mul_eq_div (fun r => hWhole a0 avg w b r c) (fun r => g r c) (fun r => hg r c) 40000 (by norm_num)
    (by simp)

/-- For real-valued node data, average, weights and bias, the two spellings of the layer give the same array. -/
theorem outSplit_eq_outWhole (a0 avg : Cert.Spec.Arr3) (w : Cert.Spec.Mat) (b γ β : Cert.Spec.Vec1)
    (h0 : ∀ i, ∃ x : ℝ, a0 i = (x : EReal)) (havg : ∀ i, ∃ x : ℝ, avg i = (x : EReal))
    (hw : ∀ i, ∃ x : ℝ, w i = (x : EReal)) (hb : ∀ i, ∃ x : ℝ, b i = (x : EReal)) :
    Cert.Spec.outSplit a0 avg w b γ β = Cert.Spec.outWhole a0 avg w b γ β := by
  funext i
  unfold outSplit outWhole
  rw [hSplit_eq, meanSplit_eq, varSplit_eq a0 avg w b h0 havg hw hb]

end Cert.Bridge
-- ==== Proof.FinitePre.lean ====
/-
  From the precondition to real-valued inputs.

  The precondition is the conjunction, over the six float arguments, of "every entry x satisfies |x| < +∞",
  where |x| = max x (-x) over the extended reals and +∞ is what the pattern 0x7F800000 denotes.
  An extended real whose absolute value is below +∞ is neither ⊤ nor ⊥ (|⊥| = ⊤), hence is a real number.
  So under the precondition every entry of every float argument is (the embedding of) a real.
-/
import proofs.«107287_j91061896610587_1_alg».proof.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx

/-- The shape of rank zero has exactly one index. -/
instance : Subsingleton Cert.Pre_finite_inputs.S_.Idx := ⟨fun a b => funext fun d => d.elim0⟩

/-- An extended real with |x| < +∞ is a real: at ⊥ the absolute value max ⊥ ⊤ is ⊤, at ⊤ it is ⊤,
    and neither is below ⊤, which is what the pattern 0x7F800000 denotes. -/
theorem real_of_abs_lt_top (x : EReal) (h : Ideal.cmp .olt (max x (-x)) (Ideal.ofBits .f32 0x7F800000#32) = 1#1) :
    ∃ r : ℝ, x = (r : EReal) := by
  induction x using EReal.rec with
  | bot => simp [Ideal.cmp, Ideal.ofBits, Ideal.ieee] at h
  | coe r => exact ⟨r, rfl⟩
  | top => simp [Ideal.cmp, Ideal.ofBits, Ideal.ieee] at h

variable [Cert.Pre_finite_inputs.Facts]

/-- Under the precondition (the conjunction of the six "all entries finite" tests is true) every entry of each
    of the six float arguments is a real number. The conjunction is split into its six conjuncts; each conjunct is an
    "and" over all entries of the bit "|x| < +∞", which is therefore 1 at every entry. -/
theorem real_of_pre (a0 a1 a2 a3 a4 a5 a6)
    (h : Cert.Pre_finite_inputs.fn (F := Ideal) a0 a1 a2 a3 a4 a5 a6 = fun _ => 1#1) :
    (∀ i, ∃ x : ℝ, a0 i = (x : EReal)) ∧ (∀ i, ∃ x : ℝ, a1 i = (x : EReal)) ∧ (∀ i, ∃ x : ℝ, a2 i = (x : EReal))
    ∧ (∀ i, ∃ x : ℝ, a3 i = (x : EReal)) ∧ (∀ i, ∃ x : ℝ, a4 i = (x : EReal)) ∧ (∀ i, ∃ x : ℝ, a5 i = (x : EReal)) := by
  have h0 := congrFun h ValueIdx.ix0
  dsimp only [Cert.Pre_finite_inputs.fn, Cert.Pre_finite_inputs.fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  refine ⟨fun i => ?_, fun i => ?_, fun i => ?_, fun i => ?_, fun i => ?_, fun i => ?_⟩
  · exact real_of_abs_lt_top _ (Host.reduce_andi_all _ _ _ _ _ h0' i)
  · exact real_of_abs_lt_top _ (Host.reduce_andi_all _ _ _ _ _ h1 i)
  · exact real_of_abs_lt_top _ (Host.reduce_andi_all _ _ _ _ _ h2 i)
  · exact real_of_abs_lt_top _ (Host.reduce_andi_all _ _ _ _ _ h3 i)
  · exact real_of_abs_lt_top _ (Host.reduce_andi_all _ _ _ _ _ h4 i)
  · exact real_of_abs_lt_top _ (Host.reduce_andi_all _ _ _ _ _ h5 i)

end Cert.Finite

end
-- ==== Proof.LibRealness.lean ====
/-
  Real-valuedness through array operations over the extended reals.

  An array of extended reals is "real-valued" when none of its entries is +∞ or −∞. This file collects, for generic
  shapes and dimension records, the facts that carry real-valuedness through the operations of a host program read at
  the exact (extended-real) values:
  * sums, products, differences and finite sums of reals are real; a real divided by a NONZERO real is real;
  * a re-indexing (broadcast, reshape, slice, gather) reads entries of its operand, so any property of all the
    operand's entries holds of all the result's entries;
  * an accumulating scatter leaves at each position the operand's entry plus a finite sum of update entries, so a
    real-valued operand with real-valued updates gives a real-valued result;
  * a select between two real-valued arrays is real-valued;
  * "w where w ≠ 0, else 1" is a nonzero real when w is real.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.LibRealness

open Idealize.ShloMosaic

/-! ## Real extended reals -/

/-- `x` is (the embedding of) a real number: neither +∞ nor −∞. -/
abbrev IsReal (x : EReal) : Prop := ∃ r : ℝ, x = (r : EReal)

/-- The embedding of a real is real. -/
theorem isReal_coe (r : ℝ) : IsReal (r : EReal) := ⟨r, rfl⟩

/-- Zero is real. -/
theorem isReal_zero : IsReal (0 : EReal) := ⟨0, EReal.coe_zero.symm⟩

/-- One is real. -/
theorem isReal_one : IsReal (1 : EReal) := ⟨1, EReal.coe_one.symm⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals is real. -/
theorem isReal_sum {ι : Type} (s : Finset ι) (f : ι → EReal) (h : ∀ i ∈ s, IsReal (f i)) : IsReal (∑ i ∈ s, f i) :=
  Finset.sum_induction f IsReal (fun _ _ => IsReal.add) isReal_zero h

/-- A real divided by a nonzero real is real: the quotient is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; exact EReal.coe_zero)
  rw [Ideal.div_coe hb]
  exact (isReal_coe a).mul (isReal_coe _)

/-- The f32 pattern of zero denotes a real. -/
theorem isReal_ofBits_zero_f32 : IsReal (Ideal.ofBits .f32 0x00000000#32) := by
  rw [Ideal.ofBits_zero_f32]; exact isReal_zero

/-- The f32 pattern of one denotes a real. -/
theorem isReal_ofBits_one_f32 : IsReal (Ideal.ofBits .f32 0x3F800000#32) := by
  rw [Ideal.ofBits_one_f32]; exact isReal_one

/-! ## Re-indexings: every entry of the result is an entry of the operand -/

section Reindex
variable {α : Type} (P : α → Prop)

/-- Every entry of a broadcast is an entry of its operand. -/
theorem broadcastInDim_forall {s t : Shape} (dims : Fin s.rank → Fin t.rank) (h : s.BroadcastsInDim t dims)
    (x : s.Idx → α) (hx : ∀ i, P (x i)) (j : t.Idx) : P (broadcastInDim t dims h x j) := hx _

/-- Every entry of a reshape is an entry of its operand. -/
theorem shapeCast_forall {s t : Shape} (x : s.Idx → α) (h : s.ShapeCasts t) (hx : ∀ i, P (x i)) (j : t.Idx) :
    P (shapeCast t x h j) := hx _

/-- Every entry of a slice is an entry of its operand. -/
theorem extractStridedSlice_forall {s t : Shape} (off : Fin s.rank → Nat) (x : s.Idx → α) (h : s.Slices off t)
    (hx : ∀ i, P (x i)) (j : t.Idx) : P (extractStridedSlice t off x h j) := hx _

/-- Every entry of a gather is an entry of its operand: the operand index is clamped into range, whatever the start
    indices hold. -/
theorem gather_forall {s si t : Shape} {w : Nat} (d : GatherDims s si t) (x : s.Idx → α) (idx : IVec si w)
    (hx : ∀ i, P (x i)) (j : t.Idx) : P (Host.gather d x idx j) := hx _

/-- A select at an index is one of the two operands' entries there. -/
theorem select_forall {s : Shape} (c : IVec s 1) (a b : s.Idx → α) (i : s.Idx) (ha : P (a i)) (hb : P (b i)) :
    P (select c a b i) := by
  rw [ValueIdx.select_apply]; unfold Scalar.select; split <;> assumption

end Reindex

/-! ## Pointwise arithmetic at an index -/

/-- A product of two arrays is real at an index where both factors are. -/
theorem mulf_isReal {s : Shape} {φ : FTy} (a b : FVec Ideal s φ) (i : s.Idx) (ha : IsReal (a i)) (hb : IsReal (b i)) :
    IsReal (mulf a b i) := ha.mul hb

/-- A sum of two arrays is real at an index where both terms are. -/
theorem addf_isReal {s : Shape} {φ : FTy} (a b : FVec Ideal s φ) (i : s.Idx) (ha : IsReal (a i)) (hb : IsReal (b i)) :
    IsReal (addf a b i) := ha.add hb

/-- The host's quotient of two arrays is real at an index where both are real and the divisor is not zero. -/
theorem hostDivf_isReal {s : Shape} {φ : FTy} (a b : FVec Ideal s φ) (i : s.Idx) (ha : IsReal (a i)) (hb : IsReal (b i))
    (h0 : b i ≠ 0) : IsReal (Host.divf a b i) := ha.div hb h0

/-- A constant array of the f32 zero pattern is real-valued. -/
theorem constant_zero_isReal (s : Shape) (i : s.Idx) : IsReal (constant (F := Ideal) s .f32 0x00000000#32 i) :=
  isReal_ofBits_zero_f32

/-- A constant array of the f32 one pattern is real-valued. -/
theorem constant_one_isReal (s : Shape) (i : s.Idx) : IsReal (constant (F := Ideal) s .f32 0x3F800000#32 i) :=
  isReal_ofBits_one_f32

/-! ## The accumulating scatter -/

/-- The accumulating scatter over the extended reals leaves at each position the operand's entry plus the finite sum
    of the update entries whose target is that position. With a real-valued operand and real-valued updates every
    entry of the result is therefore real, whatever the indices hold. -/
theorem hostScatterAdd_isReal {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

/-- The same for the host program's scatter-add operation read at the exact values. -/
theorem scatterAdd_isReal {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd d x idx upd i) :=
  hostScatterAdd_isReal d x idx upd hx hu i

/-! ## A divisor made nonzero -/

/-- "One where `w` is zero, else `w`" of a real `w` is a real and is not zero. -/
theorem select_oeq_zero_one {w : EReal} (hw : IsReal w) :
    IsReal (Scalar.select (Ideal.cmp .oeq w 0) 1 w) ∧ Scalar.select (Ideal.cmp .oeq w 0) 1 w ≠ 0 := by
  by_cases h : w = 0
  · have hc : Ideal.cmp .oeq w 0 = 1#1 := by simp [Ideal.cmp, h]
    rw [hc, ValueIdx.select_one]; exact ⟨isReal_one, one_ne_zero⟩
  · have hc : Ideal.cmp .oeq w 0 = 0#1 := by simp [Ideal.cmp, h]
    rw [hc, ValueIdx.select_zero]; exact ⟨hw, h⟩

/-- The same with the zero and the one given by their f32 patterns, as a program's constants denote them. -/
theorem select_oeq_zero_one_bits {w : EReal} (hw : IsReal w) :
    IsReal (Scalar.select (Ideal.cmp .oeq w (Ideal.ofBits .f32 0x00000000#32)) (Ideal.ofBits .f32 0x3F800000#32) w)
      ∧ Scalar.select (Ideal.cmp .oeq w (Ideal.ofBits .f32 0x00000000#32)) (Ideal.ofBits .f32 0x3F800000#32) w ≠ 0 := by
  rw [Ideal.ofBits_zero_f32, Ideal.ofBits_one_f32]; exact select_oeq_zero_one hw

end Cert.LibRealness

end
-- ==== Proof.FiniteAvg.lean ====
/-
  The neighbour average is real-valued when the node data and the edge weights are.

  The average is a quotient. Its numerator is, at each (slab, node, column), zero plus a finite sum of products
  (a gathered node entry times an edge weight): a gathered entry is an entry of the node data, so each product is a
  product of two reals, and the finite sum of reals is real. Its denominator is, at each (slab, node), zero plus a
  finite sum of edge weights, with the value zero replaced by one: a real that is not zero. A real divided by a
  nonzero real is a real. Nothing here depends on what the edge table holds.
-/
import proofs.«107287_j91061896610587_1_alg».proof.Proof.RefAvg
import proofs.«107287_j91061896610587_1_alg».proof.Proof.LibRealness

noncomputable section

namespace Cert.Finite

open Cert.ReferenceIdeal Cert.ReferenceIdeal.Gen Cert.ReferenceIdeal.RefAvg Cert.LibRealness Idealize.ShloMosaic

variable (a0 : FVec Ideal S4x10000x256 .f32) (a1 : FVec Ideal S4x160000 .f32) (a6 : IVec S2x160000 32)

/-- Each weighted entry (gathered node entry times edge weight) is a product of two reals. -/
theorem msg_real (h0 : ∀ i, IsReal (a0 i)) (h1 : ∀ i, IsReal (a1 i)) : ∀ j, IsReal (msg a0 a1 a6 j) := fun j =>
  mulf_isReal _ _ j (gather_forall IsReal _ a0 _ h0 j)
    (broadcastInDim_forall IsReal _ _ _ (broadcastInDim_forall IsReal _ _ a1 h1) j)

/-- The summed weighted entries: zero plus a finite sum of reals at every position. -/
theorem num_real (h0 : ∀ i, IsReal (a0 i)) (h1 : ∀ i, IsReal (a1 i)) : ∀ i, IsReal (num a0 a1 a6 i) := fun i =>
  scatterAdd_isReal _ _ _ _
    (broadcastInDim_forall IsReal _ _ _ (broadcastInDim_forall IsReal _ _ _ (constant_zero_isReal _)))
    (msg_real a0 a1 a6 h0 h1) i

/-- The summed weights: zero plus a finite sum of reals at every position. -/
theorem wsum_real (h1 : ∀ i, IsReal (a1 i)) : ∀ i, IsReal (wsum a1 a6 i) := fun i =>
  scatterAdd_isReal _ _ _ _
    (broadcastInDim_forall IsReal _ _ _ (broadcastInDim_forall IsReal _ _ _ (constant_zero_isReal _)))
    h1 i

/-- The guarded weight sum at a position: one if the weight sum there is zero, else the weight sum. -/
theorem den_apply (i : S4x10000.Idx) : den a1 a6 i
    = Scalar.select (Ideal.cmp .oeq (wsum a1 a6 i) (Ideal.ofBits .f32 0x00000000#32)) (Ideal.ofBits .f32 0x3F800000#32)
        (wsum a1 a6 i) := by
  unfold den
  rw [ValueIdx.select_apply, ValueIdx.cmpf_apply, Ideal.cmpf_def, ValueIdx.broadcastInDim_scalar_apply,
    ValueIdx.broadcastInDim_scalar_apply, ValueIdx.constant_apply, ValueIdx.constant_apply]

/-- The guarded weight sum (one where the sum is zero) is a real and is not zero. -/
theorem den_real_ne_zero (h1 : ∀ i, IsReal (a1 i)) : ∀ i, IsReal (den a1 a6 i) ∧ den a1 a6 i ≠ 0 := fun i => by
  rw [den_apply]
  exact select_oeq_zero_one_bits (wsum_real a1 a6 h1 i)

/-- The neighbour average is real-valued: a real numerator over a real, nonzero denominator. -/
theorem avg_real (h0 : ∀ i, ∃ x : ℝ, a0 i = (x : EReal)) (h1 : ∀ i, ∃ x : ℝ, a1 i = (x : EReal)) :
    ∀ i, ∃ x : ℝ, Cert.ReferenceIdeal.RefAvg.avg a0 a1 a6 i = (x : EReal) := fun i =>
  hostDivf_isReal _ _ i (num_real a0 a1 a6 h0 h1 i)
    (broadcastInDim_forall (fun y => IsReal y ∧ y ≠ 0) _ _ _
      (broadcastInDim_forall (fun y => IsReal y ∧ y ≠ 0) _ _ _ (den_real_ne_zero a1 a6 h1)) i).1
    (broadcastInDim_forall (fun y => IsReal y ∧ y ≠ 0) _ _ _
      (broadcastInDim_forall (fun y => IsReal y ∧ y ≠ 0) _ _ _ (den_real_ne_zero a1 a6 h1)) i).2

end Cert.Finite

end
-- ==== Proof.RefRes.lean ====
/-
  The reference's result as one function of its seven argument arrays, stage by stage.

  x    : the three pieces of each node's row side by side, [node data | previous slab's node data (zero in slab 0) | neighbour average];
  h    : the dense layer, the 40000 flattened rows of x times the weight matrix, plus the bias;
  mean : per column, the sum of h over the rows divided by 40000;
  var  : per column, the sum over the rows of the squared deviation of h from its mean, divided by 40000 minus a
         correction that is zero here; the division is guarded by a test that the divisor is positive;
  out  : ((h - mean) * rsqrt(var + eps)) * gamma + beta, floored at zero, rows unflattened to (slab, node).
-/
import proofs.«107287_j91061896610587_1_alg».proof.Proof.RefAvg

noncomputable section

namespace Cert.ReferenceIdeal.RefRun

open Cert.ReferenceIdeal Cert.ReferenceIdeal.Gen Idealize.ShloMosaic

/-- The previous slab's node data: slab 0 is zero, slab t ≥ 1 is slab t of the node data itself
    (slabs 1..3 of the input placed after a zero slab). -/
def prev (a0 : FVec Ideal S4x10000x256 .f32) : FVec Ideal S4x10000x256 .f32 :=
  concatenate S4x10000x256 0
    [⟨S1x10000x256, broadcastInDim S1x10000x256 ![] bcast_S_S1x10000x256 (constant S_ .f32 0x00000000#32)⟩,
     ⟨S3x10000x256, extractStridedSlice S3x10000x256 ![1, 0, 0] a0 slices_S4x10000x256_S3x10000x256_1_0_0⟩]
    concatenates_S1x10000x256_S3x10000x256_S4x10000x256_d0

/-- The layer's input: the three pieces side by side along the last axis, rows flattened. -/
def x (a0 avg : FVec Ideal S4x10000x256 .f32) : FVec Ideal S40000x768 .f32 :=
  shapeCast S40000x768
    (concatenate S4x10000x768 2 [⟨S4x10000x256, a0⟩, ⟨S4x10000x256, prev a0⟩, ⟨S4x10000x256, avg⟩]
      concatenates_S4x10000x256_S4x10000x256_S4x10000x256_S4x10000x768_d2)
    shapeCasts_S4x10000x768_S40000x768

/-- The dense layer: x times the weights, plus the bias along the rows. -/
def h (a0 avg : FVec Ideal S4x10000x256 .f32) (a2 : FVec Ideal S768x256 .f32) (a3 : FVec Ideal S256 .f32) :
    FVec Ideal S40000x256 .f32 :=
  addf (Host.dotGeneral dot_S40000x768_S768x256_S40000x256_1_0_0_1_n_n none (x a0 avg) a2)
    (broadcastInDim S40000x256 ![0, 1] bcast_S1x256_S40000x256_0_1 (broadcastInDim S1x256 ![1] bcast_S256_S1x256_1 a3))

/-- The column means of a matrix of 40000 rows: the sum over the rows divided by 40000. -/
def mean (hh : FVec Ideal S40000x256 .f32) : FVec Ideal S256 .f32 :=
  Host.divf (Host.reduceAdd hh (constant S_ .f32 0x00000000#32) reducesTo_S40000x256_S256_d0 h_S_)
    (broadcastInDim S256 ![] bcast_S_S256 (constant S_ .f32 0x471C4000#32))

/-- The deviation of a matrix from its column means, as the variance computes it (the mean as a one-row matrix first). -/
def dev (hh : FVec Ideal S40000x256 .f32) : FVec Ideal S40000x256 .f32 :=
  subf hh
    (broadcastInDim S40000x256 ![0, 1] bcast_S1x256_S40000x256_0_1
      (Host.divf
        (broadcastInDim S1x256 ![1] bcast_S256_S1x256_1
          (Host.reduceAdd hh (constant S_ .f32 0x00000000#32) reducesTo_S40000x256_S256_d0 h_S_))
        (broadcastInDim S1x256 ![] bcast_S_S1x256 (constant S_ .f32 0x471C4000#32))))

/-- The variance's divisor: 40000 minus the correction 0 (an integer zero read as a float). -/
def nEff : FVec Ideal S_ .f32 :=
  subf (constant S_ .f32 0x471C4000#32) (sitofp .f32 (constantI S_ 32 0#32))

/-- The column variances: the summed squared deviations over the divisor where the divisor is positive
    (and a not-a-number word where it is not, which does not happen: the divisor is 40000). -/
def var (hh : FVec Ideal S40000x256 .f32) : FVec Ideal S256 .f32 :=
  select (broadcastInDim S256 ![] bcast_S_S256 (cmpf .ogt nEff (constant S_ .f32 0x00000000#32)))
    (Host.divf (Host.reduceAdd (mulf (dev hh) (dev hh)) (constant S_ .f32 0x00000000#32) reducesTo_S40000x256_S256_d0 h_S_)
      (broadcastInDim S256 ![] bcast_S_S256 nEff))
    (broadcastInDim S256 ![] bcast_S_S256 (constant S_ .f32 0x7FC00000#32))

/-- A vector over the columns, repeated along the 40000 rows. -/
def rows (v : FVec Ideal S256 .f32) : FVec Ideal S40000x256 .f32 :=
  broadcastInDim S40000x256 ![0, 1] bcast_S1x256_S40000x256_0_1 (broadcastInDim S1x256 ![1] bcast_S256_S1x256_1 v)

/-- Normalisation, scale, shift and the floor at zero, on the flattened rows. -/
def norm (hh : FVec Ideal S40000x256 .f32) (a4 a5 : FVec Ideal S256 .f32) : FVec Ideal S40000x256 .f32 :=
  maximumf
    (addf
      (mulf
        (mulf (subf hh (rows (mean hh)))
          (rows (Host.rsqrt (addf (var hh) (broadcastInDim S256 ![] bcast_S_S256 (constant S_ .f32 0x3727C5AC#32))))))
        (rows a4))
      (rows a5))
    (broadcastInDim S40000x256 ![] bcast_S_S40000x256 (constant S_ .f32 0x00000000#32))

/-- The result over the layer's input pieces; the second argument is the neighbour average. -/
def out (a0 avg : FVec Ideal S4x10000x256 .f32) (a2 : FVec Ideal S768x256 .f32) (a3 a4 a5 : FVec Ideal S256 .f32) :
    FVec Ideal S4x10000x256 .f32 :=
  shapeCast S4x10000x256 (norm (h a0 avg a2 a3) a4 a5) shapeCasts_S40000x256_S4x10000x256

/-- The reference's result as a function of its seven arguments. -/
def res (a0 : FVec Ideal S4x10000x256 .f32) (a1 : FVec Ideal S4x160000 .f32) (a2 : FVec Ideal S768x256 .f32)
    (a3 a4 a5 : FVec Ideal S256 .f32) (a6 : IVec S2x160000 32) : FVec Ideal S4x10000x256 .f32 :=
  out a0 (RefAvg.avg a0 a1 a6) a2 a3 a4 a5

end Cert.ReferenceIdeal.RefRun

end
-- ==== Proof.RefValueA.lean ====
/-
  The layer's input read entry by entry.

  The previous-slab piece at (t, n, k) is zero for t = 0 and the node data at (t, n, k) for t ≥ 1: it is a zero slab
  followed by slabs 1..3 of the node data. The flattened input at row r = 10000 t + n and column k is the node data
  for k < 256, the previous-slab piece at column k - 256 for 256 ≤ k < 512, and the neighbour average at column
  k - 512 beyond: flattening keeps the row-major position, and (10000 t + n) 768 + k is the position of (t, n, k).
  The divisor 40000 is the real number its bit pattern denotes.
-/
import proofs.«107287_j91061896610587_1_alg».proof.Proof.RefRes
import proofs.«107287_j91061896610587_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx

/-- The bit pattern of the divisor denotes the real number 40000 (sign 0, exponent 142, significand 0x1C4000). -/
theorem ofBits_40000 : Ideal.ofBits .f32 0x471C4000#32 = ((40000 : ℝ) : EReal) := by
  simp [Ideal.ofBits, Ideal.ieee, -EReal.coe_mul]; norm_num

/-- The previous-slab piece: zero in slab 0, the node data itself in the later slabs. -/
theorem prev_apply (a0 : FVec Ideal S4x10000x256 .f32) (t : Fin 4) (n : Fin 10000) (k : Fin 256) :
    prev a0 (ix3 t n k) = if t.val = 0 then 0 else a0 (ix3 t n k) := by
  unfold prev
  by_cases ht : t.val = 0
  · rw [if_pos ht]
    rw [concatenate_pair_apply_left (t := S4x10000x256) (s₁ := S1x10000x256) (s₂ := S3x10000x256) (0 : Fin 3) _ _ _ (ix3 t n k) rfl (@ix3 1 10000 256 (0 : Fin 1) n k)
      (fun b => match b with
        | ⟨0, _⟩ => by show (0 : Nat) = t.val; omega
        | ⟨1, _⟩ => rfl
        | ⟨2, _⟩ => rfl)]
    rw [broadcastInDim_scalar_apply, constant_apply, Ideal.ofBits_zero_f32]
  · rw [if_neg ht]
    rw [concatenate_pair_apply_right (t := S4x10000x256) (s₁ := S1x10000x256) (s₂ := S3x10000x256) (0 : Fin 3) _ _ _ (ix3 t n k) rfl rfl (@ix3 3 10000 256 (⟨t.val - 1, by omega⟩ : Fin 3) n k)
      (fun b => match b with
        | ⟨0, _⟩ => fun hb => absurd rfl hb
        | ⟨1, _⟩ => fun _ => rfl
        | ⟨2, _⟩ => fun _ => rfl)
      (by show t.val - 1 + 1 = t.val; omega)]
    exact extractStridedSlice_apply _ _ _ _ (ix3 t n k) (fun a => match a with
        | ⟨0, _⟩ => by show t.val = 1 + (t.val - 1); omega
        | ⟨1, _⟩ => by show n.val = 0 + n.val; omega
        | ⟨2, _⟩ => by show k.val = 0 + k.val; omega)

/-- The flattened input at (r, k) is the specification's row r at column k. -/
theorem x_apply (a0 avg : FVec Ideal S4x10000x256 .f32) (r : Fin 40000) (k : Fin 768) :
    x a0 avg (ix2 r k) = Cert.Spec.x a0 avg r k := by
  unfold x
  rw [shapeCast_apply (s := S4x10000x768) (t := S40000x768) _ _ (ix2 r k) (@ix3 4 10000 768 (Cert.Spec.tOf r) (Cert.Spec.nOf r) k)
    (by rw [Shape.rowMajor_val_three, Shape.rowMajor_val_two]
        show ((r.val / 10000) * 10000 + r.val % 10000) * 768 + k.val = r.val * 768 + k.val
        omega)]
  unfold Cert.Spec.x
  by_cases h1 : k.val < 256
  · rw [dif_pos h1]
    exact concatenate_apply_piece (t := S4x10000x768) (2 : Fin 3) _ _ (@ix3 4 10000 768 (Cert.Spec.tOf r) (Cert.Spec.nOf r) k)
      0 (by simp) S4x10000x256 a0 rfl rfl 0 rfl (@ix3 4 10000 256 (Cert.Spec.tOf r) (Cert.Spec.nOf r) ⟨k.val, h1⟩)
      (fun b => match b with
        | ⟨0, _⟩ => fun _ => rfl
        | ⟨1, _⟩ => fun _ => rfl
        | ⟨2, _⟩ => fun hb => absurd rfl hb)
      (by show 0 + k.val = k.val; omega)
  · rw [dif_neg h1]
    by_cases h2 : k.val < 512
    · rw [dif_pos h2]
      refine (concatenate_apply_piece (t := S4x10000x768) (2 : Fin 3) _ _ (@ix3 4 10000 768 (Cert.Spec.tOf r) (Cert.Spec.nOf r) k)
        1 (by simp) S4x10000x256 (prev a0) rfl rfl 256 rfl (@ix3 4 10000 256 (Cert.Spec.tOf r) (Cert.Spec.nOf r) ⟨k.val - 256, by omega⟩)
        (fun b => match b with
          | ⟨0, _⟩ => fun _ => rfl
          | ⟨1, _⟩ => fun _ => rfl
          | ⟨2, _⟩ => fun hb => absurd rfl hb)
        (by show 256 + (k.val - 256) = k.val; omega)).trans ?_
      rw [prev_apply]; rfl
    · rw [dif_neg h2]
      exact concatenate_apply_piece (t := S4x10000x768) (2 : Fin 3) _ _ (@ix3 4 10000 768 (Cert.Spec.tOf r) (Cert.Spec.nOf r) k)
        2 (by simp) S4x10000x256 avg rfl rfl 512 rfl (@ix3 4 10000 256 (Cert.Spec.tOf r) (Cert.Spec.nOf r) ⟨k.val - 512, by omega⟩)
        (fun b => match b with
          | ⟨0, _⟩ => fun _ => rfl
          | ⟨1, _⟩ => fun _ => rfl
          | ⟨2, _⟩ => fun hb => absurd rfl hb)
        (by show 512 + (k.val - 512) = k.val; have := k.isLt; omega)

end Cert.ReferenceIdeal.RefValue

end
-- ==== Proof.RefValueB.lean ====
/-
  The dense layer, its column means and its column variances read entry by entry.

  The layer at (r, c) is the sum over the 768 columns k of input (r, k) times weight (k, c), plus the bias at c: the
  product contracts the input's columns with the weight's rows, and the bias is spread down the rows. A sum over the
  rows starts from the zero word and adds the 40000 entries of the column. The mean of a column is that sum divided
  by 40000. The variance's divisor is 40000 - 0 = 40000, which is positive, so the guarded quotient is the quotient:
  the column's sum of squared deviations from the mean, divided by 40000.
-/
import proofs.«107287_j91061896610587_1_alg».proof.Proof.RefValueA
import Idealize.ShloMosaic.Lib.StackMember

noncomputable section

open scoped BigOperators

namespace Cert.ReferenceIdeal.RefValue

open Cert.ReferenceIdeal Cert.ReferenceIdeal.Gen Cert.ReferenceIdeal.RefRun Idealize.ShloMosaic Idealize.ShloMosaic.ValueIdx

/-- The layer's product is the plain product of a 40000 x 768 by a 768 x 256 matrix. -/
theorem dot_eq_plain : dot_S40000x768_S768x256_S40000x256_1_0_0_1_n_n = DotDims.plain 40000 768 256 := rfl

/-- A vector over the columns spread down the rows reads, at (r, c), its entry c. -/
theorem rows_apply (v : FVec Ideal S256 .f32) (r : Fin 40000) (c : Fin 256) : rows v (ix2 r c) = v (ix1 c) := by
  unfold rows
  rw [broadcastInDim_apply (s := S1x256) (t := S40000x256) _ _ _ (ix2 r c) (@ix2 1 256 (0 : Fin 1) c)
    (fun a => match a with | ⟨0, _⟩ => rfl | ⟨1, _⟩ => rfl)]
  exact broadcastInDim_apply (s := S256) (t := S1x256) _ _ _ (@ix2 1 256 (0 : Fin 1) c) (ix1 c)
    (fun a => match a with | ⟨0, _⟩ => rfl)

/-- The layer at (r, c) is the specification's: one sum of 768 products plus the bias. -/
theorem h_apply (a0 avg : FVec Ideal S4x10000x256 .f32) (a2 : FVec Ideal S768x256 .f32) (a3 : FVec Ideal S256 .f32)
    (r : Fin 40000) (c : Fin 256) : h a0 avg a2 a3 (ix2 r c) = Cert.Spec.hWhole a0 avg a2 a3 r c := by
  unfold h Cert.Spec.hWhole
  rw [addf_apply, dot_eq_plain, StackMember.dotGeneral_plain_apply]
  congr 1
  · exact Finset.sum_congr rfl fun k _ => by rw [x_apply]
  · exact rows_apply a3 r c

/-- The sum over the rows, from the zero word: at column c the sum of the column's 40000 entries. -/
theorem sumRows_apply (hh : FVec Ideal S40000x256 .f32) (c : Fin 256) :
    Host.reduceAdd hh (constant S_ .f32 0x00000000#32) reducesTo_S40000x256_S256_d0 h_S_ (ix1 c) = ∑ r : Fin 40000, hh (ix2 r c) := by
  rw [hostReduceAdd_apply, Ideal.hostReduceAdd_single reducesTo_S40000x256_S256_d0 (by decide : S40000x256.Reduces [0] S256),
    constant_apply, Ideal.ofBits_zero_f32, zero_add]
  refine Finset.sum_congr rfl fun r _ => ?_
  congr 1
  funext a
  apply Fin.ext
  match a with
  | ⟨0, _⟩ => rfl
  | ⟨1, _⟩ => rfl

/-- The column mean: the column's sum over 40000. -/
theorem mean_apply (hh : FVec Ideal S40000x256 .f32) (c : Fin 256) :
    mean hh (ix1 c) = Ideal.div (∑ r : Fin 40000, hh (ix2 r c)) ((40000 : ℝ) : EReal) := by
  unfold mean
  rw [hostDivf_apply, sumRows_apply, broadcastInDim_scalar_apply, constant_apply, ofBits_40000]

/-- The deviation from the column mean. -/
theorem dev_apply (hh : FVec Ideal S40000x256 .f32) (r : Fin 40000) (c : Fin 256) :
    dev hh (ix2 r c) = hh (ix2 r c) - Ideal.div (∑ r' : Fin 40000, hh (ix2 r' c)) ((40000 : ℝ) : EReal) := by
  unfold dev
  rw [subf_apply,
    broadcastInDim_apply (s := S1x256) (t := S40000x256) _ _ _ (ix2 r c) (@ix2 1 256 (0 : Fin 1) c)
      (fun a => match a with | ⟨0, _⟩ => rfl | ⟨1, _⟩ => rfl),
    hostDivf_apply,
    broadcastInDim_apply (s := S256) (t := S1x256) _ _ _ (@ix2 1 256 (0 : Fin 1) c) (ix1 c)
      (fun a => match a with | ⟨0, _⟩ => rfl),
    sumRows_apply, broadcastInDim_scalar_apply, constant_apply, ofBits_40000]

/-- The variance's divisor is 40000: the correction is the integer zero read as a float. -/
theorem nEff_val : nEff ix0 = ((40000 : ℝ) : EReal) := by
  unfold nEff
  rw [subf_apply, constant_apply, ofBits_40000, sitofp_apply, constantI_apply]
  show ((40000 : ℝ) : EReal) - (((0#32 : BitVec 32).toInt : ℝ) : EReal) = _
  simp

/-- The column variance: the divisor is positive, so the guard selects the quotient of the summed squared deviations by 40000. -/
theorem var_apply (hh : FVec Ideal S40000x256 .f32) (c : Fin 256) :
    var hh (ix1 c) = Ideal.div (∑ r : Fin 40000, dev hh (ix2 r c) * dev hh (ix2 r c)) ((40000 : ℝ) : EReal) := by
  unfold var
  have hc : Ideal.cmp .ogt ((40000 : ℝ) : EReal) 0 = 1#1 := by
    unfold Ideal.cmp
    have : (0 : EReal) < ((40000 : ℝ) : EReal) := EReal.coe_pos.mpr (by norm_num)
    simp [this]
  rw [select_apply, broadcastInDim_scalar_apply, cmpf_apply, nEff_val, constant_apply, Ideal.ofBits_zero_f32,
    Ideal.cmpf_def, hc, select_one, hostDivf_apply, sumRows_apply, broadcastInDim_scalar_apply, nEff_val]
  rfl

end Cert.ReferenceIdeal.RefValue

end
-- ==== Proof.RefValue.lean ====
/-
  The reference's result is the specification's one-product spelling, entry by entry.

  At row r and column c the normalised layer is ((h - mean) * rsqrt(var + eps)) * gamma + beta floored at zero, with
  mean the column's sum over 40000 and var the column's sum of squared deviations over 40000. Unflattening the rows
  keeps the row-major position: entry (t, n, k) of the result is entry (10000 t + n, k) of the normalised layer.
  With the layer read as the specification's (one sum of 768 products plus the bias) under every sum, the two sides
  are the same expression.
-/
import proofs.«107287_j91061896610587_1_alg».proof.Proof.RefValueB

noncomputable section

open scoped BigOperators

namespace Cert.ReferenceIdeal.RefValue

open Cert.ReferenceIdeal Cert.ReferenceIdeal.Gen Cert.ReferenceIdeal.RefRun Idealize.ShloMosaic Idealize.ShloMosaic.ValueIdx

/-- The normalised layer at (r, c), in terms of the entries of the matrix it normalises. -/
theorem norm_apply (hh : FVec Ideal S40000x256 .f32) (a4 a5 : FVec Ideal S256 .f32) (r : Fin 40000) (c : Fin 256) :
    norm hh a4 a5 (ix2 r c)
      = max ((((hh (ix2 r c) - Ideal.div (∑ r' : Fin 40000, hh (ix2 r' c)) ((40000 : ℝ) : EReal))
            * Ideal.rsqrt (Ideal.div (∑ r' : Fin 40000,
                  (hh (ix2 r' c) - Ideal.div (∑ r'' : Fin 40000, hh (ix2 r'' c)) ((40000 : ℝ) : EReal))
                  * (hh (ix2 r' c) - Ideal.div (∑ r'' : Fin 40000, hh (ix2 r'' c)) ((40000 : ℝ) : EReal))) ((40000 : ℝ) : EReal)
                + Ideal.ofBits .f32 0x3727C5AC#32))
          * a4 (ix1 c)) + a5 (ix1 c)) 0 := by
  unfold RefRun.norm
  rw [maximumf_apply, addf_apply, mulf_apply, mulf_apply, subf_apply, rows_apply, rows_apply, rows_apply, rows_apply,
    broadcastInDim_scalar_apply, constant_apply, Ideal.ofBits_zero_f32, mean_apply]
  show max ((((_ - _) * Ideal.rsqrt (addf (var hh) _ (ix1 c))) * _) + _) 0 = _
  rw [addf_apply, var_apply, broadcastInDim_scalar_apply, constant_apply]
  simp only [dev_apply]

/-- The result at (t, n, k) is the specification's. -/
theorem out_apply (a0 avg : FVec Ideal S4x10000x256 .f32) (a2 : FVec Ideal S768x256 .f32) (a3 a4 a5 : FVec Ideal S256 .f32)
    (t : Fin 4) (n : Fin 10000) (k : Fin 256) :
    out a0 avg a2 a3 a4 a5 (ix3 t n k) = Cert.Spec.outWhole a0 avg a2 a3 a4 a5 (ix3 t n k) := by
  unfold out
  rw [shapeCast_apply (s := S40000x256) (t := S4x10000x256) _ _ (ix3 t n k) (@ix2 40000 256 (Cert.Spec.rowOf t n) k)
    (by rw [Shape.rowMajor_val_two, Shape.rowMajor_val_three]
        show (10000 * t.val + n.val) * 256 + k.val = (t.val * 10000 + n.val) * 256 + k.val
        omega)]
  rw [norm_apply]
  simp only [h_apply]
  rfl

/-- The result over the input pieces is the specification's one-product spelling. -/
theorem out_eq (a0 avg : FVec Ideal S4x10000x256 .f32) (a2 : FVec Ideal S768x256 .f32) (a3 a4 a5 : FVec Ideal S256 .f32) :
    out a0 avg a2 a3 a4 a5 = Cert.Spec.outWhole a0 avg a2 a3 a4 a5 := by
  funext i
  have e := out_apply a0 avg a2 a3 a4 a5 (i 0) (i 1) (i 2)
  rw [eq_ix3 i]
  exact e

/-- The reference's result, as a function of its seven arguments, is the specification's one-product spelling at the
    neighbour average of the arguments. -/
theorem res_eq (a0 : FVec Ideal S4x10000x256 .f32) (a1 : FVec Ideal S4x160000 .f32) (a2 : FVec Ideal S768x256 .f32)
    (a3 a4 a5 : FVec Ideal S256 .f32) (a6 : IVec S2x160000 32) :
    res a0 a1 a2 a3 a4 a5 a6 = Cert.Spec.outWhole a0 (RefAvg.avg a0 a1 a6) a2 a3 a4 a5 :=
  out_eq a0 (RefAvg.avg a0 a1 a6) a2 a3 a4 a5

end Cert.ReferenceIdeal.RefValue

end
-- ==== Proof.KI.Val0.lean ====
/-
  The first region's blocks and arrays read at an index. Block t of a 40000-row array is its rows 4000 t … 4000 t + 3999;
  the weight block and the bias row are the whole arrays at every grid point; the layer-output array is filled block by
  block (row r lies in block r / 4000); the mean and variance rows are written back once, after the last point.
-/
import proofs.«107287_j91061896610587_1_alg».proof.Proof.KI.Reg0b
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the three row-blocked inputs and the row-blocked output move with the point,
    the other windows stay at block (0, 0). -/
theorem idx0_rows : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0 ∧ win0_4.index t 0 = 0 ∧ win0_4.index t 1 = 0
    ∧ win0_5.index t 0 = t.val ∧ win0_5.index t 1 = 0 ∧ win0_6.index t 0 = 0 ∧ win0_6.index t 1 = 0 ∧ win0_7.index t 0 = 0 ∧ win0_7.index t 1 = 0 :=
  (by decide +kernel : ∀ t : Fin grid0.N, _)

theorem row_lt (t : Fin cfg0.N) (p : Fin 4000) : 4000 * t.val + p.val < 40000 := by
  have : t.val < 10 := lt_of_lt_of_eq t.isLt N0_eq
  omega

theorem iblk0_0_apply (c : Dev nD) (t : Fin cfg0.N) (p : Fin 4000) (k : Fin 256) :
    (iblk0 V c 0 t : S4000x256.Idx → EReal) (ix2 p k) = (V c main_v32 : S40000x256.Idx → EReal) (ix2 ⟨4000 * t.val + p.val, row_lt t p⟩ k) := by
  have h0 : win0_0.index t 0 = t.val := by have := idx0_rows t; tauto
  have h1 : win0_0.index t 1 = 0 := by have := idx0_rows t; tauto
  unfold iblk0
  rw [View.read_apply]
  show (V c main_v32 : S40000x256.Idx → EReal) _ = (V c main_v32 : S40000x256.Idx → EReal) _
  congr 1
  funext a
  apply Fin.ext
  match a with
  | ⟨0, _⟩ => show win0_0.index t 0 * 4000 + 1 * p.val = 4000 * t.val + p.val; rw [h0]; omega
  | ⟨1, _⟩ => show win0_0.index t 1 * 256 + 1 * k.val = k.val; rw [h1]; omega

theorem iblk0_1_apply (c : Dev nD) (t : Fin cfg0.N) (p : Fin 4000) (k : Fin 256) :
    (iblk0 V c 1 t : S4000x256.Idx → EReal) (ix2 p k) = (V c main_v34 : S40000x256.Idx → EReal) (ix2 ⟨4000 * t.val + p.val, row_lt t p⟩ k) := by
  have h0 : win0_1.index t 0 = t.val := by have := idx0_rows t; tauto
  have h1 : win0_1.index t 1 = 0 := by have := idx0_rows t; tauto
  unfold iblk0
  rw [View.read_apply]
  show (V c main_v34 : S40000x256.Idx → EReal) _ = (V c main_v34 : S40000x256.Idx → EReal) _
  congr 1
  funext a
  apply Fin.ext
  match a with
  | ⟨0, _⟩ => show win0_1.index t 0 * 4000 + 1 * p.val = 4000 * t.val + p.val; rw [h0]; omega
  | ⟨1, _⟩ => show win0_1.index t 1 * 256 + 1 * k.val = k.val; rw [h1]; omega

theorem iblk0_2_apply (c : Dev nD) (t : Fin cfg0.N) (p : Fin 4000) (k : Fin 256) :
    (iblk0 V c 2 t : S4000x256.Idx → EReal) (ix2 p k) = (V c main_v36 : S40000x256.Idx → EReal) (ix2 ⟨4000 * t.val + p.val, row_lt t p⟩ k) := by
  have h0 : win0_2.index t 0 = t.val := by have := idx0_rows t; tauto
  have h1 : win0_2.index t 1 = 0 := by have := idx0_rows t; tauto
  unfold iblk0
  rw [View.read_apply]
  show (V c main_v36 : S40000x256.Idx → EReal) _ = (V c main_v36 : S40000x256.Idx → EReal) _
  congr 1
  funext a
  apply Fin.ext
  match a with
  | ⟨0, _⟩ => show win0_2.index t 0 * 4000 + 1 * p.val = 4000 * t.val + p.val; rw [h0]; omega
  | ⟨1, _⟩ => show win0_2.index t 1 * 256 + 1 * k.val = k.val; rw [h1]; omega

theorem iblk0_3_apply (c : Dev nD) (t : Fin cfg0.N) (k : Fin 768) (q : Fin 256) :
    (iblk0 V c 3 t : S768x256.Idx → EReal) (ix2 k q) = (V c main_v37 : S768x256.Idx → EReal) (ix2 k q) := by
  have h0 : win0_3.index t 0 = 0 := by have := idx0_rows t; tauto
  have h1 : win0_3.index t 1 = 0 := by have := idx0_rows t; tauto
  unfold iblk0
  rw [View.read_apply]
  show (V c main_v37 : S768x256.Idx → EReal) _ = (V c main_v37 : S768x256.Idx → EReal) _
  congr 1
  funext a
  apply Fin.ext
  match a with
  | ⟨0, _⟩ => show win0_3.index t 0 * 768 + 1 * k.val = k.val; rw [h0]; omega
  | ⟨1, _⟩ => show win0_3.index t 1 * 256 + 1 * q.val = q.val; rw [h1]; omega

theorem iblk0_4_apply (c : Dev nD) (t : Fin cfg0.N) (q : Fin 256) :
    (iblk0 V c 4 t : S1x256.Idx → EReal) (ix2 0 q) = (V c main_v38 : S1x256.Idx → EReal) (ix2 0 q) := by
  have h0 : win0_4.index t 0 = 0 := by have := idx0_rows t; tauto
  have h1 : win0_4.index t 1 = 0 := by have := idx0_rows t; tauto
  unfold iblk0
  rw [View.read_apply]
  show (V c main_v38 : S1x256.Idx → EReal) _ = (V c main_v38 : S1x256.Idx → EReal) _
  congr 1
  funext a
  apply Fin.ext
  match a with
  | ⟨0, _⟩ => show win0_4.index t 0 * 1 + 1 * (0 : Fin 1).val = (0 : Fin 1).val; rw [h0]; simp
  | ⟨1, _⟩ => show win0_4.index t 1 * 256 + 1 * q.val = q.val; rw [h1]; omega

/-! ## The layer-output array: filled block by block -/

theorem flushed5_eq (c : Dev nD) (t : Fin cfg0.N) (G : S40000x256.Idx → EReal)
    (hG : ∀ (p : Fin 4000) (q : Fin 256), ((dat0 V c).after 5 t : S4000x256.Idx → EReal) (ix2 p q) = G (ix2 ⟨4000 * t.val + p.val, row_lt t p⟩ q)) :
    (dat0 V c).flushed 5 t = ((cfg0.win 5).blk t).view.read (Elt Ideal) G := by
  have h0 : win0_5.index t 0 = t.val := by have := idx0_rows t; tauto
  have h1 : win0_5.index t 1 = 0 := by have := idx0_rows t; tauto
  show (cfg0.win 5).cut (grid0.coords t) ((dat0 V c).after 5 t) = _
  funext j
  obtain ⟨p, q, rfl⟩ : ∃ (p : Fin 4000) (q : Fin 256), j = ix2 p q := ⟨j 0, j 1, eq_ix2 j⟩
  show ((dat0 V c).after 5 t : S4000x256.Idx → EReal) (ix2 p q) = G (((cfg0.win 5).blk t).view.emb (ix2 p q))
  rw [hG p q]
  congr 1
  funext a
  apply Fin.ext
  match a with
  | ⟨0, _⟩ => show 4000 * t.val + p.val = win0_5.index t 0 * 4000 + 1 * p.val; rw [h0]; omega
  | ⟨1, _⟩ => show q.val = win0_5.index t 1 * 256 + 1 * q.val; rw [h1]; omega

theorem mem_blk5 (t : Fin cfg0.N) (i : S40000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v41_0).slice (win0_5.rect t)).set ↔ _
  rw [View.set_slice_whole, Rect.mem_set_unit]
  exact Iff.rfl

/-- The layer-output array after the region is any function its blocks are the blocks of. -/
theorem arr5_of (c : Dev nD) (G : S40000x256.Idx → EReal)
    (hG : ∀ (t : Fin cfg0.N) (p : Fin 4000) (q : Fin 256), ((dat0 V c).after 5 t : S4000x256.Idx → EReal) (ix2 p q) = G (ix2 ⟨4000 * t.val + p.val, row_lt t p⟩ q)) :
    (dat0 V c).arrAt 5 cfg0.N = G :=
  (dat0 V c).arrAt_eq_of_cover 5 G (fun t _ => flushed5_eq V c t G (hG t)) fun i => by
    have hi0 : (i 0).val < 40000 := (i 0).isLt
    have hi1 : (i 1).val < 256 := (i 1).isLt
    have hN : cfg0.N = 10 := N0_eq
    refine ⟨⟨(i 0).val / 4000, by omega⟩, flush0_5 _, ?_⟩
    rw [mem_blk5]
    have h0 := (idx0_rows ⟨(i 0).val / 4000, by omega⟩).2.2.2.2.2.2.2.2.2.2.1
    have h1 := (idx0_rows ⟨(i 0).val / 4000, by omega⟩).2.2.2.2.2.2.2.2.2.2.2.1
    intro a
    match a with
    | ⟨0, _⟩ => show win0_5.index _ 0 * 4000 ≤ (i 0).val ∧ (i 0).val < win0_5.index _ 0 * 4000 + 4000; rw [h0]; dsimp only; omega
    | ⟨1, _⟩ => show win0_5.index _ 1 * 256 ≤ (i 1).val ∧ (i 1).val < win0_5.index _ 1 * 256 + 256; rw [h1]; omega

/-! ## The mean and variance rows: written back once -/

theorem flushed6_eq (c : Dev nD) (t : Fin cfg0.N) (G : S1x256.Idx → EReal)
    (hG : ∀ q : Fin 256, ((dat0 V c).after 6 t : S1x256.Idx → EReal) (ix2 0 q) = G (ix2 0 q)) :
    (dat0 V c).flushed 6 t = ((cfg0.win 6).blk t).view.read (Elt Ideal) G := by
  have h0 : win0_6.index t 0 = 0 := by have := idx0_rows t; tauto
  have h1 : win0_6.index t 1 = 0 := by have := idx0_rows t; tauto
  show (cfg0.win 6).cut (grid0.coords t) ((dat0 V c).after 6 t) = _
  funext j
  obtain ⟨p, q, rfl⟩ : ∃ (p : Fin 1) (q : Fin 256), j = ix2 p q := ⟨j 0, j 1, eq_ix2 j⟩
  obtain rfl : p = 0 := Subsingleton.elim _ _
  show ((dat0 V c).after 6 t : S1x256.Idx → EReal) (ix2 0 q) = G (((cfg0.win 6).blk t).view.emb (ix2 0 q))
  rw [hG q]
  congr 1
  funext a
  apply Fin.ext
  match a with
  | ⟨0, _⟩ => show (0 : Fin 1).val = win0_6.index t 0 * 1 + 1 * (0 : Fin 1).val; rw [h0]; simp
  | ⟨1, _⟩ => show q.val = win0_6.index t 1 * 256 + 1 * q.val; rw [h1]; omega

theorem mem_blk6 (t : Fin cfg0.N) (i : S1x256.Idx) :
    i ∈ ((cfg0.win 6).blk t).view.set ↔ ∀ a : Fin 2, win0_6.index t a * S1x256.size a ≤ (i a).val ∧ (i a).val < win0_6.index t a * S1x256.size a + S1x256.size a := by
  show i ∈ ((View.whole main_v41_1).slice (win0_6.rect t)).set ↔ _
  rw [View.set_slice_whole, Rect.mem_set_unit]
  exact Iff.rfl

/-- The row written back once, after the last point, is what the last point leaves. -/
theorem arr6_of (c : Dev nD) (G : S1x256.Idx → EReal)
    (hG : ∀ (t : Fin cfg0.N), t.val = 9 → ∀ q : Fin 256, ((dat0 V c).after 6 t : S1x256.Idx → EReal) (ix2 0 q) = G (ix2 0 q)) :
    (dat0 V c).arrAt 6 cfg0.N = G :=
  (dat0 V c).arrAt_eq_of_cover 6 G (fun t hf => flushed6_eq V c t G (hG t (by
      have h9 := (flush0_6 t).mp hf
      have hN : t.val < 10 := lt_of_lt_of_eq t.isLt N0_eq
      omega))) fun i => by
    have hi0 : (i 0).val < 1 := (i 0).isLt
    have hi1 : (i 1).val < 256 := (i 1).isLt
    have hN : cfg0.N = 10 := N0_eq
    refine ⟨⟨9, by omega⟩, (flush0_6 _).mpr (by rfl), ?_⟩
    rw [mem_blk6]
    have h0 : win0_6.index (⟨9, by omega⟩ : Fin cfg0.N) 0 = 0 := by have := idx0_rows ⟨9, by omega⟩; tauto
    have h1 : win0_6.index (⟨9, by omega⟩ : Fin cfg0.N) 1 = 0 := by have := idx0_rows ⟨9, by omega⟩; tauto
    intro a
    match a with
    | ⟨0, _⟩ => show win0_6.index _ 0 * 1 ≤ (i 0).val ∧ (i 0).val < win0_6.index _ 0 * 1 + 1; rw [h0]; omega
    | ⟨1, _⟩ => show win0_6.index _ 1 * 256 ≤ (i 1).val ∧ (i 1).val < win0_6.index _ 1 * 256 + 256; rw [h1]; omega

theorem flushed7_eq (c : Dev nD) (t : Fin cfg0.N) (G : S1x256.Idx → EReal)
    (hG : ∀ q : Fin 256, ((dat0 V c).after 7 t : S1x256.Idx → EReal) (ix2 0 q) = G (ix2 0 q)) :
    (dat0 V c).flushed 7 t = ((cfg0.win 7).blk t).view.read (Elt Ideal) G := by
  have h0 : win0_7.index t 0 = 0 := by have := idx0_rows t; tauto
  have h1 : win0_7.index t 1 = 0 := by have := idx0_rows t; tauto
  show (cfg0.win 7).cut (grid0.coords t) ((dat0 V c).after 7 t) = _
  funext j
  obtain ⟨p, q, rfl⟩ : ∃ (p : Fin 1) (q : Fin 256), j = ix2 p q := ⟨j 0, j 1, eq_ix2 j⟩
  obtain rfl : p = 0 := Subsingleton.elim _ _
  show ((dat0 V c).after 7 t : S1x256.Idx → EReal) (ix2 0 q) = G (((cfg0.win 7).blk t).view.emb (ix2 0 q))
  rw [hG q]
  congr 1
  funext a
  apply Fin.ext
  match a with
  | ⟨0, _⟩ => show (0 : Fin 1).val = win0_7.index t 0 * 1 + 1 * (0 : Fin 1).val; rw [h0]; simp
  | ⟨1, _⟩ => show q.val = win0_7.index t 1 * 256 + 1 * q.val; rw [h1]; omega

theorem mem_blk7 (t : Fin cfg0.N) (i : S1x256.Idx) :
    i ∈ ((cfg0.win 7).blk t).view.set ↔ ∀ a : Fin 2, win0_7.index t a * S1x256.size a ≤ (i a).val ∧ (i a).val < win0_7.index t a * S1x256.size a + S1x256.size a := by
  show i ∈ ((View.whole main_v41_2).slice (win0_7.rect t)).set ↔ _
  rw [View.set_slice_whole, Rect.mem_set_unit]
  exact Iff.rfl

/-- The row written back once, after the last point, is what the last point leaves. -/
theorem arr7_of (c : Dev nD) (G : S1x256.Idx → EReal)
    (hG : ∀ (t : Fin cfg0.N), t.val = 9 → ∀ q : Fin 256, ((dat0 V c).after 7 t : S1x256.Idx → EReal) (ix2 0 q) = G (ix2 0 q)) :
    (dat0 V c).arrAt 7 cfg0.N = G :=
  (dat0 V c).arrAt_eq_of_cover 7 G (fun t hf => flushed7_eq V c t G (hG t (by
      have h9 := (flush0_7 t).mp hf
      have hN : t.val < 10 := lt_of_lt_of_eq t.isLt N0_eq
      omega))) fun i => by
    have hi0 : (i 0).val < 1 := (i 0).isLt
    have hi1 : (i 1).val < 256 := (i 1).isLt
    have hN : cfg0.N = 10 := N0_eq
    refine ⟨⟨9, by omega⟩, (flush0_7 _).mpr (by rfl), ?_⟩
    rw [mem_blk7]
    have h0 : win0_7.index (⟨9, by omega⟩ : Fin cfg0.N) 0 = 0 := by have := idx0_rows ⟨9, by omega⟩; tauto
    have h1 : win0_7.index (⟨9, by omega⟩ : Fin cfg0.N) 1 = 0 := by have := idx0_rows ⟨9, by omega⟩; tauto
    intro a
    match a with
    | ⟨0, _⟩ => show win0_7.index _ 0 * 1 ≤ (i 0).val ∧ (i 0).val < win0_7.index _ 0 * 1 + 1; rw [h0]; omega
    | ⟨1, _⟩ => show win0_7.index _ 1 * 256 ≤ (i 1).val ∧ (i 1).val < win0_7.index _ 1 * 256 + 256; rw [h1]; omega

end Cert.KernelIdeal.Hand

end
-- ==== Proof.KI.Val0Pieces.lean ====
/-
  What the first region's body leaves at a grid point, in each of the three situations the grid meets, as values of
  the point's blocks and of the two running sums the point before left.

  At every point the layer-output block is the dense layer H of the point's three input blocks, the three 256-row
  blocks of the weights and the bias row. The running sum of h becomes the old sum plus the column sums of H, the
  running sum of h·h the old one plus the column sums of H·H; at the first point the old sums are the cleared buffers
  (the loads of the two buffers follow the clearing stores of the same point, so they read zero rows); at the last
  point the mean row and the variance row are computed from the two NEW sums.
-/
import proofs.«107287_j91061896610587_1_alg».proof.Proof.KI.Reg0b
import proofs.«107287_j91061896610587_1_alg».proof.Proof.KI.Payloads
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

section Pieces0

variable (V : (c : Dev nD) → (b : Ref sig .tc) → Buf (Elt F) ((c : Thread nD τ).loc b))

/-- The zero offsets of a whole-buffer access. -/
theorem hz0 : (![0, 0] : Fin 2 → Nat) = fun _ => 0 := funext fun a => by fin_cases a <;> rfl

/-- The three 256-row blocks of the weight block. -/
abbrev rW0 : Rect S768x256 := Rect.unit (s := S768x256) ![0, 0] S256x256.size inb_S768x256_S256x256_0_0
abbrev rW1 : Rect S768x256 := Rect.unit (s := S768x256) ![256, 0] S256x256.size inb_S768x256_S256x256_256_0
abbrev rW2 : Rect S768x256 := Rect.unit (s := S768x256) ![512, 0] S256x256.size inb_S768x256_S256x256_512_0

/-- The three weight blocks the point's weight block is read through. -/
abbrev wA (c : Dev nD) (t : Fin cfg0.N) : Vec F S256x256 .bf16 := View.ld (iblk0 V c 3 t) rW0
abbrev wB (c : Dev nD) (t : Fin cfg0.N) : Vec F S256x256 .bf16 := View.ld (iblk0 V c 3 t) rW1
abbrev wC (c : Dev nD) (t : Fin cfg0.N) : Vec F S256x256 .bf16 := View.ld (iblk0 V c 3 t) rW2

/-- The dense layer of the block at point t. -/
abbrev H0 (c : Dev nD) (t : Fin cfg0.N) : Vec F S4000x256 .f32 :=
  k0_pay7 (wA V c t) (wB V c t) (wC V c t) (iblk0 V c 0 t) (iblk0 V c 1 t) (iblk0 V c 2 t) (iblk0 V c 4 t)

/-- The running sum of h after point t, from the sum before it. -/
abbrev S0next (c : Dev nD) (t : Fin cfg0.N) (xs0 : Vec F S1x256 .f32) : Vec F S1x256 .f32 :=
  k0_pay1 (k0_pay8 (wA V c t) (wB V c t) (wC V c t) (iblk0 V c 0 t) (iblk0 V c 1 t) (iblk0 V c 2 t) (iblk0 V c 4 t) xs0)

/-- The running sum of h·h after point t, from the sum before it. -/
abbrev S1next (c : Dev nD) (t : Fin cfg0.N) (xs1 : Vec F S1x256 .f32) : Vec F S1x256 .f32 :=
  k0_pay2 (H0 V c t) xs1

/-- Reading back the first running-sum buffer at given contents gives those contents. -/
theorem read_sc0 (h : (scM0_0 : Memref sig .tc .vmem S1x256 .f32).IsWhole) (X : Vec F S1x256 .f32) :
    View.read (Elt F) (View.whole cc0_scratch0) (h.unread X) = X := h.read_unread X
/-- Reading back the second running-sum buffer at given contents gives those contents. -/
theorem read_sc1 (h : (scM0_1 : Memref sig .tc .vmem S1x256 .f32).IsWhole) (X : Vec F S1x256 .f32) :
    View.read (Elt F) (View.whole cc0_scratch1) (h.unread X) = X := h.read_unread X

/-- A point between: the layer-output block is the dense layer of the point's blocks. -/
theorem ptB_h (c : Dev nD) (t : Fin cfg0.N) (hc0 : ¬cond0_0 (grid0.coords t)) (hc1 : ¬cond0_1 (grid0.coords t)) (xs0 xs1 : Vec F S1x256 .f32) : (ptB V c t hc0 hc1 xs0 xs1).1 = H0 V c t := by
  unfold ptB
  dsimp only
  rw [View.read_writes_eq_canon _ _ _ (coverB_5 c t hc0 hc1 _ _ _ _ _ xs0 xs1)]
  unfold runB kernelRun0_B
  dsimp only
  try sl_unfold_words
  rw [View.canon_cons_unit_zero hz0]
  simp only [View.readCov_unit_zero (S := S1x256) _ hz0, View.readAt_eq_ld, Memref.IsWhole.read_unread, read_sc0, read_sc1,
    View.ld_unit_zero (S := S4000x256) hz0, View.ld_unit_zero (S := S1x256) hz0]
  try rfl

/-- A point between: the running sum of h is increased by the block's column sums. -/
theorem ptB_s0 (c : Dev nD) (t : Fin cfg0.N) (hc0 : ¬cond0_0 (grid0.coords t)) (hc1 : ¬cond0_1 (grid0.coords t)) (xs0 xs1 : Vec F S1x256 .f32) : (ptB V c t hc0 hc1 xs0 xs1).2.2.2.1 = S0next V c t xs0 := by
  unfold ptB
  dsimp only
  rw [View.read_writes_eq_canon _ _ _ (coverB_s0 c t hc0 hc1 _ _ _ _ _ xs0 xs1)]
  unfold runB kernelRun0_B
  dsimp only
  try sl_unfold_words
  rw [View.canon_cons_unit_zero hz0]
  simp only [View.readCov_unit_zero (S := S1x256) _ hz0, View.readAt_eq_ld, Memref.IsWhole.read_unread, read_sc0, read_sc1,
    View.ld_unit_zero (S := S4000x256) hz0, View.ld_unit_zero (S := S1x256) hz0]
  try rfl

/-- A point between: the running sum of h·h is increased by the block's column sums of squares. -/
theorem ptB_s1 (c : Dev nD) (t : Fin cfg0.N) (hc0 : ¬cond0_0 (grid0.coords t)) (hc1 : ¬cond0_1 (grid0.coords t)) (xs0 xs1 : Vec F S1x256 .f32) : (ptB V c t hc0 hc1 xs0 xs1).2.2.2.2 = S1next V c t xs1 := by
  unfold ptB
  dsimp only
  rw [View.read_writes_eq_canon _ _ _ (coverB_s1 c t hc0 hc1 _ _ _ _ _ xs0 xs1)]
  unfold runB kernelRun0_B
  dsimp only
  try sl_unfold_words
  rw [View.canon_cons_unit_zero hz0]
  simp only [View.readCov_unit_zero (S := S1x256) _ hz0, View.readAt_eq_ld, Memref.IsWhole.read_unread, read_sc0, read_sc1,
    View.ld_unit_zero (S := S4000x256) hz0, View.ld_unit_zero (S := S1x256) hz0]
  try rfl

/-- The first point: the layer-output block. -/
theorem ptA_h (c : Dev nD) (t : Fin cfg0.N) (hc0 : cond0_0 (grid0.coords t)) (hc1 : ¬cond0_1 (grid0.coords t)) : (ptA V c t hc0 hc1).1 = H0 V c t := by
  unfold ptA
  dsimp only
  rw [View.read_writes_eq_canon _ _ _ (coverA_5 c t hc0 hc1 _ _ _ _ _)]
  unfold runA kernelRun0_A
  dsimp only
  try sl_unfold_words
  rw [View.canon_cons_unit_zero hz0]
  simp only [View.readCov_unit_zero (S := S1x256) _ hz0, View.readAt_eq_ld, Memref.IsWhole.read_unread, read_sc0, read_sc1,
    View.ld_unit_zero (S := S4000x256) hz0, View.ld_unit_zero (S := S1x256) hz0]
  try rfl

/-- The first point: the running sum of h starts from the cleared buffer. -/
theorem ptA_s0 (c : Dev nD) (t : Fin cfg0.N) (hc0 : cond0_0 (grid0.coords t)) (hc1 : ¬cond0_1 (grid0.coords t)) : (ptA V c t hc0 hc1).2.2.2.1 = S0next V c t k0_pay5 := by
  unfold ptA
  dsimp only
  rw [View.read_writes_eq_canon _ _ _ (coverA_s0 c t hc0 hc1 _ _ _ _ _)]
  unfold runA kernelRun0_A
  dsimp only
  try sl_unfold_words
  rw [View.canon_cons_unit_zero hz0]
  simp only [View.readCov_unit_zero (S := S1x256) _ hz0, View.readAt_eq_ld, Memref.IsWhole.read_unread, read_sc0, read_sc1,
    View.ld_unit_zero (S := S4000x256) hz0, View.ld_unit_zero (S := S1x256) hz0]
  try rfl

/-- The first point: the running sum of h·h starts from the cleared buffer. -/
theorem ptA_s1 (c : Dev nD) (t : Fin cfg0.N) (hc0 : cond0_0 (grid0.coords t)) (hc1 : ¬cond0_1 (grid0.coords t)) : (ptA V c t hc0 hc1).2.2.2.2 = S1next V c t k0_pay6 := by
  unfold ptA
  dsimp only
  rw [View.read_writes_eq_canon _ _ _ (coverA_s1 c t hc0 hc1 _ _ _ _ _)]
  unfold runA kernelRun0_A
  dsimp only
  try sl_unfold_words
  rw [View.canon_cons_unit_zero hz0]
  simp only [View.readCov_unit_zero (S := S1x256) _ hz0, View.readAt_eq_ld, Memref.IsWhole.read_unread, read_sc0, read_sc1,
    View.ld_unit_zero (S := S4000x256) hz0, View.ld_unit_zero (S := S1x256) hz0]
  try rfl

/-- The last point: the layer-output block. -/
theorem ptC_h (c : Dev nD) (t : Fin cfg0.N) (hc0 : ¬cond0_0 (grid0.coords t)) (hc1 : cond0_1 (grid0.coords t)) (xs0 xs1 : Vec F S1x256 .f32) : (ptC V c t hc0 hc1 xs0 xs1).1 = H0 V c t := by
  unfold ptC
  dsimp only
  rw [View.read_writes_eq_canon _ _ _ (coverC_5 c t hc0 hc1 _ _ _ _ _ xs0 xs1)]
  unfold runC kernelRun0_C
  dsimp only
  try sl_unfold_words
  rw [View.canon_cons_unit_zero hz0]
  simp only [View.readCov_unit_zero (S := S1x256) _ hz0, View.readAt_eq_ld, Memref.IsWhole.read_unread, read_sc0, read_sc1,
    View.ld_unit_zero (S := S4000x256) hz0, View.ld_unit_zero (S := S1x256) hz0]
  try rfl

/-- The last point: the running sum of h. -/
theorem ptC_s0 (c : Dev nD) (t : Fin cfg0.N) (hc0 : ¬cond0_0 (grid0.coords t)) (hc1 : cond0_1 (grid0.coords t)) (xs0 xs1 : Vec F S1x256 .f32) : (ptC V c t hc0 hc1 xs0 xs1).2.2.2.1 = S0next V c t xs0 := by
  unfold ptC
  dsimp only
  rw [View.read_writes_eq_canon _ _ _ (coverC_s0 c t hc0 hc1 _ _ _ _ _ xs0 xs1)]
  unfold runC kernelRun0_C
  dsimp only
  try sl_unfold_words
  rw [View.canon_cons_unit_zero hz0]
  simp only [View.readCov_unit_zero (S := S1x256) _ hz0, View.readAt_eq_ld, Memref.IsWhole.read_unread, read_sc0, read_sc1,
    View.ld_unit_zero (S := S4000x256) hz0, View.ld_unit_zero (S := S1x256) hz0]
  try rfl

/-- The last point: the running sum of h·h. -/
theorem ptC_s1 (c : Dev nD) (t : Fin cfg0.N) (hc0 : ¬cond0_0 (grid0.coords t)) (hc1 : cond0_1 (grid0.coords t)) (xs0 xs1 : Vec F S1x256 .f32) : (ptC V c t hc0 hc1 xs0 xs1).2.2.2.2 = S1next V c t xs1 := by
  unfold ptC
  dsimp only
  rw [View.read_writes_eq_canon _ _ _ (coverC_s1 c t hc0 hc1 _ _ _ _ _ xs0 xs1)]
  unfold runC kernelRun0_C
  dsimp only
  try sl_unfold_words
  rw [View.canon_cons_unit_zero hz0]
  simp only [View.readCov_unit_zero (S := S1x256) _ hz0, View.readAt_eq_ld, Memref.IsWhole.read_unread, read_sc0, read_sc1,
    View.ld_unit_zero (S := S4000x256) hz0, View.ld_unit_zero (S := S1x256) hz0]
  try rfl

/-- The last point: the mean row, from the new total of h. -/
theorem ptC_mean (c : Dev nD) (t : Fin cfg0.N) (hc0 : ¬cond0_0 (grid0.coords t)) (hc1 : cond0_1 (grid0.coords t)) (xs0 xs1 : Vec F S1x256 .f32) : (ptC V c t hc0 hc1 xs0 xs1).2.1 = k0_pay3 (S0next V c t xs0) := by
  unfold ptC
  dsimp only
  rw [View.read_writes_eq_canon _ _ _ (coverC_6 c t hc0 hc1 _ _ _ _ _ xs0 xs1)]
  unfold runC kernelRun0_C
  dsimp only
  try sl_unfold_words
  rw [View.canon_cons_unit_zero hz0]
  simp only [View.readCov_unit_zero (S := S1x256) _ hz0, View.readAt_eq_ld, Memref.IsWhole.read_unread, read_sc0, read_sc1,
    View.ld_unit_zero (S := S4000x256) hz0, View.ld_unit_zero (S := S1x256) hz0]
  try rfl

/-- The last point: the variance row, from the two new totals. -/
theorem ptC_var (c : Dev nD) (t : Fin cfg0.N) (hc0 : ¬cond0_0 (grid0.coords t)) (hc1 : cond0_1 (grid0.coords t)) (xs0 xs1 : Vec F S1x256 .f32) : (ptC V c t hc0 hc1 xs0 xs1).2.2.1 = k0_pay4 (S0next V c t xs0) (S1next V c t xs1) := by
  unfold ptC
  dsimp only
  rw [View.read_writes_eq_canon _ _ _ (coverC_7 c t hc0 hc1 _ _ _ _ _ xs0 xs1)]
  unfold runC kernelRun0_C
  dsimp only
  try sl_unfold_words
  rw [View.canon_cons_unit_zero hz0]
  simp only [View.readCov_unit_zero (S := S1x256) _ hz0, View.readAt_eq_ld, Memref.IsWhole.read_unread, read_sc0, read_sc1,
    View.ld_unit_zero (S := S4000x256) hz0, View.ld_unit_zero (S := S1x256) hz0]
  try rfl

end Pieces0

end Cert.KernelIdeal.Hand

end
-- ==== Proof.LibSumBlocks.lean ====
/-
  Finite sums over array index sets, re-indexed. Three general facts, for any commutative additive monoid (so also for
  the extended reals, where no finiteness condition is needed):
    * a sum over `n = a * b` positions is the sum over `a` blocks of the sums over each block's `b` positions
      (`sum_fin_blocks`; stated with the hypothesis `n = a * b` so that a large literal `n` is never factored by evaluation);
    * a sum over the index set of a rank-1 shape `[n]` is the sum over its one coordinate (`sum_idx1`, beside the
      library's `sum_idx2` for rank 2);
    * a reshape only renames indices, so a sum over the reshaped array's index set is the sum over the original's
      (`sum_reshape`, and `sum_shapeCast` for a function of the array's entries).
-/
import Idealize.ShloMosaic.Lib.Pipeline.Value
import Idealize.ShloMosaic.Lib.ValueIdx
import Mathlib.Algebra.BigOperators.Fin

noncomputable section

open scoped BigOperators

namespace Cert.LibSumBlocks

open Idealize.ShloMosaic Idealize.ShloMosaic.ValueIdx

/-- Position `q` of block `p`, of `a` blocks of `b`, is below `a * b`. -/
theorem mul_add_lt {a b : ℕ} (p : Fin a) (q : Fin b) : p.val * b + q.val < a * b :=
  calc p.val * b + q.val < p.val * b + b := Nat.add_lt_add_left q.isLt _
    _ = (p.val + 1) * b := by ring
    _ ≤ a * b := Nat.mul_le_mul_right b p.isLt

/-- A sum over `n = a * b` indices is the sum over the `a` blocks of the sums over each block's `b` positions. -/
theorem sum_fin_blocks {M : Type*} [AddCommMonoid M] {n a b : ℕ} (hn : n = a * b) (f : Fin n → M) :
    ∑ k : Fin n, f k = ∑ p : Fin a, ∑ q : Fin b, f ⟨p.val * b + q.val, hn ▸ mul_add_lt p q⟩ := by
  subst hn
  rw [← finProdFinEquiv.sum_comp, Fintype.sum_prod_type]
  refine Finset.sum_congr rfl fun p _ => Finset.sum_congr rfl fun q _ => ?_
  congr 1
  apply Fin.ext
  show q.val + b * p.val = p.val * b + q.val
  rw [Nat.mul_comm, Nat.add_comm]

/-- A rank-1 index set is its one coordinate's range … -/
def idxEquiv1 {n : Nat} : (⟨1, ![n]⟩ : Shape).Idx ≃ Fin n where
  toFun i := i 0
  invFun l := ix1 l
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ l : Fin n, f (ix1 l) :=
  (Equiv.sum_comp (idxEquiv1 (n := n)).symm f).symm

/-- A reshape renames indices one to one: summing a function of the original index over the reshaped index set is
    summing it over the original one. -/
theorem sum_reshape {M : Type*} [AddCommMonoid M] {s t : Shape} (h : s.ShapeCasts t) (f : s.Idx → M) :
    ∑ j : t.Idx, f (Shape.reshapeEquiv h j) = ∑ i : s.Idx, f i :=
  Equiv.sum_comp (Shape.reshapeEquiv h) f

/-- The total of a function of the entries of a reshaped array is its total over the original array. -/
theorem sum_shapeCast {M : Type*} [AddCommMonoid M] {s t : Shape} {α : Type} (x : s.Idx → α) (h : s.ShapeCasts t)
    (g : α → M) : ∑ j : t.Idx, g (shapeCast t x h j) = ∑ i : s.Idx, g (x i) := by
  unfold shapeCast
  exact sum_reshape h fun i => g (x i)

end Cert.LibSumBlocks

end
-- ==== Proof.KI.Val0Sum.lean ====
/-
  The first region's three output arrays as functions of the arrays it finds: the layer-output array row by row; the
  running column sums after each grid point (the sum over the blocks so far), hence after the last point the sums
  over all 40000 rows; the mean row and the variance row written from them.
-/
import proofs.«107287_j91061896610587_1_alg».proof.Proof.KI.Val0
import proofs.«107287_j91061896610587_1_alg».proof.Proof.KI.Val0Pieces
import proofs.«107287_j91061896610587_1_alg».proof.Proof.KI.HrowDef
import proofs.«107287_j91061896610587_1_alg».proof.Proof.LibSumBlocks

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## The three row blocks of the weight array -/

theorem rW0_idx (k q : Fin 256) : (rW0.idx (ix2 k q) : S768x256.Idx) = ix2 (Cert.Spec.wrow 0 k) q := by
  funext a; apply Fin.ext
  match a with
  | ⟨0, _⟩ => simp only [LoadRect.idx_apply, Rect.emb_apply, Rect.off_unit, Rect.stride_unit, Nat.one_mul]; simp [Cert.Spec.wrow]
  | ⟨1, _⟩ => simp only [LoadRect.idx_apply, Rect.emb_apply, Rect.off_unit, Rect.stride_unit, Nat.one_mul]; simp
theorem rW1_idx (k q : Fin 256) : (rW1.idx (ix2 k q) : S768x256.Idx) = ix2 (Cert.Spec.wrow 1 k) q := by
  funext a; apply Fin.ext
  match a with
  | ⟨0, _⟩ => simp only [LoadRect.idx_apply, Rect.emb_apply, Rect.off_unit, Rect.stride_unit, Nat.one_mul]; simp [Cert.Spec.wrow]
  | ⟨1, _⟩ => simp only [LoadRect.idx_apply, Rect.emb_apply, Rect.off_unit, Rect.stride_unit, Nat.one_mul]; simp
theorem rW2_idx (k q : Fin 256) : (rW2.idx (ix2 k q) : S768x256.Idx) = ix2 (Cert.Spec.wrow 2 k) q := by
  funext a; apply Fin.ext
  match a with
  | ⟨0, _⟩ => simp only [LoadRect.idx_apply, Rect.emb_apply, Rect.off_unit, Rect.stride_unit, Nat.one_mul]; simp [Cert.Spec.wrow]
  | ⟨1, _⟩ => simp only [LoadRect.idx_apply, Rect.emb_apply, Rect.off_unit, Rect.stride_unit, Nat.one_mul]; simp

theorem wA_at (t : Fin cfg0.N) (k q : Fin 256) : (wA V c t : S256x256.Idx → EReal) (ix2 k q) = wIn V c (ix2 (Cert.Spec.wrow 0 k) q) := by
  show (iblk0 V c 3 t : S768x256.Idx → EReal) (rW0.idx (ix2 k q)) = _
  rw [rW0_idx, iblk0_3_apply]
theorem wB_at (t : Fin cfg0.N) (k q : Fin 256) : (wB V c t : S256x256.Idx → EReal) (ix2 k q) = wIn V c (ix2 (Cert.Spec.wrow 1 k) q) := by
  show (iblk0 V c 3 t : S768x256.Idx → EReal) (rW1.idx (ix2 k q)) = _
  rw [rW1_idx, iblk0_3_apply]
theorem wC_at (t : Fin cfg0.N) (k q : Fin 256) : (wC V c t : S256x256.Idx → EReal) (ix2 k q) = wIn V c (ix2 (Cert.Spec.wrow 2 k) q) := by
  show (iblk0 V c 3 t : S768x256.Idx → EReal) (rW2.idx (ix2 k q)) = _
  rw [rW2_idx, iblk0_3_apply]

/-! ## The block of the layer's output at a grid point -/

/-- The point's five loaded blocks at their index types. -/
abbrev x0B (t : Fin cfg0.N) : S4000x256.Idx → EReal := iblk0 V c 0 t
abbrev x1B (t : Fin cfg0.N) : S4000x256.Idx → EReal := iblk0 V c 1 t
abbrev x2B (t : Fin cfg0.N) : S4000x256.Idx → EReal := iblk0 V c 2 t
abbrev x4B (t : Fin cfg0.N) : S1x256.Idx → EReal := iblk0 V c 4 t
abbrev wAB (t : Fin cfg0.N) : S256x256.Idx → EReal := wA V c t
abbrev wBB (t : Fin cfg0.N) : S256x256.Idx → EReal := wB V c t
abbrev wCB (t : Fin cfg0.N) : S256x256.Idx → EReal := wC V c t

theorem H0_at (t : Fin cfg0.N) (p : Fin 4000) (q : Fin 256) :
    (H0 V c t : S4000x256.Idx → EReal) (ix2 p q) = Hrow V c ⟨4000 * t.val + p.val, row_lt t p⟩ q := by
  have e0 : ∀ k : Fin 256, x0B V c t (ix2 p k) * wAB V c t (ix2 k q)
      = ndIn V c (ix2 ⟨4000 * t.val + p.val, row_lt t p⟩ k) * wIn V c (ix2 (Cert.Spec.wrow 0 k) q) := fun k => by
    rw [show x0B V c t (ix2 p k) = _ from iblk0_0_apply V c t p k, show wAB V c t (ix2 k q) = _ from wA_at V c t k q]
  have e1 : ∀ k : Fin 256, x1B V c t (ix2 p k) * wBB V c t (ix2 k q)
      = psIn V c (ix2 ⟨4000 * t.val + p.val, row_lt t p⟩ k) * wIn V c (ix2 (Cert.Spec.wrow 1 k) q) := fun k => by
    rw [show x1B V c t (ix2 p k) = _ from iblk0_1_apply V c t p k, show wBB V c t (ix2 k q) = _ from wB_at V c t k q]
  have e2 : ∀ k : Fin 256, x2B V c t (ix2 p k) * wCB V c t (ix2 k q)
      = anIn V c (ix2 ⟨4000 * t.val + p.val, row_lt t p⟩ k) * wIn V c (ix2 (Cert.Spec.wrow 2 k) q) := fun k => by
    rw [show x2B V c t (ix2 p k) = _ from iblk0_2_apply V c t p k, show wCB V c t (ix2 k q) = _ from wC_at V c t k q]
  have e4 : x4B V c t (ix2 (0 : Fin 1) q) = bIn V c (ix2 (0 : Fin 1) q) := iblk0_4_apply V c t q
  calc (H0 V c t : S4000x256.Idx → EReal) (ix2 p q)
      = (((∑ k : Fin 256, x0B V c t (ix2 p k) * wAB V c t (ix2 k q))
          + (∑ k : Fin 256, x1B V c t (ix2 p k) * wBB V c t (ix2 k q)))
          + (∑ k : Fin 256, x2B V c t (ix2 p k) * wCB V c t (ix2 k q)))
          + x4B V c t (ix2 (0 : Fin 1) q) :=
        Pay.dense_at (wAB V c t) (wBB V c t) (wCB V c t) (x0B V c t) (x1B V c t) (x2B V c t) (x4B V c t) p q
    _ = Hrow V c ⟨4000 * t.val + p.val, row_lt t p⟩ q := by
        rw [Finset.sum_congr rfl (fun k _ => e0 k), Finset.sum_congr rfl (fun k _ => e1 k), Finset.sum_congr rfl (fun k _ => e2 k), e4]
        rfl

theorem out5_eq (t : Fin cfg0.N) : (outsAt0 V c t.val t.isLt).1 = H0 V c t := by
  have hN : t.val < 10 := lt_of_lt_of_eq t.isLt N0_eq
  by_cases hz : t.val = 0
  · have hc0 : cond0_0 (grid0.coords t) := (hcond0_0 t).mpr (by omega)
    have hc1 : ¬cond0_1 (grid0.coords t) := fun h => by have h' := (hcond0_1 t).mp h; omega
    rw [outsAt0_A V c t hz hc0 hc1, ptA_h]
  · have hc0 : ¬cond0_0 (grid0.coords t) := fun h => by have h' := (hcond0_0 t).mp h; omega
    by_cases h9 : t.val % 10 = 9
    · rw [outsAt0_C V c t hz h9 hc0 ((hcond0_1 t).mpr h9), ptC_h]
    · rw [outsAt0_B V c t hz h9 hc0 (fun h => h9 ((hcond0_1 t).mp h)), ptB_h]

/-- The layer-output array after the region, row by row. -/
theorem Z5 (r : Fin 40000) (q : Fin 256) : ((dat0 V c).arrAt 5 cfg0.N : S40000x256.Idx → EReal) (ix2 r q) = Hrow V c r q := by
  rw [arr5_of V c (fun i => Hrow V c (i 0) (i 1)) (fun t p q => by rw [after0_5, out5_eq, H0_at])]

/-! ## The running column sums -/

/-- The column sums of the block at point `t`. -/
def bsum (t : Fin cfg0.N) (q : Fin 256) : EReal := ∑ p : Fin 4000, Hrow V c ⟨4000 * t.val + p.val, row_lt t p⟩ q
def bsq (t : Fin cfg0.N) (q : Fin 256) : EReal :=
  ∑ p : Fin 4000, Hrow V c ⟨4000 * t.val + p.val, row_lt t p⟩ q * Hrow V c ⟨4000 * t.val + p.val, row_lt t p⟩ q

theorem S0next_at (t : Fin cfg0.N) (xs0 : S1x256.Idx → EReal) (q : Fin 256) :
    (S0next V c t xs0 : S1x256.Idx → EReal) (ix2 (0 : Fin 1) q) = xs0 (ix2 (0 : Fin 1) q) + bsum V c t q := by
  show (k0_pay1 (k0_pay8 (wA V c t) (wB V c t) (wC V c t) (iblk0 V c 0 t) (iblk0 V c 1 t) (iblk0 V c 2 t) (iblk0 V c 4 t) xs0) : S1x256.Idx → EReal) (ix2 (0 : Fin 1) q) = _
  rw [Pay.carry_eq]
  refine (Pay.sumAcc_at (wA V c t) (wB V c t) (wC V c t) (iblk0 V c 0 t) (iblk0 V c 1 t) (iblk0 V c 2 t) (iblk0 V c 4 t) xs0 q).trans ?_
  congr 1
  exact Finset.sum_congr rfl fun p _ => H0_at V c t p q

theorem S1next_at (t : Fin cfg0.N) (xs1 : S1x256.Idx → EReal) (q : Fin 256) :
    (S1next V c t xs1 : S1x256.Idx → EReal) (ix2 (0 : Fin 1) q) = xs1 (ix2 (0 : Fin 1) q) + bsq V c t q := by
  refine (Pay.sqAcc_at (H0 V c t) xs1 q).trans ?_
  congr 1
  exact Finset.sum_congr rfl fun p _ => by rw [H0_at V c t p q]

/-- The summand of the running sums at position `t` (zero past the grid). -/
def term0 (q : Fin 256) (t : ℕ) : EReal := if h : t < cfg0.N then bsum V c ⟨t, h⟩ q else 0
def term1 (q : Fin 256) (t : ℕ) : EReal := if h : t < cfg0.N then bsq V c ⟨t, h⟩ q else 0

theorem sums_at : ∀ (n : ℕ) (hn : n < cfg0.N) (q : Fin 256),
    ((outsAt0 V c n hn).2.2.2.1 : S1x256.Idx → EReal) (ix2 (0 : Fin 1) q) = ∑ t ∈ Finset.range (n + 1), term0 V c q t
    ∧ ((outsAt0 V c n hn).2.2.2.2 : S1x256.Idx → EReal) (ix2 (0 : Fin 1) q) = ∑ t ∈ Finset.range (n + 1), term1 V c q t := by
  intro n
  induction n with
  | zero =>
    intro hn q
    have hc0 : cond0_0 (grid0.coords (⟨0, hn⟩ : Fin cfg0.N)) := (hcond0_0 ⟨0, hn⟩).mpr (Nat.zero_mod _)
    have hc1 : ¬cond0_1 (grid0.coords (⟨0, hn⟩ : Fin cfg0.N)) := fun h => by have h' := (hcond0_1 ⟨0, hn⟩).mp h; (try dsimp only at h'); omega
    have e : outsAt0 V c 0 hn = ptA V c ⟨0, hn⟩ hc0 hc1 := outsAt0_A V c ⟨0, hn⟩ rfl hc0 hc1
    rw [e, ptA_s0, ptA_s1, S0next_at, S1next_at, Pay.sumInit_eq, Pay.sqInit_eq]
    simp only [Finset.sum_range_one, term0, term1, dif_pos hn, zero_add]
    exact ⟨trivial, trivial⟩
  | succ n ih =>
    intro hn q
    have hN : n + 1 < 10 := lt_of_lt_of_eq hn N0_eq
    have hc0 : ¬cond0_0 (grid0.coords (⟨n + 1, hn⟩ : Fin cfg0.N)) := not_first n hn
    obtain ⟨ih0, ih1⟩ := ih (Nat.lt_of_succ_lt hn) q
    rw [Finset.sum_range_succ (term0 V c q) (n + 1), Finset.sum_range_succ (term1 V c q) (n + 1), ← ih0, ← ih1]
    by_cases h9 : (n + 1) % 10 = 9
    · have hc1 : cond0_1 (grid0.coords (⟨n + 1, hn⟩ : Fin cfg0.N)) := (hcond0_1 ⟨n + 1, hn⟩).mpr h9
      have e : outsAt0 V c (n + 1) hn = ptC V c ⟨n + 1, hn⟩ hc0 hc1 (outsAt0 V c n (Nat.lt_of_succ_lt hn)).2.2.2.1 (outsAt0 V c n (Nat.lt_of_succ_lt hn)).2.2.2.2 :=
        outsAt0_C V c ⟨n + 1, hn⟩ (Nat.succ_ne_zero n) h9 hc0 hc1
      rw [e, ptC_s0, ptC_s1, S0next_at, S1next_at]
      simp only [term0, term1, dif_pos hn]
      exact ⟨trivial, trivial⟩
    · have hc1 : ¬cond0_1 (grid0.coords (⟨n + 1, hn⟩ : Fin cfg0.N)) := fun h => h9 ((hcond0_1 ⟨n + 1, hn⟩).mp h)
      have e : outsAt0 V c (n + 1) hn = ptB V c ⟨n + 1, hn⟩ hc0 hc1 (outsAt0 V c n (Nat.lt_of_succ_lt hn)).2.2.2.1 (outsAt0 V c n (Nat.lt_of_succ_lt hn)).2.2.2.2 :=
        outsAt0_B V c ⟨n + 1, hn⟩ (Nat.succ_ne_zero n) h9 hc0 hc1
      rw [e, ptB_s0, ptB_s1, S0next_at, S1next_at]
      simp only [term0, term1, dif_pos hn]
      exact ⟨trivial, trivial⟩

/-- Ten blocks of 4000 rows are the 40000 rows. -/
theorem total_rows (g : Fin 40000 → EReal) (G : (t : Fin cfg0.N) → EReal)
    (hG : ∀ t : Fin cfg0.N, G t = ∑ p : Fin 4000, g ⟨4000 * t.val + p.val, row_lt t p⟩) :
    ∑ t ∈ Finset.range 10, (if h : t < cfg0.N then G ⟨t, h⟩ else 0) = ∑ r : Fin 40000, g r := by
  have hN : cfg0.N = 10 := N0_eq
  rw [Finset.sum_range, Cert.LibSumBlocks.sum_fin_blocks (show 40000 = 10 * 4000 by norm_num) g]
  refine Finset.sum_congr rfl fun t _ => ?_
  rw [dif_pos (by rw [hN]; exact t.isLt), hG]
  refine Finset.sum_congr rfl fun p _ => ?_
  congr 1
  apply Fin.ext
  show 4000 * t.val + p.val = t.val * 4000 + p.val
  omega

/-! ## The mean and the variance rows -/

theorem last_lt : 9 < cfg0.N := by rw [N0_eq]; norm_num

theorem lastC : ∃ (hc0 : ¬cond0_0 (grid0.coords (⟨9, last_lt⟩ : Fin cfg0.N))) (hc1 : cond0_1 (grid0.coords (⟨9, last_lt⟩ : Fin cfg0.N))),
    outsAt0 V c 9 last_lt = ptC V c ⟨9, last_lt⟩ hc0 hc1 (outsAt0 V c 8 (Nat.lt_of_succ_lt last_lt)).2.2.2.1 (outsAt0 V c 8 (Nat.lt_of_succ_lt last_lt)).2.2.2.2 :=
  ⟨not_first 8 last_lt, (hcond0_1 ⟨9, last_lt⟩).mpr (by rfl), outsAt0_C V c ⟨9, last_lt⟩ (by decide) (by rfl) _ _⟩

theorem mean_from_sum : (outsAt0 V c 9 last_lt).2.1 = k0_pay3 (outsAt0 V c 9 last_lt).2.2.2.1 := by
  obtain ⟨hc0, hc1, e⟩ := lastC V c
  rw [e, ptC_mean, ptC_s0]
theorem var_from_sums : (outsAt0 V c 9 last_lt).2.2.1 = k0_pay4 (outsAt0 V c 9 last_lt).2.2.2.1 (outsAt0 V c 9 last_lt).2.2.2.2 := by
  obtain ⟨hc0, hc1, e⟩ := lastC V c
  rw [e, ptC_var, ptC_s0, ptC_s1]

theorem sum0_total (q : Fin 256) : ((outsAt0 V c 9 last_lt).2.2.2.1 : S1x256.Idx → EReal) (ix2 (0 : Fin 1) q) = ∑ r : Fin 40000, Hrow V c r q := by
  rw [(sums_at V c 9 last_lt q).1]
  exact total_rows (fun r => Hrow V c r q) (fun t => bsum V c t q) (fun t => rfl)
theorem sum1_total (q : Fin 256) : ((outsAt0 V c 9 last_lt).2.2.2.2 : S1x256.Idx → EReal) (ix2 (0 : Fin 1) q) = ∑ r : Fin 40000, Hrow V c r q * Hrow V c r q := by
  rw [(sums_at V c 9 last_lt q).2]
  exact total_rows (fun r => Hrow V c r q * Hrow V c r q) (fun t => bsq V c t q) (fun t => rfl)

theorem Z6 (q : Fin 256) : ((dat0 V c).arrAt 6 cfg0.N : S1x256.Idx → EReal) (ix2 (0 : Fin 1) q) = meanRow V c q := by
  rw [arr6_of V c (fun i => meanRow V c (i 1)) (fun t h9 q => by
    obtain rfl : t = ⟨9, last_lt⟩ := Fin.ext h9
    rw [after0_6]
    show ((outsAt0 V c 9 last_lt).2.1 : S1x256.Idx → EReal) (ix2 (0 : Fin 1) q) = meanRow V c q
    rw [mean_from_sum, Pay.mean_at, sum0_total]; rfl)]

theorem Z7 (q : Fin 256) : ((dat0 V c).arrAt 7 cfg0.N : S1x256.Idx → EReal) (ix2 (0 : Fin 1) q) = varRow V c q := by
  rw [arr7_of V c (fun i => varRow V c (i 1)) (fun t h9 q => by
    obtain rfl : t = ⟨9, last_lt⟩ := Fin.ext h9
    rw [after0_7]
    show ((outsAt0 V c 9 last_lt).2.2.1 : S1x256.Idx → EReal) (ix2 (0 : Fin 1) q) = varRow V c q
    rw [var_from_sums, Pay.var_at, sum0_total, sum1_total]; rfl)]

end Cert.KernelIdeal.Hand

end
-- ==== Proof.RefOps.lean ====
/-
  The reference's host program as a straight line of operations.

  The program's entry function is a sequence of operations on whole arrays; three helper functions it calls are
  written out at their call sites over the buffers of that call (the select of the weight sums against one, the
  variance with its own inner select, and the floor at zero). This module lists the operations in order, in two
  consecutive lines, and shows the entry function is exactly the two lines run one after the other.
-/
import proofs.«107287_j91061896610587_1_alg».proof.Proof.RefRes
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 83 operations: the neighbour average, the dense layer, its column means and variances, and the
    normalising factor spread over the rows. -/
abbrev ops0 : List (HloOp τ sig (Elt F)) :=
  [ StableHlo.unary main_arg6 main_v0 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v0 main_v1 rfl shapeCasts_S1x160000_S160000,
    StableHlo.unary main_arg6 main_v2 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v2 main_v3 rfl shapeCasts_S1x160000_S160000,
    StableHlo.nullary main_c (constantI S_ 32 0#32),
    StableHlo.unary main_c main_v4 (broadcastInDim S160000 ![] bcast_S_S160000 : (⟨S_, .i32⟩ : BufTy).Contents (Elt F) → (⟨S160000, .i32⟩ : BufTy).Contents (Elt F)),
    StableHlo.binary main_v1 main_v4 main_v5 (cmpi .slt : (⟨S160000, .i32⟩ : BufTy).Contents (Elt F) → (⟨S160000, .i32⟩ : BufTy).Contents (Elt F) → (⟨S160000, .i1⟩ : BufTy).Contents (Elt F)),
    StableHlo.nullary main_c_0 (constantI S_ 32 10000#32),
    StableHlo.unary main_c_0 main_v6 (broadcastInDim S160000 ![] bcast_S_S160000 : (⟨S_, .i32⟩ : BufTy).Contents (Elt F) → (⟨S160000, .i32⟩ : BufTy).Contents (Elt F)),
    StableHlo.binary main_v1 main_v6 main_v7 (addi : (⟨S160000, .i32⟩ : BufTy).Contents (Elt F) → (⟨S160000, .i32⟩ : BufTy).Contents (Elt F) → (⟨S160000, .i32⟩ : BufTy).Contents (Elt F)),
    StableHlo.ternary main_v5 main_v7 main_v1 main_v8 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v8 main_v9 (broadcastInDim S160000x1 ![0] bcast_S160000_S160000x1_0 : (⟨S160000, .i32⟩ : BufTy).Contents (Elt F) → (⟨S160000x1, .i32⟩ : BufTy).Contents (Elt F)),
    StableHlo.binary main_arg0 main_v9 main_v10 ((fun x i => Host.gather gather_S4x10000x256_S160000x1_S4x160000x256_02_1_n_n_1_1_41256 x i) : (⟨S4x10000x256, .f32⟩ : BufTy).Contents (Elt F) → (⟨S160000x1, .i32⟩ : BufTy).Contents (Elt F) → (⟨S4x160000x256, .f32⟩ : BufTy).Contents (Elt F)),
    StableHlo.unary main_arg1 main_v11 (broadcastInDim S4x160000x1 ![0, 1] bcast_S4x160000_S4x160000x1_0_1 : (⟨S4x160000, .f32⟩ : BufTy).Contents (Elt F) → (⟨S4x160000x1, .f32⟩ : BufTy).Contents (Elt F)),
    StableHlo.unary main_v11 main_v12 (broadcastInDim S4x160000x256 ![0, 1, 2] bcast_S4x160000x1_S4x160000x256_0_1_2 : (⟨S4x160000x1, .f32⟩ : BufTy).Contents (Elt F) → (⟨S4x160000x256, .f32⟩ : BufTy).Contents (Elt F)),
    StableHlo.binary main_v10 main_v12 main_v13 (mulf : (⟨S4x160000x256, .f32⟩ : BufTy).Contents (Elt F) → (⟨S4x160000x256, .f32⟩ : BufTy).Contents (Elt F) → (⟨S4x160000x256, .f32⟩ : BufTy).Contents (Elt F)),
    StableHlo.nullary main_cst (constant S_ .f32 0x00000000#32),
    StableHlo.unary main_cst main_v14 (broadcastInDim S10000x256 ![] bcast_S_S10000x256 : (⟨S_, .f32⟩ : BufTy).Contents (Elt F) → (⟨S10000x256, .f32⟩ : BufTy).Contents (Elt F)),
    StableHlo.unary main_v3 main_v15 (broadcastInDim S160000x1 ![0] bcast_S160000_S160000x1_0 : (⟨S160000, .i32⟩ : BufTy).Contents (Elt F) → (⟨S160000x1, .i32⟩ : BufTy).Contents (Elt F)),
    StableHlo.unary main_v14 main_v16 (broadcastInDim S4x10000x256 ![1, 2] bcast_S10000x256_S4x10000x256_1_2 : (⟨S10000x256, .f32⟩ : BufTy).Contents (Elt F) → (⟨S4x10000x256, .f32⟩ : BufTy).Contents (Elt F)),
    StableHlo.ternary main_v16 main_v15 main_v13 main_v17 ((fun x i u => Host.scatterAdd scatter_S4x10000x256_S160000x1_S4x160000x256_02_1_1_1 x i u) : (⟨S4x10000x256, .f32⟩ : BufTy).Contents (Elt F) → (⟨S160000x1, .i32⟩ : BufTy).Contents (Elt F) → (⟨S4x160000x256, .f32⟩ : BufTy).Contents (Elt F) → (⟨S4x10000x256, .f32⟩ : BufTy).Contents (Elt F)),
    StableHlo.nullary main_cst_1 (constant S_ .f32 0x00000000#32),
    StableHlo.unary main_cst_1 main_v18 (broadcastInDim S10000 ![] bcast_S_S10000 : (⟨S_, .f32⟩ : BufTy).Contents (Elt F) → (⟨S10000, .f32⟩ : BufTy).Contents (Elt F)),
    StableHlo.unary main_v3 main_v19 (broadcastInDim S160000x1 ![0] bcast_S160000_S160000x1_0 : (⟨S160000, .i32⟩ : BufTy).Contents (Elt F) → (⟨S160000x1, .i32⟩ : BufTy).Contents (Elt F)),
    StableHlo.unary main_v18 main_v20 (broadcastInDim S4x10000 ![1] bcast_S10000_S4x10000_1 : (⟨S10000, .f32⟩ : BufTy).Contents (Elt F) → (⟨S4x10000, .f32⟩ : BufTy).Contents (Elt F)),
    StableHlo.ternary main_v20 main_v19 main_arg1 main_v21 ((fun x i u => Host.scatterAdd scatter_S4x10000_S160000x1_S4x160000_0_1_1_1 x i u) : (⟨S4x10000, .f32⟩ : BufTy).Contents (Elt F) → (⟨S160000x1, .i32⟩ : BufTy).Contents (Elt F) → (⟨S4x160000, .f32⟩ : BufTy).Contents (Elt F) → (⟨S4x10000, .f32⟩ : BufTy).Contents (Elt F)),
    StableHlo.nullary main_cst_2 (constant S_ .f32 0x00000000#32),
    StableHlo.unary main_cst_2 main_v22 (broadcastInDim S4x10000 ![] bcast_S_S4x10000 : (⟨S_, .f32⟩ : BufTy).Contents (Elt F) → (⟨S4x10000, .f32⟩ : BufTy).Contents (Elt F)),
    StableHlo.binary main_v21 main_v22 main_v23 (cmpf .oeq : (⟨S4x10000, .f32⟩ : BufTy).Contents (Elt F) → (⟨S4x10000, .f32⟩ : BufTy).Contents (Elt F) → (⟨S4x10000, .i1⟩ : BufTy).Contents (Elt F)),
    StableHlo.nullary main_cst_3 (constant S_ .f32 0x3F800000#32),
    StableHlo.TRef.unary (.of main_cst_3) main_call0.v0 id,
    StableHlo.TRef.unary main_call0.v0 main_call0.v1 (broadcastInDim S4x10000 ![] bcast_S_S4x10000),
    StableHlo.TRef.ternary (.of main_v23) main_call0.v1 (.of main_v21) main_call0.v2 select,
    StableHlo.unary main_v24 main_v25 (broadcastInDim S4x10000x1 ![0, 1] bcast_S4x10000_S4x10000x1_0_1 : (⟨S4x10000, .f32⟩ : BufTy).Contents (Elt F) → (⟨S4x10000x1, .f32⟩ : BufTy).Contents (Elt F)),
    StableHlo.unary main_v25 main_v26 (broadcastInDim S4x10000x256 ![0, 1, 2] bcast_S4x10000x1_S4x10000x256_0_1_2 : (⟨S4x10000x1, .f32⟩ : BufTy).Contents (Elt F) → (⟨S4x10000x256, .f32⟩ : BufTy).Contents (Elt F)),
    StableHlo.binary main_v17 main_v26 main_v27 (Host.divf : (⟨S4x10000x256, .f32⟩ : BufTy).Contents (Elt F) → (⟨S4x10000x256, .f32⟩ : BufTy).Contents (Elt F) → (⟨S4x10000x256, .f32⟩ : BufTy).Contents (Elt F)),
    StableHlo.nullary main_cst_4 (constant S_ .f32 0x00000000#32),
    StableHlo.unary main_cst_4 main_v28 (broadcastInDim S1x10000x256 ![] bcast_S_S1x10000x256 : (⟨S_, .f32⟩ : BufTy).Contents (Elt F) → (⟨S1x10000x256, .f32⟩ : BufTy).Contents (Elt F)),
    StableHlo.unary main_arg0 main_v29 ((extractStridedSlice S3x10000x256 ![1, 0, 0] · slices_S4x10000x256_S3x10000x256_1_0_0) : (⟨S4x10000x256, .f32⟩ : BufTy).Contents (Elt F) → (⟨S3x10000x256, .f32⟩ : BufTy).Contents (Elt F)),
    StableHlo.binary main_v28 main_v29 main_v30 ((fun a b => concatenate S4x10000x256 0 [⟨S1x10000x256, a⟩, ⟨S3x10000x256, b⟩] concatenates_S1x10000x256_S3x10000x256_S4x10000x256_d0) : (⟨S1x10000x256, .f32⟩ : BufTy).Contents (Elt F) → (⟨S3x10000x256, .f32⟩ : BufTy).Contents (Elt F) → (⟨S4x10000x256, .f32⟩ : BufTy).Contents (Elt F)),
    StableHlo.nary ![main_arg0, main_v30, main_v27] main_v31 (fun u => concatenate S4x10000x768 2 [⟨S4x10000x256, u 0⟩, ⟨S4x10000x256, u 1⟩, ⟨S4x10000x256, u 2⟩] concatenates_S4x10000x256_S4x10000x256_S4x10000x256_S4x10000x768_d2),
    StableHlo.reshape main_v31 main_v32 rfl shapeCasts_S4x10000x768_S40000x768,
    StableHlo.binary main_v32 main_arg2 main_v33 ((fun l r => Host.dotGeneral dot_S40000x768_S768x256_S40000x256_1_0_0_1_n_n none l r) : (⟨S40000x768, .f32⟩ : BufTy).Contents (Elt F) → (⟨S768x256, .f32⟩ : BufTy).Contents (Elt F) → (⟨S40000x256, .f32⟩ : BufTy).Contents (Elt F)),
    StableHlo.unary main_arg3 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S40000x256 ![0, 1] bcast_S1x256_S40000x256_0_1 : (⟨S1x256, .f32⟩ : BufTy).Contents (Elt F) → (⟨S40000x256, .f32⟩ : BufTy).Contents (Elt F)),
    StableHlo.binary main_v33 main_v35 main_v36 (addf : (⟨S40000x256, .f32⟩ : BufTy).Contents (Elt F) → (⟨S40000x256, .f32⟩ : BufTy).Contents (Elt F) → (⟨S40000x256, .f32⟩ : BufTy).Contents (Elt F)),
    StableHlo.nullary main_cst_5 (constant S_ .f32 0x00000000#32),
    StableHlo.binary main_v36 main_cst_5 main_v37 ((fun x v => Host.reduceAdd x v reducesTo_S40000x256_S256_d0 h_S_) : (⟨S40000x256, .f32⟩ : BufTy).Contents (Elt F) → (⟨S_, .f32⟩ : BufTy).Contents (Elt F) → (⟨S256, .f32⟩ : BufTy).Contents (Elt F)),
    StableHlo.nullary main_cst_6 (constant S_ .f32 0x471C4000#32),
    StableHlo.unary main_cst_6 main_v38 (broadcastInDim S256 ![] bcast_S_S256 : (⟨S_, .f32⟩ : BufTy).Contents (Elt F) → (⟨S256, .f32⟩ : BufTy).Contents (Elt F)),
    StableHlo.binary main_v37 main_v38 main_v39 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call1.cst (constant S_ .f32 0x00000000#32),
    StableHlo.TRef.binary (.of main_v36) main_call1.cst main_call1.v0 (fun x v => Host.reduceAdd x v reducesTo_S40000x256_S256_d0 h_S_),
    StableHlo.TRef.unary main_call1.v0 main_call1.v1 (broadcastInDim S1x256 ![1] bcast_S256_S1x256_1),
    StableHlo.TRef.nullary main_call1.cst_0 (constant S_ .f32 0x471C4000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S40000x256 ![0, 1] bcast_S1x256_S40000x256_0_1),
    StableHlo.TRef.binary (.of main_v36) main_call1.v4 main_call1.v5 subf,
    StableHlo.TRef.binary main_call1.v5 main_call1.v5 main_call1.v6 mulf,
    StableHlo.TRef.unary (.of main_c_7) main_call1.v7 (sitofp .f32),
    StableHlo.TRef.nullary main_call1.cst_1 (constant S_ .f32 0x471C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S40000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b),
    StableHlo.unary main_v39 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S40000x256 ![0, 1] bcast_S1x256_S40000x256_0_1 : (⟨S1x256, .f32⟩ : BufTy).Contents (Elt F) → (⟨S40000x256, .f32⟩ : BufTy).Contents (Elt F)),
    StableHlo.binary main_v36 main_v42 main_v43 (subf : (⟨S40000x256, .f32⟩ : BufTy).Contents (Elt F) → (⟨S40000x256, .f32⟩ : BufTy).Contents (Elt F) → (⟨S40000x256, .f32⟩ : BufTy).Contents (Elt F)),
    StableHlo.nullary main_cst_8 (constant S_ .f32 0x3727C5AC#32),
    StableHlo.unary main_cst_8 main_v44 (broadcastInDim S256 ![] bcast_S_S256 : (⟨S_, .f32⟩ : BufTy).Contents (Elt F) → (⟨S256, .f32⟩ : BufTy).Contents (Elt F)),
    StableHlo.binary main_v40 main_v44 main_v45 (addf : (⟨S256, .f32⟩ : BufTy).Contents (Elt F) → (⟨S256, .f32⟩ : BufTy).Contents (Elt F) → (⟨S256, .f32⟩ : BufTy).Contents (Elt F)),
    StableHlo.unary main_v45 main_v46 (Host.rsqrt : (⟨S256, .f32⟩ : BufTy).Contents (Elt F) → (⟨S256, .f32⟩ : BufTy).Contents (Elt F)),
    StableHlo.unary main_v46 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S40000x256 ![0, 1] bcast_S1x256_S40000x256_0_1 : (⟨S1x256, .f32⟩ : BufTy).Contents (Elt F) → (⟨S40000x256, .f32⟩ : BufTy).Contents (Elt F)) ]

/-- The last 11 operations: the normalisation, scale and shift, the floor at zero and the unflattening of the rows. -/
abbrev ops1 : List (HloOp τ sig (Elt F)) :=
  [ StableHlo.binary main_v43 main_v48 main_v49 (mulf : (⟨S40000x256, .f32⟩ : BufTy).Contents (Elt F) → (⟨S40000x256, .f32⟩ : BufTy).Contents (Elt F) → (⟨S40000x256, .f32⟩ : BufTy).Contents (Elt F)),
    StableHlo.unary main_arg4 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S40000x256 ![0, 1] bcast_S1x256_S40000x256_0_1 : (⟨S1x256, .f32⟩ : BufTy).Contents (Elt F) → (⟨S40000x256, .f32⟩ : BufTy).Contents (Elt F)),
    StableHlo.binary main_v49 main_v51 main_v52 (mulf : (⟨S40000x256, .f32⟩ : BufTy).Contents (Elt F) → (⟨S40000x256, .f32⟩ : BufTy).Contents (Elt F) → (⟨S40000x256, .f32⟩ : BufTy).Contents (Elt F)),
    StableHlo.unary main_arg5 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S40000x256 ![0, 1] bcast_S1x256_S40000x256_0_1 : (⟨S1x256, .f32⟩ : BufTy).Contents (Elt F) → (⟨S40000x256, .f32⟩ : BufTy).Contents (Elt F)),
    StableHlo.binary main_v52 main_v54 main_v55 (addf : (⟨S40000x256, .f32⟩ : BufTy).Contents (Elt F) → (⟨S40000x256, .f32⟩ : BufTy).Contents (Elt F) → (⟨S40000x256, .f32⟩ : BufTy).Contents (Elt F)),
    StableHlo.TRef.nullary main_call2.cst (constant S_ .f32 0x00000000#32),
    StableHlo.TRef.unary main_call2.cst main_call2.v0 (broadcastInDim S40000x256 ![] bcast_S_S40000x256),
    StableHlo.TRef.binary (.of main_v55) main_call2.v0 main_call2.v1 maximumf,
    StableHlo.reshape main_v56 main_v57 rfl shapeCasts_S40000x256_S4x10000x256 ]

set_option maxRecDepth 8192 in
set_option maxHeartbeats 4000000 in
/-- The first part of the entry function is the first line of operations: the helper functions unfolded at their
    calls, sequencing reassociated. -/
theorem part0_eq (c : Dev nD) : main_part0 (F := F) c = seq ops0 := by
  simp only [main_part0, fn_where.body, fn_var.body, fn_where_0.body, seq, bind_assoc, pure_bind]
  rfl

set_option maxRecDepth 8192 in
set_option maxHeartbeats 4000000 in
theorem part1_eq (c : Dev nD) : main_part1 (F := F) c = seq ops1 := by
  simp only [main_part1, fn_relu.body, seq, bind_assoc, pure_bind]

/-- The entry function is the two lines one after the other. -/
theorem main_eq (c : Dev nD) : main (F := F) c = seq (ops0 ++ ops1) := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., unary_bufs_sub .., ternary_bufs_sub .., nullary_bufs_sub .., unary_bufs_sub .., unary_bufs_sub .., unary_bufs_sub .., ternary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., binary_bufs_sub .., nary_bufs_sub .., reshape_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

theorem ops1_sub : (ops1 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., reshape_bufs_sub ..⟩

/-- Running two lines one after the other from the same contents: the second from where the first ends. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem ops_sub : (ops0 ++ ops1 : List (HloOp τ sig (Elt F))).Forall fun op => op.bufs ⊆ tcRefs τ sig :=
  List.forall_append.mpr ⟨ops0_sub, ops1_sub⟩

end Cert.ReferenceIdeal.RefRun

end
-- ==== Proof.RefWin.lean ====
/-
  The first line of the reference's operations cut into three consecutive windows.

  Window A computes the neighbour average and the previous-slab piece; window B places the three pieces side by side,
  flattens the rows and applies the dense layer; window C computes the column means and variances, the centred layer
  and the normalising factor. The first line is the three windows one after the other.
-/
import proofs.«107287_j91061896610587_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window A: operations 1 to 40, up to the neighbour average and the previous-slab piece. -/
abbrev wA : List (HloOp τ sig (Elt F)) :=
  [ StableHlo.unary main_arg6 main_v0 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v0 main_v1 rfl shapeCasts_S1x160000_S160000,
    StableHlo.unary main_arg6 main_v2 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v2 main_v3 rfl shapeCasts_S1x160000_S160000,
    StableHlo.nullary main_c (constantI S_ 32 0#32),
    StableHlo.unary main_c main_v4 (broadcastInDim S160000 ![] bcast_S_S160000 : (⟨S_, .i32⟩ : BufTy).Contents (Elt F) → (⟨S160000, .i32⟩ : BufTy).Contents (Elt F)),
    StableHlo.binary main_v1 main_v4 main_v5 (cmpi .slt : (⟨S160000, .i32⟩ : BufTy).Contents (Elt F) → (⟨S160000, .i32⟩ : BufTy).Contents (Elt F) → (⟨S160000, .i1⟩ : BufTy).Contents (Elt F)),
    StableHlo.nullary main_c_0 (constantI S_ 32 10000#32),
    StableHlo.unary main_c_0 main_v6 (broadcastInDim S160000 ![] bcast_S_S160000 : (⟨S_, .i32⟩ : BufTy).Contents (Elt F) → (⟨S160000, .i32⟩ : BufTy).Contents (Elt F)),
    StableHlo.binary main_v1 main_v6 main_v7 (addi : (⟨S160000, .i32⟩ : BufTy).Contents (Elt F) → (⟨S160000, .i32⟩ : BufTy).Contents (Elt F) → (⟨S160000, .i32⟩ : BufTy).Contents (Elt F)),
    StableHlo.ternary main_v5 main_v7 main_v1 main_v8 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v8 main_v9 (broadcastInDim S160000x1 ![0] bcast_S160000_S160000x1_0 : (⟨S160000, .i32⟩ : BufTy).Contents (Elt F) → (⟨S160000x1, .i32⟩ : BufTy).Contents (Elt F)),
    StableHlo.binary main_arg0 main_v9 main_v10 ((fun x i => Host.gather gather_S4x10000x256_S160000x1_S4x160000x256_02_1_n_n_1_1_41256 x i) : (⟨S4x10000x256, .f32⟩ : BufTy).Contents (Elt F) → (⟨S160000x1, .i32⟩ : BufTy).Contents (Elt F) → (⟨S4x160000x256, .f32⟩ : BufTy).Contents (Elt F)),
    StableHlo.unary main_arg1 main_v11 (broadcastInDim S4x160000x1 ![0, 1] bcast_S4x160000_S4x160000x1_0_1 : (⟨S4x160000, .f32⟩ : BufTy).Contents (Elt F) → (⟨S4x160000x1, .f32⟩ : BufTy).Contents (Elt F)),
    StableHlo.unary main_v11 main_v12 (broadcastInDim S4x160000x256 ![0, 1, 2] bcast_S4x160000x1_S4x160000x256_0_1_2 : (⟨S4x160000x1, .f32⟩ : BufTy).Contents (Elt F) → (⟨S4x160000x256, .f32⟩ : BufTy).Contents (Elt F)),
    StableHlo.binary main_v10 main_v12 main_v13 (mulf : (⟨S4x160000x256, .f32⟩ : BufTy).Contents (Elt F) → (⟨S4x160000x256, .f32⟩ : BufTy).Contents (Elt F) → (⟨S4x160000x256, .f32⟩ : BufTy).Contents (Elt F)),
    StableHlo.nullary main_cst (constant S_ .f32 0x00000000#32),
    StableHlo.unary main_cst main_v14 (broadcastInDim S10000x256 ![] bcast_S_S10000x256 : (⟨S_, .f32⟩ : BufTy).Contents (Elt F) → (⟨S10000x256, .f32⟩ : BufTy).Contents (Elt F)),
    StableHlo.unary main_v3 main_v15 (broadcastInDim S160000x1 ![0] bcast_S160000_S160000x1_0 : (⟨S160000, .i32⟩ : BufTy).Contents (Elt F) → (⟨S160000x1, .i32⟩ : BufTy).Contents (Elt F)),
    StableHlo.unary main_v14 main_v16 (broadcastInDim S4x10000x256 ![1, 2] bcast_S10000x256_S4x10000x256_1_2 : (⟨S10000x256, .f32⟩ : BufTy).Contents (Elt F) → (⟨S4x10000x256, .f32⟩ : BufTy).Contents (Elt F)),
    StableHlo.ternary main_v16 main_v15 main_v13 main_v17 ((fun x i u => Host.scatterAdd scatter_S4x10000x256_S160000x1_S4x160000x256_02_1_1_1 x i u) : (⟨S4x10000x256, .f32⟩ : BufTy).Contents (Elt F) → (⟨S160000x1, .i32⟩ : BufTy).Contents (Elt F) → (⟨S4x160000x256, .f32⟩ : BufTy).Contents (Elt F) → (⟨S4x10000x256, .f32⟩ : BufTy).Contents (Elt F)),
    StableHlo.nullary main_cst_1 (constant S_ .f32 0x00000000#32),
    StableHlo.unary main_cst_1 main_v18 (broadcastInDim S10000 ![] bcast_S_S10000 : (⟨S_, .f32⟩ : BufTy).Contents (Elt F) → (⟨S10000, .f32⟩ : BufTy).Contents (Elt F)),
    StableHlo.unary main_v3 main_v19 (broadcastInDim S160000x1 ![0] bcast_S160000_S160000x1_0 : (⟨S160000, .i32⟩ : BufTy).Contents (Elt F) → (⟨S160000x1, .i32⟩ : BufTy).Contents (Elt F)),
    StableHlo.unary main_v18 main_v20 (broadcastInDim S4x10000 ![1] bcast_S10000_S4x10000_1 : (⟨S10000, .f32⟩ : BufTy).Contents (Elt F) → (⟨S4x10000, .f32⟩ : BufTy).Contents (Elt F)),
    StableHlo.ternary main_v20 main_v19 main_arg1 main_v21 ((fun x i u => Host.scatterAdd scatter_S4x10000_S160000x1_S4x160000_0_1_1_1 x i u) : (⟨S4x10000, .f32⟩ : BufTy).Contents (Elt F) → (⟨S160000x1, .i32⟩ : BufTy).Contents (Elt F) → (⟨S4x160000, .f32⟩ : BufTy).Contents (Elt F) → (⟨S4x10000, .f32⟩ : BufTy).Contents (Elt F)),
    StableHlo.nullary main_cst_2 (constant S_ .f32 0x00000000#32),
    StableHlo.unary main_cst_2 main_v22 (broadcastInDim S4x10000 ![] bcast_S_S4x10000 : (⟨S_, .f32⟩ : BufTy).Contents (Elt F) → (⟨S4x10000, .f32⟩ : BufTy).Contents (Elt F)),
    StableHlo.binary main_v21 main_v22 main_v23 (cmpf .oeq : (⟨S4x10000, .f32⟩ : BufTy).Contents (Elt F) → (⟨S4x10000, .f32⟩ : BufTy).Contents (Elt F) → (⟨S4x10000, .i1⟩ : BufTy).Contents (Elt F)),
    StableHlo.nullary main_cst_3 (constant S_ .f32 0x3F800000#32),
    StableHlo.TRef.unary (.of main_cst_3) main_call0.v0 id,
    StableHlo.TRef.unary main_call0.v0 main_call0.v1 (broadcastInDim S4x10000 ![] bcast_S_S4x10000),
    StableHlo.TRef.ternary (.of main_v23) main_call0.v1 (.of main_v21) main_call0.v2 select,
    StableHlo.unary main_v24 main_v25 (broadcastInDim S4x10000x1 ![0, 1] bcast_S4x10000_S4x10000x1_0_1 : (⟨S4x10000, .f32⟩ : BufTy).Contents (Elt F) → (⟨S4x10000x1, .f32⟩ : BufTy).Contents (Elt F)),
    StableHlo.unary main_v25 main_v26 (broadcastInDim S4x10000x256 ![0, 1, 2] bcast_S4x10000x1_S4x10000x256_0_1_2 : (⟨S4x10000x1, .f32⟩ : BufTy).Contents (Elt F) → (⟨S4x10000x256, .f32⟩ : BufTy).Contents (Elt F)),
    StableHlo.binary main_v17 main_v26 main_v27 (Host.divf : (⟨S4x10000x256, .f32⟩ : BufTy).Contents (Elt F) → (⟨S4x10000x256, .f32⟩ : BufTy).Contents (Elt F) → (⟨S4x10000x256, .f32⟩ : BufTy).Contents (Elt F)),
    StableHlo.nullary main_cst_4 (constant S_ .f32 0x00000000#32),
    StableHlo.unary main_cst_4 main_v28 (broadcastInDim S1x10000x256 ![] bcast_S_S1x10000x256 : (⟨S_, .f32⟩ : BufTy).Contents (Elt F) → (⟨S1x10000x256, .f32⟩ : BufTy).Contents (Elt F)),
    StableHlo.unary main_arg0 main_v29 ((extractStridedSlice S3x10000x256 ![1, 0, 0] · slices_S4x10000x256_S3x10000x256_1_0_0) : (⟨S4x10000x256, .f32⟩ : BufTy).Contents (Elt F) → (⟨S3x10000x256, .f32⟩ : BufTy).Contents (Elt F)),
    StableHlo.binary main_v28 main_v29 main_v30 ((fun a b => concatenate S4x10000x256 0 [⟨S1x10000x256, a⟩, ⟨S3x10000x256, b⟩] concatenates_S1x10000x256_S3x10000x256_S4x10000x256_d0) : (⟨S1x10000x256, .f32⟩ : BufTy).Contents (Elt F) → (⟨S3x10000x256, .f32⟩ : BufTy).Contents (Elt F) → (⟨S4x10000x256, .f32⟩ : BufTy).Contents (Elt F)) ]

/-- Window B: operations 41 to 46, the three pieces side by side, the rows flattened, the dense layer. -/
abbrev wB : List (HloOp τ sig (Elt F)) :=
  [ StableHlo.nary ![main_arg0, main_v30, main_v27] main_v31 (fun u => concatenate S4x10000x768 2 [⟨S4x10000x256, u 0⟩, ⟨S4x10000x256, u 1⟩, ⟨S4x10000x256, u 2⟩] concatenates_S4x10000x256_S4x10000x256_S4x10000x256_S4x10000x768_d2),
    StableHlo.reshape main_v31 main_v32 rfl shapeCasts_S4x10000x768_S40000x768,
    StableHlo.binary main_v32 main_arg2 main_v33 ((fun l r => Host.dotGeneral dot_S40000x768_S768x256_S40000x256_1_0_0_1_n_n none l r) : (⟨S40000x768, .f32⟩ : BufTy).Contents (Elt F) → (⟨S768x256, .f32⟩ : BufTy).Contents (Elt F) → (⟨S40000x256, .f32⟩ : BufTy).Contents (Elt F)),
    StableHlo.unary main_arg3 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S40000x256 ![0, 1] bcast_S1x256_S40000x256_0_1 : (⟨S1x256, .f32⟩ : BufTy).Contents (Elt F) → (⟨S40000x256, .f32⟩ : BufTy).Contents (Elt F)),
    StableHlo.binary main_v33 main_v35 main_v36 (addf : (⟨S40000x256, .f32⟩ : BufTy).Contents (Elt F) → (⟨S40000x256, .f32⟩ : BufTy).Contents (Elt F) → (⟨S40000x256, .f32⟩ : BufTy).Contents (Elt F)) ]

/-- Window C: operations 47 to 83, the column means and variances, the centred layer, the normalising factor. -/
abbrev wC : List (HloOp τ sig (Elt F)) :=
  [ StableHlo.nullary main_cst_5 (constant S_ .f32 0x00000000#32),
    StableHlo.binary main_v36 main_cst_5 main_v37 ((fun x v => Host.reduceAdd x v reducesTo_S40000x256_S256_d0 h_S_) : (⟨S40000x256, .f32⟩ : BufTy).Contents (Elt F) → (⟨S_, .f32⟩ : BufTy).Contents (Elt F) → (⟨S256, .f32⟩ : BufTy).Contents (Elt F)),
    StableHlo.nullary main_cst_6 (constant S_ .f32 0x471C4000#32),
    StableHlo.unary main_cst_6 main_v38 (broadcastInDim S256 ![] bcast_S_S256 : (⟨S_, .f32⟩ : BufTy).Contents (Elt F) → (⟨S256, .f32⟩ : BufTy).Contents (Elt F)),
    StableHlo.binary main_v37 main_v38 main_v39 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call1.cst (constant S_ .f32 0x00000000#32),
    StableHlo.TRef.binary (.of main_v36) main_call1.cst main_call1.v0 (fun x v => Host.reduceAdd x v reducesTo_S40000x256_S256_d0 h_S_),
    StableHlo.TRef.unary main_call1.v0 main_call1.v1 (broadcastInDim S1x256 ![1] bcast_S256_S1x256_1),
    StableHlo.TRef.nullary main_call1.cst_0 (constant S_ .f32 0x471C4000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S40000x256 ![0, 1] bcast_S1x256_S40000x256_0_1),
    StableHlo.TRef.binary (.of main_v36) main_call1.v4 main_call1.v5 subf,
    StableHlo.TRef.binary main_call1.v5 main_call1.v5 main_call1.v6 mulf,
    StableHlo.TRef.unary (.of main_c_7) main_call1.v7 (sitofp .f32),
    StableHlo.TRef.nullary main_call1.cst_1 (constant S_ .f32 0x471C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S40000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b),
    StableHlo.unary main_v39 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S40000x256 ![0, 1] bcast_S1x256_S40000x256_0_1 : (⟨S1x256, .f32⟩ : BufTy).Contents (Elt F) → (⟨S40000x256, .f32⟩ : BufTy).Contents (Elt F)),
    StableHlo.binary main_v36 main_v42 main_v43 (subf : (⟨S40000x256, .f32⟩ : BufTy).Contents (Elt F) → (⟨S40000x256, .f32⟩ : BufTy).Contents (Elt F) → (⟨S40000x256, .f32⟩ : BufTy).Contents (Elt F)),
    StableHlo.nullary main_cst_8 (constant S_ .f32 0x3727C5AC#32),
    StableHlo.unary main_cst_8 main_v44 (broadcastInDim S256 ![] bcast_S_S256 : (⟨S_, .f32⟩ : BufTy).Contents (Elt F) → (⟨S256, .f32⟩ : BufTy).Contents (Elt F)),
    StableHlo.binary main_v40 main_v44 main_v45 (addf : (⟨S256, .f32⟩ : BufTy).Contents (Elt F) → (⟨S256, .f32⟩ : BufTy).Contents (Elt F) → (⟨S256, .f32⟩ : BufTy).Contents (Elt F)),
    StableHlo.unary main_v45 main_v46 (Host.rsqrt : (⟨S256, .f32⟩ : BufTy).Contents (Elt F) → (⟨S256, .f32⟩ : BufTy).Contents (Elt F)),
    StableHlo.unary main_v46 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S40000x256 ![0, 1] bcast_S1x256_S40000x256_0_1 : (⟨S1x256, .f32⟩ : BufTy).Contents (Elt F) → (⟨S40000x256, .f32⟩ : BufTy).Contents (Elt F)) ]

/-- The first line is the three windows in order. -/
theorem ops0_split : (ops0 : List (HloOp τ sig (Elt F))) = wA ++ (wB ++ wC) := rfl

end Cert.ReferenceIdeal.RefRun

end
-- ==== Proof.RefRun.lean ====
/-
  The run of the reference's host program.

  Run in order from the launch contents, every buffer ends at the composition of the operations that produced it;
  the argument buffers are written by no operation and end as they began. Read window by window: after window A the
  neighbour average and the previous-slab piece; after window B the dense layer over the three pieces; after
  window C the centred layer and the normalising factor; after the second line the result buffer, which is the
  function res of the seven arguments.
-/
import proofs.«107287_j91061896610587_1_alg».proof.Proof.RefWin
noncomputable section
namespace Cert.ReferenceIdeal.RefRun
open Cert.ReferenceIdeal Cert.ReferenceIdeal.Gen Idealize.ShloMosaic Idealize.ShloMosaic.TcCoe Idealize.SL.Sem Idealize.ShloMosaic.StableHlo
variable {F : FTy → Type} [FloatOps F]

/-! ## No operation leaves a buffer undetermined, and none writes an argument -/
theorem fresh0 : ∀ op ∈ (ops0 : List (HloOp τ sig (Elt F))), op.fresh = ∅ := by
  intro _ h; (repeat (cases h with | head => rfl | tail _ h => ?_)); exact nomatch h
theorem fresh1 : ∀ op ∈ (ops1 : List (HloOp τ sig (Elt F))), op.fresh = ∅ := by
  intro _ h; (repeat (cases h with | head => rfl | tail _ h => ?_)); exact nomatch h

set_option maxRecDepth 8192 in
set_option maxHeartbeats 4000000 in
theorem keep0_main_arg0 (V : Valuation τ sig (Elt F)) : after ops0 V (Proc.devRef .tc main_arg0) = V (Proc.devRef .tc main_arg0) := by
  after_results_simp
set_option maxRecDepth 8192 in
set_option maxHeartbeats 4000000 in
theorem keep0_main_arg1 (V : Valuation τ sig (Elt F)) : after ops0 V (Proc.devRef .tc main_arg1) = V (Proc.devRef .tc main_arg1) := by
  after_results_simp
set_option maxRecDepth 8192 in
set_option maxHeartbeats 4000000 in
theorem keep0_main_arg2 (V : Valuation τ sig (Elt F)) : after ops0 V (Proc.devRef .tc main_arg2) = V (Proc.devRef .tc main_arg2) := by
  after_results_simp
set_option maxRecDepth 8192 in
set_option maxHeartbeats 4000000 in
theorem keep0_main_arg3 (V : Valuation τ sig (Elt F)) : after ops0 V (Proc.devRef .tc main_arg3) = V (Proc.devRef .tc main_arg3) := by
  after_results_simp
set_option maxRecDepth 8192 in
set_option maxHeartbeats 4000000 in
theorem keep0_main_arg4 (V : Valuation τ sig (Elt F)) : after ops0 V (Proc.devRef .tc main_arg4) = V (Proc.devRef .tc main_arg4) := by
  after_results_simp
set_option maxRecDepth 8192 in
set_option maxHeartbeats 4000000 in
theorem keep0_main_arg5 (V : Valuation τ sig (Elt F)) : after ops0 V (Proc.devRef .tc main_arg5) = V (Proc.devRef .tc main_arg5) := by
  after_results_simp
set_option maxRecDepth 8192 in
set_option maxHeartbeats 4000000 in
theorem keep0_main_arg6 (V : Valuation τ sig (Elt F)) : after ops0 V (Proc.devRef .tc main_arg6) = V (Proc.devRef .tc main_arg6) := by
  after_results_simp
set_option maxRecDepth 8192 in
set_option maxHeartbeats 4000000 in
theorem keep1_main_arg0 (V : Valuation τ sig (Elt F)) : after ops1 V (Proc.devRef .tc main_arg0) = V (Proc.devRef .tc main_arg0) := by
  after_results_simp
set_option maxRecDepth 8192 in
set_option maxHeartbeats 4000000 in
theorem keep1_main_arg1 (V : Valuation τ sig (Elt F)) : after ops1 V (Proc.devRef .tc main_arg1) = V (Proc.devRef .tc main_arg1) := by
  after_results_simp
set_option maxRecDepth 8192 in
set_option maxHeartbeats 4000000 in
theorem keep1_main_arg2 (V : Valuation τ sig (Elt F)) : after ops1 V (Proc.devRef .tc main_arg2) = V (Proc.devRef .tc main_arg2) := by
  after_results_simp
set_option maxRecDepth 8192 in
set_option maxHeartbeats 4000000 in
theorem keep1_main_arg3 (V : Valuation τ sig (Elt F)) : after ops1 V (Proc.devRef .tc main_arg3) = V (Proc.devRef .tc main_arg3) := by
  after_results_simp
set_option maxRecDepth 8192 in
set_option maxHeartbeats 4000000 in
theorem keep1_main_arg4 (V : Valuation τ sig (Elt F)) : after ops1 V (Proc.devRef .tc main_arg4) = V (Proc.devRef .tc main_arg4) := by
  after_results_simp
set_option maxRecDepth 8192 in
set_option maxHeartbeats 4000000 in
theorem keep1_main_arg5 (V : Valuation τ sig (Elt F)) : after ops1 V (Proc.devRef .tc main_arg5) = V (Proc.devRef .tc main_arg5) := by
  after_results_simp
set_option maxRecDepth 8192 in
set_option maxHeartbeats 4000000 in
theorem keep1_main_arg6 (V : Valuation τ sig (Elt F)) : after ops1 V (Proc.devRef .tc main_arg6) = V (Proc.devRef .tc main_arg6) := by
  after_results_simp

theorem keep_arg (V : Valuation τ sig (Elt F)) (r : Ref sig .tc)
    (h0 : ∀ W : Valuation τ sig (Elt F), after ops0 W (Proc.devRef .tc r) = W (Proc.devRef .tc r))
    (h1 : ∀ W : Valuation τ sig (Elt F), after ops1 W (Proc.devRef .tc r) = W (Proc.devRef .tc r)) :
    after (ops0 ++ ops1) V (Proc.devRef .tc r) = V (Proc.devRef .tc r) := by
  rw [after_append, h1, h0]

/-- The dense layer over three given pieces of the input (the layer h is this at the node data, its previous-slab
    piece and the neighbour average). -/
def hOf (p0 p1 p2 : FVec Ideal S4x10000x256 .f32) (a2 : FVec Ideal S768x256 .f32) (a3 : FVec Ideal S256 .f32) :
    FVec Ideal S40000x256 .f32 :=
  addf (Host.dotGeneral dot_S40000x768_S768x256_S40000x256_1_0_0_1_n_n none
      (shapeCast S40000x768
        (concatenate S4x10000x768 2 [⟨S4x10000x256, p0⟩, ⟨S4x10000x256, p1⟩, ⟨S4x10000x256, p2⟩]
          concatenates_S4x10000x256_S4x10000x256_S4x10000x256_S4x10000x768_d2)
        shapeCasts_S4x10000x768_S40000x768)
      a2)
    (rows a3)

theorem h_eq_hOf (a0 avg : FVec Ideal S4x10000x256 .f32) (a2 : FVec Ideal S768x256 .f32) (a3 : FVec Ideal S256 .f32) :
    h a0 avg a2 a3 = hOf a0 (prev a0) avg a2 a3 := rfl

/-! ## Window A: the neighbour average and the previous-slab piece -/
set_option maxRecDepth 8192 in
set_option maxHeartbeats 4000000 in
theorem A_v27 (V : Valuation τ sig (Elt Ideal)) :
    after wA V (Proc.devRef .tc main_v27) = RefAvg.avg (V (Proc.devRef .tc main_arg0)) (V (Proc.devRef .tc main_arg1)) (V (Proc.devRef .tc main_arg6)) := by
  after_results_simp
  unfold RefAvg.avg RefAvg.num RefAvg.den RefAvg.wsum RefAvg.msg RefAvg.src RefAvg.dst RefAvg.srcRaw
  simp only [TRef.toBuf, TRef.ofBuf, cast_eq, id_eq]
  rfl
set_option maxRecDepth 8192 in
set_option maxHeartbeats 4000000 in
theorem A_v30 (V : Valuation τ sig (Elt Ideal)) : after wA V (Proc.devRef .tc main_v30) = prev (V (Proc.devRef .tc main_arg0)) := by
  after_results_simp
  rfl
set_option maxRecDepth 8192 in
set_option maxHeartbeats 4000000 in
theorem A_keep_main_arg0 (W : Valuation τ sig (Elt Ideal)) : after wA W (Proc.devRef .tc main_arg0) = W (Proc.devRef .tc main_arg0) := by
  after_results_simp
set_option maxRecDepth 8192 in
set_option maxHeartbeats 4000000 in
theorem A_keep_main_arg2 (W : Valuation τ sig (Elt Ideal)) : after wA W (Proc.devRef .tc main_arg2) = W (Proc.devRef .tc main_arg2) := by
  after_results_simp
set_option maxRecDepth 8192 in
set_option maxHeartbeats 4000000 in
theorem A_keep_main_arg3 (W : Valuation τ sig (Elt Ideal)) : after wA W (Proc.devRef .tc main_arg3) = W (Proc.devRef .tc main_arg3) := by
  after_results_simp
set_option maxRecDepth 8192 in
set_option maxHeartbeats 4000000 in
theorem A_keep_main_arg4 (W : Valuation τ sig (Elt Ideal)) : after wA W (Proc.devRef .tc main_arg4) = W (Proc.devRef .tc main_arg4) := by
  after_results_simp
set_option maxRecDepth 8192 in
set_option maxHeartbeats 4000000 in
theorem A_keep_main_arg5 (W : Valuation τ sig (Elt Ideal)) : after wA W (Proc.devRef .tc main_arg5) = W (Proc.devRef .tc main_arg5) := by
  after_results_simp

/-! ## Window B: the dense layer over the three pieces -/
set_option maxRecDepth 8192 in
set_option maxHeartbeats 4000000 in
theorem B_v36 (W : Valuation τ sig (Elt Ideal)) :
    after wB W (Proc.devRef .tc main_v36) = hOf (W (Proc.devRef .tc main_arg0)) (W (Proc.devRef .tc main_v30)) (W (Proc.devRef .tc main_v27)) (W (Proc.devRef .tc main_arg2)) (W (Proc.devRef .tc main_arg3)) := by
  after_results_simp
  rfl
set_option maxRecDepth 8192 in
set_option maxHeartbeats 4000000 in
theorem B_keep_main_arg4 (W : Valuation τ sig (Elt Ideal)) : after wB W (Proc.devRef .tc main_arg4) = W (Proc.devRef .tc main_arg4) := by
  after_results_simp
set_option maxRecDepth 8192 in
set_option maxHeartbeats 4000000 in
theorem B_keep_main_arg5 (W : Valuation τ sig (Elt Ideal)) : after wB W (Proc.devRef .tc main_arg5) = W (Proc.devRef .tc main_arg5) := by
  after_results_simp

/-! ## Window C: the centred layer and the normalising factor -/
set_option maxRecDepth 8192 in
set_option maxHeartbeats 4000000 in
theorem C_v43 (W : Valuation τ sig (Elt Ideal)) :
    after wC W (Proc.devRef .tc main_v43) = subf (W (Proc.devRef .tc main_v36)) (rows (mean (W (Proc.devRef .tc main_v36)))) := by
  after_results_simp
  rfl
set_option maxRecDepth 8192 in
set_option maxHeartbeats 4000000 in
theorem C_v48 (W : Valuation τ sig (Elt Ideal)) :
    after wC W (Proc.devRef .tc main_v48)
      = rows (Host.rsqrt (addf (var (W (Proc.devRef .tc main_v36))) (broadcastInDim S256 ![] bcast_S_S256 (constant S_ .f32 0x3727C5AC#32)))) := by
  after_results_simp
  rfl
set_option maxRecDepth 8192 in
set_option maxHeartbeats 4000000 in
theorem C_keep_main_arg4 (W : Valuation τ sig (Elt Ideal)) : after wC W (Proc.devRef .tc main_arg4) = W (Proc.devRef .tc main_arg4) := by
  after_results_simp
set_option maxRecDepth 8192 in
set_option maxHeartbeats 4000000 in
theorem C_keep_main_arg5 (W : Valuation τ sig (Elt Ideal)) : after wC W (Proc.devRef .tc main_arg5) = W (Proc.devRef .tc main_arg5) := by
  after_results_simp

/-! ## The second line: scale, shift, the floor at zero, the rows unflattened -/
set_option maxRecDepth 8192 in
set_option maxHeartbeats 4000000 in
theorem D_v57 (W : Valuation τ sig (Elt Ideal)) :
    after ops1 W (Proc.devRef .tc main_v57)
      = shapeCast S4x10000x256
          (maximumf (addf (mulf (mulf (W (Proc.devRef .tc main_v43)) (W (Proc.devRef .tc main_v48))) (rows (W (Proc.devRef .tc main_arg4)))) (rows (W (Proc.devRef .tc main_arg5))))
            (broadcastInDim S40000x256 ![] bcast_S_S40000x256 (constant S_ .f32 0x00000000#32)))
          shapeCasts_S40000x256_S4x10000x256 := by
  after_results_simp
  rfl

/-- After both lines the result buffer holds res of the argument buffers' launch contents. -/
theorem out_eq (V : Valuation τ sig (Elt Ideal)) :
    after (ops0 ++ ops1) V (Proc.devRef .tc main_v57)
      = res (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [after_append, ops0_split, after_append, after_append]
  rw [D_v57, C_v43, C_v48, C_keep_main_arg4, C_keep_main_arg5, B_v36, B_keep_main_arg4, B_keep_main_arg5,
    A_v27, A_v30, A_keep_main_arg0, A_keep_main_arg2, A_keep_main_arg3, A_keep_main_arg4, A_keep_main_arg5]
  rw [← h_eq_hOf]
  rfl

/-! ## The run -/
/-- From any memory with zero counters, every weakly fair execution of the reference terminates with the result
    buffer at res of the seven arguments and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc main_v57) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread Cert.ReferenceIdeal.nD Cert.ReferenceIdeal.τ).loc main_arg0) = m ((c.tc : Thread Cert.ReferenceIdeal.nD Cert.ReferenceIdeal.τ).loc main_arg0)
      ∧ r.2.mem ((c.tc : Thread Cert.ReferenceIdeal.nD Cert.ReferenceIdeal.τ).loc main_arg1) = m ((c.tc : Thread Cert.ReferenceIdeal.nD Cert.ReferenceIdeal.τ).loc main_arg1)
      ∧ r.2.mem ((c.tc : Thread Cert.ReferenceIdeal.nD Cert.ReferenceIdeal.τ).loc main_arg2) = m ((c.tc : Thread Cert.ReferenceIdeal.nD Cert.ReferenceIdeal.τ).loc main_arg2)
      ∧ r.2.mem ((c.tc : Thread Cert.ReferenceIdeal.nD Cert.ReferenceIdeal.τ).loc main_arg3) = m ((c.tc : Thread Cert.ReferenceIdeal.nD Cert.ReferenceIdeal.τ).loc main_arg3)
      ∧ r.2.mem ((c.tc : Thread Cert.ReferenceIdeal.nD Cert.ReferenceIdeal.τ).loc main_arg4) = m ((c.tc : Thread Cert.ReferenceIdeal.nD Cert.ReferenceIdeal.τ).loc main_arg4)
      ∧ r.2.mem ((c.tc : Thread Cert.ReferenceIdeal.nD Cert.ReferenceIdeal.τ).loc main_arg5) = m ((c.tc : Thread Cert.ReferenceIdeal.nD Cert.ReferenceIdeal.τ).loc main_arg5)
      ∧ r.2.mem ((c.tc : Thread Cert.ReferenceIdeal.nD Cert.ReferenceIdeal.τ).loc main_arg6) = m ((c.tc : Thread Cert.ReferenceIdeal.nD Cert.ReferenceIdeal.τ).loc main_arg6)
      ) :=
  (θ_run defs _ _).mono (fun _ h c => ⟨(h c main_v57).trans (out_eq _),
      (h c main_arg0).trans (keep_arg _ main_arg0 keep0_main_arg0 keep1_main_arg0),
      (h c main_arg1).trans (keep_arg _ main_arg1 keep0_main_arg1 keep1_main_arg1),
      (h c main_arg2).trans (keep_arg _ main_arg2 keep0_main_arg2 keep1_main_arg2),
      (h c main_arg3).trans (keep_arg _ main_arg3 keep0_main_arg3 keep1_main_arg3),
      (h c main_arg4).trans (keep_arg _ main_arg4 keep0_main_arg4 keep1_main_arg4),
      (h c main_arg5).trans (keep_arg _ main_arg5 keep0_main_arg5 keep1_main_arg5),
      (h c main_arg6).trans (keep_arg _ main_arg6 keep0_main_arg6 keep1_main_arg6)⟩)
    (run_seq scopedRefs_eq scopedSems_eq defs main (fun _ => ops0 ++ ops1) main_eq (fun _ => ops_sub) m ρ
      (fun _ op hop => (List.mem_append.mp hop).elim (fresh0 op) (fresh1 op)))

/-- The same run with the result forgotten: the reference terminates and leaves its arguments as they were. -/
theorem frame (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc main_arg0) = m ((c.tc : Thread Cert.ReferenceIdeal.nD Cert.ReferenceIdeal.τ).loc main_arg0)
      ∧ r.2.mem ((c.tc : Thread Cert.ReferenceIdeal.nD Cert.ReferenceIdeal.τ).loc main_arg1) = m ((c.tc : Thread Cert.ReferenceIdeal.nD Cert.ReferenceIdeal.τ).loc main_arg1)
      ∧ r.2.mem ((c.tc : Thread Cert.ReferenceIdeal.nD Cert.ReferenceIdeal.τ).loc main_arg2) = m ((c.tc : Thread Cert.ReferenceIdeal.nD Cert.ReferenceIdeal.τ).loc main_arg2)
      ∧ r.2.mem ((c.tc : Thread Cert.ReferenceIdeal.nD Cert.ReferenceIdeal.τ).loc main_arg3) = m ((c.tc : Thread Cert.ReferenceIdeal.nD Cert.ReferenceIdeal.τ).loc main_arg3)
      ∧ r.2.mem ((c.tc : Thread Cert.ReferenceIdeal.nD Cert.ReferenceIdeal.τ).loc main_arg4) = m ((c.tc : Thread Cert.ReferenceIdeal.nD Cert.ReferenceIdeal.τ).loc main_arg4)
      ∧ r.2.mem ((c.tc : Thread Cert.ReferenceIdeal.nD Cert.ReferenceIdeal.τ).loc main_arg5) = m ((c.tc : Thread Cert.ReferenceIdeal.nD Cert.ReferenceIdeal.τ).loc main_arg5)
      ∧ r.2.mem ((c.tc : Thread Cert.ReferenceIdeal.nD Cert.ReferenceIdeal.τ).loc main_arg6) = m ((c.tc : Thread Cert.ReferenceIdeal.nD Cert.ReferenceIdeal.τ).loc main_arg6)
      ) :=
  (θ_run _ _ _).mono (fun _ h c => (h c).2) (run m ρ)

end Cert.ReferenceIdeal.RefRun
end
-- ==== Proof.Claims.lean ====
/-
  The five claims.

  * The three frame claims: each program's run terminates without fault and leaves its seven arguments unchanged.
  * The idealization's ledger: the one named constant, twice, is the real 1/40000 the certificate's table gives it.
  * The algebraic claim: at the ideal instance, from memories agreeing on the arguments, the kernel program's result
    array is the specification's three-product spelling (the layer as three sums of 256 products; variance
    E[h²] − E[h]²) at the neighbour average of the arguments, the reference's result is the one-product spelling (one
    sum of 768 products; variance E[(h − mean)²]) at the same average, and the two spellings agree when the node
    data, the average, the weights and the bias are real-valued, which the precondition gives: every float
    argument is finite, and the average of finite data is a real over a nonzero real.
-/
import proofs.«107287_j91061896610587_1_alg».proof.Defs
import proofs.«107287_j91061896610587_1_alg».proof.Proof.Gen.Kernel
import proofs.«107287_j91061896610587_1_alg».proof.Proof.Gen.KernelIdeal
import proofs.«107287_j91061896610587_1_alg».proof.Proof.Gen.ReferenceIdeal
import proofs.«107287_j91061896610587_1_alg».proof.Proof.Gen.Pre_finite_inputs
import proofs.«107287_j91061896610587_1_alg».proof.Proof.KB.Run
import proofs.«107287_j91061896610587_1_alg».proof.Proof.KI.Run
import proofs.«107287_j91061896610587_1_alg».proof.Proof.KI.Value
import proofs.«107287_j91061896610587_1_alg».proof.Proof.KI.HostVals3
import proofs.«107287_j91061896610587_1_alg».proof.Proof.Bridge
import proofs.«107287_j91061896610587_1_alg».proof.Proof.FinitePre
import proofs.«107287_j91061896610587_1_alg».proof.Proof.FiniteAvg
import proofs.«107287_j91061896610587_1_alg».proof.Proof.RefValue
import proofs.«107287_j91061896610587_1_alg».proof.Proof.KI.Val0Sum
import proofs.«107287_j91061896610587_1_alg».proof.Proof.RefRun

noncomputable section

open Idealize.ShloMosaic Idealize.ShloMosaic.TcCoe Idealize.SL.Sem

namespace Cert.Proof.Claims

/-- The kernel program as printed runs and leaves its arguments unchanged. -/
theorem frame_k : Cert.frame_Kernel := fun m ρ _ =>
  (θ_run Cert.Kernel.defs _ _).mono (fun _ h c => (h c).2) (Cert.Kernel.Hand.run (F := Bits) m ρ)

/-- The idealized kernel program runs and leaves its arguments unchanged. -/
theorem frame_ki : Cert.frame_KernelIdeal := fun m ρ _ =>
  (θ_run Cert.KernelIdeal.defs _ _).mono (fun _ h c => (h c).2) (Cert.KernelIdeal.Hand.run (F := Ideal) m ρ)

/-- The ledger's two entries: the certificate's table gives the name the real 1/40000, and the printed constant is
    that value at the ideal instance. -/
theorem preserves : Cert.preserves_Kernel_KernelIdeal :=
  ⟨IdealRules.named_const.statement Cert.KernelIdeal.κ "inv_40000" .f32 0x37D1B717#32 ((1 / 40000 : ℝ) : EReal) rfl,
   IdealRules.named_const.statement Cert.KernelIdeal.κ "inv_40000" .f32 0x37D1B717#32 ((1 / 40000 : ℝ) : EReal) rfl⟩

/-- The idealized reference runs and leaves its arguments unchanged. -/
theorem frame_ri : Cert.frame_ReferenceIdeal := fun m ρ _ =>
  (θ_run Cert.ReferenceIdeal.defs _ _).mono (fun _ h c => (h c).2) (Cert.ReferenceIdeal.RefRun.run m ρ)

/-- At the ideal instance both results are the shared specification at the neighbour average of the arguments, in its two
    spellings, which agree for real-valued data; the precondition makes the data real-valued. -/
theorem algebraic : Cert.algebraic_KernelIdeal_ReferenceIdeal := by
  intro m ρ m' ρ' hpre hagree
  refine ⟨fun c => Cert.KernelIdeal.Hand.W6 m c (Proc.devRef .tc Cert.KernelIdeal.main_v43),
    Cert.KernelIdeal.Hand.run (F := Ideal) m ρ, ?_⟩
  refine (θ_run Cert.ReferenceIdeal.defs _ _).mono (fun r h c => ⟨(h c).1.trans ?_, (h c).2⟩)
    (Cert.ReferenceIdeal.RefRun.run m' ρ')
  obtain ⟨e0, e1, e2, e3, e4, e5, e6⟩ := hagree c
  rw [e0, e1, e2, e3, e4, e5, e6, Cert.ReferenceIdeal.RefValue.res_eq]
  refine Eq.trans ?_ (Cert.KernelIdeal.Hand.value_of m c
    (Cert.KernelIdeal.Hand.Z5 (Cert.KernelIdeal.Hand.V3 m) c) (Cert.KernelIdeal.Hand.Z6 (Cert.KernelIdeal.Hand.V3 m) c)
    (Cert.KernelIdeal.Hand.Z7 (Cert.KernelIdeal.Hand.V3 m) c)).symm
  obtain ⟨r0, r1, r2, r3, r4, r5⟩ := Cert.Finite.real_of_pre _ _ _ _ _ _ _ (hpre c)
  rw [← Cert.KernelIdeal.HostVals.avgK_eq_ref]
  exact (Cert.Bridge.outSplit_eq_outWhole _ _ _ _ _ _ r0
    (fun i => by rw [Cert.KernelIdeal.HostVals.avgK_eq_ref]; exact Cert.Finite.avg_real _ _ _ r0 r1 i) r2 r3).symm

end Cert.Proof.Claims

end
-- ==== Proof.lean ====
/- The proof of `Cert.Claim` (proofs.«107287_j91061896610587_1_alg».proof.Defs).

   The three programs compute one graph layer. From the node data a0 [4, 10000, 256], the edge weights and the edge
   table, the neighbour average is the edge-weighted sum of the gathered node rows per destination node divided by the
   node's weight sum (a zero sum replaced by one). Row r = 10000 t + n of the layer's input is
   [node data (t, n) | node data (t, n) for t ≥ 1 and zero for t = 0 | average (t, n)], 768 columns; the dense layer is
   h = x · W + b over the 40000 rows; then batch normalisation over the rows of each column with the biased variance,
   the scale γ and shift β, and the maximum with zero.

   The kernel computes h as three products of 256 columns each, keeps the running column sums of h and of h·h over ten
   blocks of 4000 rows, and takes mean = (Σ h) · (1/40000) and variance = (Σ h·h) · (1/40000) − mean², the reciprocal a
   named constant that is the real 1/40000 at the ideal instance; a second pass normalises each block. The reference
   computes h as one product of 768 columns, mean = (Σ h) / 40000 and variance = (Σ (h − mean)²) / 40000.

   Over the extended reals the two agree for finite inputs: splitting the sum over 768 columns into three sums over 256
   uses only associativity and commutativity of addition; dividing by 40000 is multiplying by 1/40000; and for
   real-valued h the mean of squares minus the square of the mean equals the mean of the squared deviations
   (Σ (h − μ)² = Σ h² − 2 μ Σ h + 40000 μ² with μ = (Σ h)/40000). Finiteness of the inputs makes every entry of h a real
   number (the neighbour average is a real divided by a nonzero real), which is where the precondition is used.

   Each claim is proved in Proof/Claims.lean: the three frame claims from the programs' runs, the idealization's one
   named constant by its rule's statement, the algebraic claim by reading both results as the shared specification
   (Proof/Spec.lean) and joining its two spellings (Proof/Bridge.lean). -/
import proofs.«107287_j91061896610587_1_alg».proof.Defs
import proofs.«107287_j91061896610587_1_alg».proof.Proof.Gen.Kernel
import proofs.«107287_j91061896610587_1_alg».proof.Proof.Gen.Kernel.Skeleton
import proofs.«107287_j91061896610587_1_alg».proof.Proof.Gen.Kernel.Launch
import proofs.«107287_j91061896610587_1_alg».proof.Proof.Gen.Kernel.Regions
import proofs.«107287_j91061896610587_1_alg».proof.Proof.Gen.Kernel.Points
import proofs.«107287_j91061896610587_1_alg».proof.Proof.Gen.KernelIdeal
import proofs.«107287_j91061896610587_1_alg».proof.Proof.Gen.KernelIdeal.Skeleton
import proofs.«107287_j91061896610587_1_alg».proof.Proof.Gen.KernelIdeal.Launch
import proofs.«107287_j91061896610587_1_alg».proof.Proof.Gen.KernelIdeal.Regions
import proofs.«107287_j91061896610587_1_alg».proof.Proof.Gen.KernelIdeal.Points
import proofs.«107287_j91061896610587_1_alg».proof.Proof.Gen.ReferenceIdeal
import proofs.«107287_j91061896610587_1_alg».proof.Proof.Gen.Pre_finite_inputs
import proofs.«107287_j91061896610587_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
